-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64 .f32) (main_arg6 : FVec F S64x32 .f32) (main_arg7 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64 .f32) (main_arg5 : FVec F S64 .f32) (main_arg6 : FVec F S64x32 .f32) (main_arg7 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x128 : Shape := ⟨2, ![2000, 128]⟩
abbrev S2000x64 : Shape := ⟨2, ![2000, 64]⟩
abbrev S1700000x64 : Shape := ⟨2, ![1700000, 64]⟩
abbrev S1x64 : Shape := ⟨2, ![1, 64]⟩
abbrev S100000x32 : Shape := ⟨2, ![100000, 32]⟩
abbrev S2000x32 : Shape := ⟨2, ![2000, 32]⟩
abbrev S1700000x32 : Shape := ⟨2, ![1700000, 32]⟩
abbrev S1x32 : Shape := ⟨2, ![1, 32]⟩

abbrev nBuf : Space → Nat
  | .hbm => 104
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x64, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x1, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S1x64, .f32⟩
  | .hbm, ⟨65, _⟩ => ⟨S1x64, .f32⟩
  | .hbm, ⟨66, _⟩ => ⟨S_, .f32⟩
  | .hbm, ⟨67, _⟩ => ⟨S1x64, .f32⟩
  | .hbm, ⟨68, _⟩ => ⟨S1x64, .f32⟩
  | .hbm, ⟨69, _⟩ => ⟨S_, .f32⟩
  | .hbm, ⟨70, _⟩ => ⟨S1x64, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S_, .f32⟩
  | .hbm, ⟨76, _⟩ => ⟨S1x64, .f32⟩
  | .hbm, ⟨77, _⟩ => ⟨S1x64, .f32⟩
  | .hbm, ⟨78, _⟩ => ⟨S1x64, .f32⟩
  | .hbm, ⟨79, _⟩ => ⟨S1x64, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S100000x64, .f32⟩
  | .hbm, ⟨84, _⟩ => ⟨S100000x32, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000x32, .f32⟩
  | .hbm, ⟨94, _⟩ => ⟨S1700000x1, .f32⟩
  | .hbm, ⟨95, _⟩ => ⟨S1700000x32, .f32⟩
  | .hbm, ⟨96, _⟩ => ⟨S1700000x32, .f32⟩
  | .hbm, ⟨97, _⟩ => ⟨S_, .f32⟩
  | .hbm, ⟨98, _⟩ => ⟨S100000x32, .f32⟩
  | .hbm, ⟨99, _⟩ => ⟨S1700000x1, .i32⟩
  | .hbm, ⟨100, _⟩ => ⟨S100000x32, .f32⟩
  | .hbm, ⟨101, _⟩ => ⟨S1x32, .f32⟩
  | .hbm, ⟨102, _⟩ => ⟨S100000x32, .f32⟩
  | .hbm, ⟨103, _⟩ => ⟨S100000x32, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S1x64, .f32⟩
  | .local _ .vmem, ⟨9, _⟩ => ⟨S2000x64, .f32⟩
  | .local _ .vmem, ⟨10, _⟩ => ⟨S2000x64, .f32⟩
  | .local _ .vmem, ⟨11, _⟩ => ⟨S1x64, .f32⟩
  | .local _ .vmem, ⟨12, _⟩ => ⟨S1x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S64x32, .f32⟩
  | .local _ .vmem, ⟨18, _⟩ => ⟨S2000x32, .f32⟩
  | .local _ .vmem, ⟨19, _⟩ => ⟨S2000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46_0 : Ref sig .tc := ⟨.hbm, 64, rfl⟩
abbrev main_v46_1 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_11 : Ref sig .tc := ⟨.hbm, 85, rfl⟩
abbrev main_v63 : Ref sig .tc := ⟨.hbm, 86, rfl⟩
abbrev main_v64 : Ref sig .tc := ⟨.hbm, 87, rfl⟩
abbrev main_c_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S1x64_S1x64_0_0 : ∀ a, (![0, 0] : Fin 2 → Nat) a + S1x64.size a ≤ S1x64.size a
  h_S1x64 : 0 < S1x64.numel
  shapeCasts_S2000x64_S2000x64 : S2000x64.ShapeCasts S2000x64
  shapeCasts_S1x64_S1x64 : S1x64.ShapeCasts S1x64
  reduces_S2000x64_S64 : S2000x64.Reduces [0] S64
  shapeCasts_S64_S1x64 : S64.ShapeCasts S1x64
  bcast_S_S1x64 : S_.BroadcastsInDim S1x64 (![] : Fin 0 → Fin S1x64.rank)
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S2000x32_S2000x32_0_0 : ∀ a, (![0, 0] : Fin 2 → Nat) a + S2000x32.size a ≤ S2000x32.size a
  h_S2000x32 : 0 < S2000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x32_S2000x32_1_0_0_1_n_n_wf : DotDims.WF S2000x64 S64x32 S2000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x32.size a ≤ S100000x32.size a
  hwx3_2 : ∀ i : grid3.Coords, EltTy.bits .f32 = 32 ∨ (Rect.block (s := S100000x32) S2000x32.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v61) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S2000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64, .f32⟩
  | 5 => ⟨S64, .f32⟩
  | 6 => ⟨S64x32, .f32⟩
  | 7 => ⟨S32, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S100000, .f32⟩
  | 22 => ⟨S_, .f32⟩
  | 23 => ⟨S100000, .f32⟩
  | 24 => ⟨S100000, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S100000x64, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x64, .f32⟩
  | 54 => ⟨S1700000x1, .f32⟩
  | 55 => ⟨S1700000x64, .f32⟩
  | 56 => ⟨S1700000x64, .f32⟩
  | 57 => ⟨S_, .f32⟩
  | 58 => ⟨S100000x64, .f32⟩
  | 59 => ⟨S1700000x1, .i32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S64, .f32⟩
  | 66 => ⟨S_, .f32⟩
  | 67 => ⟨S64, .f32⟩
  | 68 => ⟨S64, .f32⟩
  | 69 => ⟨S_, .i32⟩
  | 70 => ⟨S_, .f32⟩
  | 71 => ⟨S64, .f32⟩
  | 72 => ⟨S1x64, .f32⟩
  | 73 => ⟨S_, .f32⟩
  | 74 => ⟨S1x64, .f32⟩
  | 75 => ⟨S1x64, .f32⟩
  | 76 => ⟨S100000x64, .f32⟩
  | 77 => ⟨S100000x64, .f32⟩
  | 78 => ⟨S100000x64, .f32⟩
  | 79 => ⟨S_, .f32⟩
  | 80 => ⟨S_, .f32⟩
  | 81 => ⟨S_, .f32⟩
  | 82 => ⟨S_, .f32⟩
  | 83 => ⟨S64, .f32⟩
  | 84 => ⟨S64, .f32⟩
  | 85 => ⟨S64, .f32⟩
  | 86 => ⟨S_, .f32⟩
  | 87 => ⟨S_, .i1⟩
  | 88 => ⟨S_, .f32⟩
  | 89 => ⟨S_, .f32⟩
  | 90 => ⟨S64, .f32⟩
  | 91 => ⟨S64, .f32⟩
  | 92 => ⟨S1x64, .f32⟩
  | 93 => ⟨S100000x64, .f32⟩
  | 94 => ⟨S100000x64, .f32⟩
  | 95 => ⟨S_, .f32⟩
  | 96 => ⟨S64, .f32⟩
  | 97 => ⟨S64, .f32⟩
  | 98 => ⟨S64, .f32⟩
  | 99 => ⟨S1x64, .f32⟩
  | 100 => ⟨S100000x64, .f32⟩
  | 101 => ⟨S100000x64, .f32⟩
  | 102 => ⟨S1x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S_, .f32⟩
  | 109 => ⟨S100000x64, .f32⟩
  | 110 => ⟨S100000x64, .f32⟩
  | 111 => ⟨S100000x32, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x32, .f32⟩
  | 121 => ⟨S1700000x1, .f32⟩
  | 122 => ⟨S1700000x32, .f32⟩
  | 123 => ⟨S1700000x32, .f32⟩
  | 124 => ⟨S_, .f32⟩
  | 125 => ⟨S100000x32, .f32⟩
  | 126 => ⟨S1700000x1, .i32⟩
  | 127 => ⟨S100000x32, .f32⟩
  | _ => ⟨S100000x128, .f32⟩

abbrev hbmTy0_1 (i : Nat) : BufTy := match i % 128 with
  | 0 => ⟨S1x32, .f32⟩
  | 1 => ⟨S100000x32, .f32⟩
  | 2 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_call0_cst : Ref sig .tc := ⟨.hbm, 70, rfl⟩
abbrev main_call0_v0 : Ref sig .tc := ⟨.hbm, 71, rfl⟩
abbrev main_call0_v1 : Ref sig .tc := ⟨.hbm, 72, rfl⟩
abbrev main_call0_cst_0 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_v6 : Ref sig .tc := ⟨.hbm, 78, rfl⟩
abbrev main_call0_v7 : Ref sig .tc := ⟨.hbm, 79, rfl⟩
abbrev main_call0_cst_1 : Ref sig .tc := ⟨.hbm, 80, rfl⟩
abbrev main_call0_v8 : Ref sig .tc := ⟨.hbm, 81, rfl⟩
abbrev main_call0_cst_2 : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_call0_cst_3 : Ref sig .tc := ⟨.hbm, 86, rfl⟩
abbrev main_call0_v12 : Ref sig .tc := ⟨.hbm, 87, rfl⟩
abbrev main_call0_cst_4 : Ref sig .tc := ⟨.hbm, 88, rfl⟩
abbrev main_call0_call0_v0 : Ref sig .tc := ⟨.hbm, 89, rfl⟩
abbrev main_call0_call0_v1 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_11 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_call1_cst : Ref sig .tc := ⟨.hbm, 108, rfl⟩
abbrev main_call1_v0 : Ref sig .tc := ⟨.hbm, 109, rfl⟩
abbrev main_v65 : Ref sig .tc := ⟨.hbm, 110, rfl⟩
abbrev main_v66 : Ref sig .tc := ⟨.hbm, 111, rfl⟩
abbrev main_c_12 : Ref sig .tc := ⟨.hbm, 112, rfl⟩
abbrev main_v67 : Ref sig .tc := ⟨.hbm, 113, rfl⟩
abbrev main_v68 : Ref sig .tc := ⟨.hbm, 114, rfl⟩
abbrev main_c_13 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_cst_14 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KRun.lean ====
import proofs.«177512_j55714315763894_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run of @main with its result named

Every weakly fair execution of @main from a memory with zero counters terminates without a fault, and in
every final state the result buffer holds the last boundary's contents `Gen.W8` at the result's reference,
while each argument array is as launched. The boundary contents are a fold of the host stretches and of the
regions' write-backs over the launch memory; the equations below read that fold stretch by stretch. -/

open Cert.KernelIdeal.Gen in
set_option backward.isDefEq.respectTransparency.types false in
theorem run_main : θ_run defs (onTc (τ := τ) (main (F := F))) ⟨m, fun _ => 0, ρ⟩ (fun r => ∀ c : Dev nD,
      r.2.mem ((c.tc : Thread nD τ).loc main_v78) = Gen.W8 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v78 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

/-! ## Buffers carried unchanged across the boundaries

A host stretch changes only the buffers its operations write; a region changes only its output arrays. So an
argument array, or a value computed by an earlier stretch, is read at a later boundary as it was where it was
last written. -/

/-- A buffer that no operation of the named host stretch writes holds after the stretch what it held before. -/
local macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

section Keep
variable (c : Dev nD)

/-! ### At the first region's entry -/

theorem W1_arg0 : Gen.W1 m ρ c (Proc.devRef .tc main_arg0) = m ((c : Thread nD τ).loc main_arg0) :=
  calc Gen.W1 m ρ c (Proc.devRef .tc main_arg0)
    _ = Gen.W0 m ρ c (Proc.devRef .tc main_arg0) := by host_keeps Gen.hostOps0
    _ = m ((c : Thread nD τ).loc main_arg0) := rfl
theorem W1_arg2 : Gen.W1 m ρ c (Proc.devRef .tc main_arg2) = m ((c : Thread nD τ).loc main_arg2) :=
  calc Gen.W1 m ρ c (Proc.devRef .tc main_arg2)
    _ = Gen.W0 m ρ c (Proc.devRef .tc main_arg2) := by host_keeps Gen.hostOps0
    _ = m ((c : Thread nD τ).loc main_arg2) := rfl
theorem W1_arg3 : Gen.W1 m ρ c (Proc.devRef .tc main_arg3) = m ((c : Thread nD τ).loc main_arg3) :=
  calc Gen.W1 m ρ c (Proc.devRef .tc main_arg3)
    _ = Gen.W0 m ρ c (Proc.devRef .tc main_arg3) := by host_keeps Gen.hostOps0
    _ = m ((c : Thread nD τ).loc main_arg3) := rfl
theorem W1_arg4 : Gen.W1 m ρ c (Proc.devRef .tc main_arg4) = m ((c : Thread nD τ).loc main_arg4) :=
  calc Gen.W1 m ρ c (Proc.devRef .tc main_arg4)
    _ = Gen.W0 m ρ c (Proc.devRef .tc main_arg4) := by host_keeps Gen.hostOps0
    _ = m ((c : Thread nD τ).loc main_arg4) := rfl
theorem W1_arg5 : Gen.W1 m ρ c (Proc.devRef .tc main_arg5) = m ((c : Thread nD τ).loc main_arg5) :=
  calc Gen.W1 m ρ c (Proc.devRef .tc main_arg5)
    _ = Gen.W0 m ρ c (Proc.devRef .tc main_arg5) := by host_keeps Gen.hostOps0
    _ = m ((c : Thread nD τ).loc main_arg5) := rfl
theorem W1_arg6 : Gen.W1 m ρ c (Proc.devRef .tc main_arg6) = m ((c : Thread nD τ).loc main_arg6) :=
  calc Gen.W1 m ρ c (Proc.devRef .tc main_arg6)
    _ = Gen.W0 m ρ c (Proc.devRef .tc main_arg6) := by host_keeps Gen.hostOps0
    _ = m ((c : Thread nD τ).loc main_arg6) := rfl
theorem W1_arg7 : Gen.W1 m ρ c (Proc.devRef .tc main_arg7) = m ((c : Thread nD τ).loc main_arg7) :=
  calc Gen.W1 m ρ c (Proc.devRef .tc main_arg7)
    _ = Gen.W0 m ρ c (Proc.devRef .tc main_arg7) := by host_keeps Gen.hostOps0
    _ = m ((c : Thread nD τ).loc main_arg7) := rfl

/-- Region 0 reads its two input arrays as the arguments were launched. -/
theorem V1_arg0 : Gen.V1 m ρ c main_arg0 = m ((c : Thread nD τ).loc main_arg0) := W1_arg0 m ρ c
theorem V1_arg2 : Gen.V1 m ρ c main_arg2 = m ((c : Thread nD τ).loc main_arg2) := W1_arg2 m ρ c

/-! ### At the first region's exit -/

theorem W2_v29 : Gen.W2 m ρ c (Proc.devRef .tc main_v29) = (Gen.dat0 (Gen.V1 m ρ) c).arrAt 2 cfg0.N :=
  Gen.W2_arr m ρ c 2
theorem W2_v3 : Gen.W2 m ρ c (Proc.devRef .tc main_v3) = Gen.W1 m ρ c (Proc.devRef .tc main_v3) :=
  Gen.W2_of_ne m ρ c main_v3 (by decide)
theorem W2_v6 : Gen.W2 m ρ c (Proc.devRef .tc main_v6) = Gen.W1 m ρ c (Proc.devRef .tc main_v6) :=
  Gen.W2_of_ne m ρ c main_v6 (by decide)
theorem W2_v28 : Gen.W2 m ρ c (Proc.devRef .tc main_v28) = Gen.W1 m ρ c (Proc.devRef .tc main_v28) :=
  Gen.W2_of_ne m ρ c main_v28 (by decide)
theorem W2_arg3 : Gen.W2 m ρ c (Proc.devRef .tc main_arg3) = m ((c : Thread nD τ).loc main_arg3) :=
  (Gen.W2_of_ne m ρ c main_arg3 (by decide)).trans (W1_arg3 m ρ c)

/-! ### At the second region's exit -/

theorem W4_v45 : Gen.W4 m ρ c (Proc.devRef .tc main_v45) = Gen.W3 m ρ c (Proc.devRef .tc main_v45) :=
  (Gen.W4_arr m ρ c 0).trans (((Gen.dat1 (Gen.V3 m ρ) c).arrAt_in 0 rfl _).trans (Gen.A_eq1 (Gen.V3 m ρ) c 0))
theorem W4_v46_0 : Gen.W4 m ρ c (Proc.devRef .tc main_v46_0) = (Gen.dat1 (Gen.V3 m ρ) c).arrAt 1 cfg1.N :=
  Gen.W4_arr m ρ c 1
theorem W4_v46_1 : Gen.W4 m ρ c (Proc.devRef .tc main_v46_1) = (Gen.dat1 (Gen.V3 m ρ) c).arrAt 2 cfg1.N :=
  Gen.W4_arr m ρ c 2
theorem W4_arg4 : Gen.W4 m ρ c (Proc.devRef .tc main_arg4) = m ((c : Thread nD τ).loc main_arg4) :=
  calc Gen.W4 m ρ c (Proc.devRef .tc main_arg4)
    _ = Gen.W3 m ρ c (Proc.devRef .tc main_arg4) := Gen.W4_of_ne m ρ c main_arg4 (by decide)
    _ = Gen.W2 m ρ c (Proc.devRef .tc main_arg4) := by host_keeps Gen.hostOps1
    _ = Gen.W1 m ρ c (Proc.devRef .tc main_arg4) := Gen.W2_of_ne m ρ c main_arg4 (by decide)
    _ = m ((c : Thread nD τ).loc main_arg4) := W1_arg4 m ρ c
theorem W4_arg5 : Gen.W4 m ρ c (Proc.devRef .tc main_arg5) = m ((c : Thread nD τ).loc main_arg5) :=
  calc Gen.W4 m ρ c (Proc.devRef .tc main_arg5)
    _ = Gen.W3 m ρ c (Proc.devRef .tc main_arg5) := Gen.W4_of_ne m ρ c main_arg5 (by decide)
    _ = Gen.W2 m ρ c (Proc.devRef .tc main_arg5) := by host_keeps Gen.hostOps1
    _ = Gen.W1 m ρ c (Proc.devRef .tc main_arg5) := Gen.W2_of_ne m ρ c main_arg5 (by decide)
    _ = m ((c : Thread nD τ).loc main_arg5) := W1_arg5 m ρ c

/-! ### At the third region's entry and exit -/

/-- The normalisation statistics' stretch and the reduction region leave the first layer's output in place. -/
theorem V5_v45 : Gen.V5 m ρ c main_v45 = Gen.V3 m ρ c main_v45 :=
  calc Gen.W5 m ρ c (Proc.devRef .tc main_v45)
    _ = Gen.W4 m ρ c (Proc.devRef .tc main_v45) := by host_keeps Gen.hostOps2
    _ = Gen.W3 m ρ c (Proc.devRef .tc main_v45) := W4_v45 m ρ c

theorem V6_v61 : Gen.V6 m ρ c main_v61 = (Gen.dat2 (Gen.V5 m ρ) c).arrAt 3 cfg2.N :=
  Gen.W6_arr m ρ c 3
theorem V6_arg6 : Gen.V6 m ρ c main_arg6 = m ((c : Thread nD τ).loc main_arg6) :=
  calc Gen.W6 m ρ c (Proc.devRef .tc main_arg6)
    _ = Gen.W5 m ρ c (Proc.devRef .tc main_arg6) := Gen.W6_of_ne m ρ c main_arg6 (by decide)
    _ = Gen.W4 m ρ c (Proc.devRef .tc main_arg6) := by host_keeps Gen.hostOps2
    _ = Gen.W3 m ρ c (Proc.devRef .tc main_arg6) := Gen.W4_of_ne m ρ c main_arg6 (by decide)
    _ = Gen.W2 m ρ c (Proc.devRef .tc main_arg6) := by host_keeps Gen.hostOps1
    _ = Gen.W1 m ρ c (Proc.devRef .tc main_arg6) := Gen.W2_of_ne m ρ c main_arg6 (by decide)
    _ = m ((c : Thread nD τ).loc main_arg6) := W1_arg6 m ρ c

/-! ### At the last region's exit -/

theorem W7_v62 : Gen.W7 m ρ c (Proc.devRef .tc main_v62) = (Gen.dat3 (Gen.V6 m ρ) c).arrAt 2 cfg3.N :=
  Gen.W7_arr m ρ c 2
/-- A buffer the first stretch computed, written by nothing later, is read after the last region as the first
    stretch left it. -/
theorem W7_v3 : Gen.W7 m ρ c (Proc.devRef .tc main_v3) = Gen.W1 m ρ c (Proc.devRef .tc main_v3) :=
  calc Gen.W7 m ρ c (Proc.devRef .tc main_v3)
    _ = Gen.W6 m ρ c (Proc.devRef .tc main_v3) := Gen.W7_of_ne m ρ c main_v3 (by decide)
    _ = Gen.W5 m ρ c (Proc.devRef .tc main_v3) := Gen.W6_of_ne m ρ c main_v3 (by decide)
    _ = Gen.W4 m ρ c (Proc.devRef .tc main_v3) := by host_keeps Gen.hostOps2
    _ = Gen.W3 m ρ c (Proc.devRef .tc main_v3) := Gen.W4_of_ne m ρ c main_v3 (by decide)
    _ = Gen.W2 m ρ c (Proc.devRef .tc main_v3) := by host_keeps Gen.hostOps1
    _ = Gen.W1 m ρ c (Proc.devRef .tc main_v3) := Gen.W2_of_ne m ρ c main_v3 (by decide)
theorem W7_v6 : Gen.W7 m ρ c (Proc.devRef .tc main_v6) = Gen.W1 m ρ c (Proc.devRef .tc main_v6) :=
  calc Gen.W7 m ρ c (Proc.devRef .tc main_v6)
    _ = Gen.W6 m ρ c (Proc.devRef .tc main_v6) := Gen.W7_of_ne m ρ c main_v6 (by decide)
    _ = Gen.W5 m ρ c (Proc.devRef .tc main_v6) := Gen.W6_of_ne m ρ c main_v6 (by decide)
    _ = Gen.W4 m ρ c (Proc.devRef .tc main_v6) := by host_keeps Gen.hostOps2
    _ = Gen.W3 m ρ c (Proc.devRef .tc main_v6) := Gen.W4_of_ne m ρ c main_v6 (by decide)
    _ = Gen.W2 m ρ c (Proc.devRef .tc main_v6) := by host_keeps Gen.hostOps1
    _ = Gen.W1 m ρ c (Proc.devRef .tc main_v6) := Gen.W2_of_ne m ρ c main_v6 (by decide)
theorem W7_v28 : Gen.W7 m ρ c (Proc.devRef .tc main_v28) = Gen.W1 m ρ c (Proc.devRef .tc main_v28) :=
  calc Gen.W7 m ρ c (Proc.devRef .tc main_v28)
    _ = Gen.W6 m ρ c (Proc.devRef .tc main_v28) := Gen.W7_of_ne m ρ c main_v28 (by decide)
    _ = Gen.W5 m ρ c (Proc.devRef .tc main_v28) := Gen.W6_of_ne m ρ c main_v28 (by decide)
    _ = Gen.W4 m ρ c (Proc.devRef .tc main_v28) := by host_keeps Gen.hostOps2
    _ = Gen.W3 m ρ c (Proc.devRef .tc main_v28) := Gen.W4_of_ne m ρ c main_v28 (by decide)
    _ = Gen.W2 m ρ c (Proc.devRef .tc main_v28) := by host_keeps Gen.hostOps1
    _ = Gen.W1 m ρ c (Proc.devRef .tc main_v28) := Gen.W2_of_ne m ρ c main_v28 (by decide)
theorem W7_arg7 : Gen.W7 m ρ c (Proc.devRef .tc main_arg7) = m ((c : Thread nD τ).loc main_arg7) :=
  calc Gen.W7 m ρ c (Proc.devRef .tc main_arg7)
    _ = Gen.W6 m ρ c (Proc.devRef .tc main_arg7) := Gen.W7_of_ne m ρ c main_arg7 (by decide)
    _ = Gen.W5 m ρ c (Proc.devRef .tc main_arg7) := Gen.W6_of_ne m ρ c main_arg7 (by decide)
    _ = Gen.W4 m ρ c (Proc.devRef .tc main_arg7) := by host_keeps Gen.hostOps2
    _ = Gen.W3 m ρ c (Proc.devRef .tc main_arg7) := Gen.W4_of_ne m ρ c main_arg7 (by decide)
    _ = Gen.W2 m ρ c (Proc.devRef .tc main_arg7) := by host_keeps Gen.hostOps1
    _ = Gen.W1 m ρ c (Proc.devRef .tc main_arg7) := Gen.W2_of_ne m ρ c main_arg7 (by decide)
    _ = m ((c : Thread nD τ).loc main_arg7) := W1_arg7 m ρ c

end Keep

end Cert.KernelIdeal.KRun

end
-- ==== Proof.LibSumBlocks.lean ====
/-
  Re-grouping a finite sum into consecutive blocks, in any commutative additive monoid (so in particular over the extended
  reals, where it needs no finiteness): a sum over J·B consecutive naturals is the sum over J blocks of B. This is the law
  behind a contraction that is accumulated block by block along its contracted axis (a K-blocked matrix product kept in an
  accumulator across grid points or loop trips) against ONE whole contraction.
-/
import Mathlib.Algebra.BigOperators.Fin

namespace Cert.LibSumBlocks

/-- A sum over `J * B` consecutive naturals is the sum over `J` blocks of `B`: term `x = j * B + s` is term `s` of block `j`. -/
theorem sum_range_blocks {M : Type*} [AddCommMonoid M] (g : ℕ → M) (B : ℕ) : ∀ J : ℕ,
    ∑ x ∈ Finset.range (J * B), g x = ∑ j ∈ Finset.range J, ∑ s ∈ Finset.range B, g (j * B + s)
  | 0 => by simp
  | J + 1 => by
    rw [Nat.succ_mul, Finset.sum_range_add, Finset.sum_range_succ, sum_range_blocks g B J]

/-- The same with the whole sum over the index type `Fin (J * B)` (the form a contraction read at an index has). -/
theorem sum_fin_blocks {M : Type*} [AddCommMonoid M] (g : ℕ → M) (B J : ℕ) :
    ∑ k : Fin (J * B), g k.val = ∑ j ∈ Finset.range J, ∑ s ∈ Finset.range B, g (j * B + s) :=
  (Finset.sum_range g).symm.trans (sum_range_blocks g B J)

end Cert.LibSumBlocks
-- ==== Proof.KReg1.lean ====
import proofs.«177512_j55714315763894_1_alg».proof.Proof.Gen.KernelIdeal.Frame
import proofs.«177512_j55714315763894_1_alg».proof.Proof.LibSumBlocks
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KReg

open Cert.KernelIdeal Cert.KernelIdeal.Gen Idealize.ShloMosaic Idealize.ShloMosaic.TcCoe Idealize.SL.Sem
open Idealize.ShloMosaic.ValueIdx
open Idealize.ShloMosaic.Pipeline (Dat)

section Pieces
variable {F : FTy → Type} [FloatOps F]

theorem hz1 : (![0, 0] : Fin 2 → Nat) = fun _ => 0 := funext fun a => by fin_cases a <;> rfl

/-- At a point that is not the first, the first accumulator's buffer holding `xo1` is left at the accumulate payload of
    the input block `x` and `xo1`: one store over the whole buffer, whose loads read the whole buffers. -/
theorem out_B_1 (c : Dev nD) (i : grid1.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S2000x64 .f32) (xo1 xo2 : Vec F S1x64 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz1]
  simp only [View.readAt_eq_ld, h1.read_unread, h2.read_unread, View.ld_unit_zero (S := S2000x64) hz1, View.ld_unit_zero (S := S1x64) hz1]

/-- The same for the second accumulator. -/
theorem out_B_2 (c : Dev nD) (i : grid1.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S2000x64 .f32) (xo1 xo2 : Vec F S1x64 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz1]
  simp only [View.readAt_eq_ld, h1.read_unread, h3.read_unread, View.ld_unit_zero (S := S2000x64) hz1, View.ld_unit_zero (S := S1x64) hz1]

/-- At the first point the first accumulator's buffer is zero-filled, read back, and left at the accumulate payload of
    the input block and the zero fill. -/
theorem out_A_1 (c : Dev nD) (i : grid1.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S2000x64 .f32) :
    out1_A_1 c i a1 h1 a2 h2 a3 h3 hc x = k1_pay4 x (k1_pay1 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x64) hz1, View.readCov_unit_zero (S := S1x64) _ hz1]
  simp only [View.readAt_eq_ld, h1.read_unread, View.ld_unit_zero (S := S2000x64) hz1]

/-- The same for the second accumulator. -/
theorem out_A_2 (c : Dev nD) (i : grid1.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S2000x64 .f32) :
    out1_A_2 c i a1 h1 a2 h2 a3 h3 hc x = k1_pay5 x (k1_pay2 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x64) hz1, View.readCov_unit_zero (S := S1x64) _ hz1]
  simp only [View.readAt_eq_ld, h1.read_unread, View.ld_unit_zero (S := S2000x64) hz1]
end Pieces

/-! ## The payloads at an index, over the extended reals -/

/-- Column `q` of a 2000-row block, summed. -/
def blkSum (x : Vec Ideal S2000x64 .f32) (q : Fin 64) : EReal := ∑ r : Fin 2000, x (ix2 r q)
/-- Column `q` of a 2000-row block, its squares summed. -/
def blkSq (x : Vec Ideal S2000x64 .f32) (q : Fin 64) : EReal := ∑ r : Fin 2000, x (ix2 r q) * x (ix2 r q)

/-- The source index over column `q` with row `k` inserted is `(k, q)`. -/
theorem lift_eq (q : Fin 64) (k : Fin 2000) : reduces_S2000x64_S64.lift (ix1 q) k = ix2 k q :=
  funext fun c => Fin.ext (by match c with | ⟨0, _⟩ => rfl | ⟨1, _⟩ => rfl)

/-- A sum over the row axis, read at column `q`. -/
theorem colsum_apply (src : FVec Ideal S2000x64 .f32) (hφ : FKind.Formats FTy.f32)
    (hacc : (0x00000000#32 : BitVec 32) = FKind.add.neutral .f32 hφ) (q : Fin 64) :
    multiReduction .add [0] S64 src 0x00000000#32 reduces_S2000x64_S64 hφ hacc (ix1 q) = ∑ r : Fin 2000, src (ix2 r q) :=
  (Ideal.multiReduction_add_single src 0x00000000#32 reduces_S2000x64_S64 hφ hacc (ix1 q)).trans
    (Finset.sum_congr rfl fun k _ => congrArg src (lift_eq q k))

/-- The zero fill reads `0`. -/
theorem acc_pay1_apply (j : S1x64.Idx) : k1_pay1 (F := Ideal) j = 0 := by
  show Ideal.ofBits .f32 0x00000000#32 = 0
  exact Ideal.ofBits_zero_f32
theorem acc_pay2_apply (j : S1x64.Idx) : k1_pay2 (F := Ideal) j = 0 := by
  show Ideal.ofBits .f32 0x00000000#32 = 0
  exact Ideal.ofBits_zero_f32

/-- The first accumulate payload at column `q`: what the accumulator held plus the block's column sum. -/
theorem acc_pay4_apply (x : Vec Ideal S2000x64 .f32) (xo : Vec Ideal S1x64 .f32) (q : Fin 64) :
    k1_pay4 x xo (ix2 (0 : Fin 1) q) = xo (ix2 (0 : Fin 1) q) + blkSum x q := by
  unfold k1_pay4 k1_pay3 blkSum
  refine congrArg₂ (· + ·) (congrFun (shapeCast_self xo _) _) ?_
  refine (shapeCast_a_1a_apply _ _ (0 : Fin 1) q).trans ?_
  refine (colsum_apply _ _ _ q).trans ?_
  exact Finset.sum_congr rfl fun r _ => congrFun (shapeCast_self x _) _

/-- The second accumulate payload at column `q`: what the accumulator held plus the block's column sum of squares. -/
theorem acc_pay5_apply (x : Vec Ideal S2000x64 .f32) (xo : Vec Ideal S1x64 .f32) (q : Fin 64) :
    k1_pay5 x xo (ix2 (0 : Fin 1) q) = xo (ix2 (0 : Fin 1) q) + blkSq x q := by
  unfold k1_pay5 k1_pay3 blkSq
  refine congrArg₂ (· + ·) (congrFun (shapeCast_self xo _) _) ?_
  refine (shapeCast_a_1a_apply _ _ (0 : Fin 1) q).trans ?_
  refine (colsum_apply _ _ _ q).trans ?_
  refine Finset.sum_congr rfl fun r _ => ?_
  show shapeCast S2000x64 x _ (ix2 r q) * shapeCast S2000x64 x _ (ix2 r q) = x (ix2 r q) * x (ix2 r q)
  rw [shapeCast_self]

/-! ## The accumulation over the grid points -/

/-- A sum over the 100000 rows, grouped into the 50 consecutive blocks of 2000 rows. -/
theorem sum_rows_blocks {β : Type*} [AddCommMonoid β] (g : ℕ → β) :
    ∑ p : Fin 100000, g p.val = ∑ s : Fin 50, ∑ r : Fin 2000, g (s.val * 2000 + r.val) := by
  refine (show ∑ p : Fin (50 * 2000), g p.val = _ from Cert.LibSumBlocks.sum_fin_blocks g 2000 50).trans ?_
  rw [Finset.sum_range]
  refine Finset.sum_congr rfl fun s _ => ?_
  rw [Finset.sum_range]

/-- The windows' index maps over the 50 grid points: the input's block is row block `t`; each accumulator's block is
    the whole one-row array, at every point. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

section
variable (V : (c : Dev nD) → (b : Ref sig .tc) → Buf (Elt Ideal) ((c : Thread nD τ).loc b))

/-- After point \`n\` the first accumulator holds, at column \`q\`, the column sums of blocks \`0 … n\` added up. -/
theorem acc1 (c : Dev nD) (q : Fin 64) : ∀ (n : ℕ) (h : n < cfg1.N),
    (outsAt1 V c n h).1 (ix2 (0 : Fin 1) q)
      = ∑ s : Fin (n + 1), blkSum (iblk1 V c 0 ⟨s.val, Nat.lt_of_lt_of_le s.isLt h⟩) q
  | 0, h => by
    have e : (outsAt1 V c 0 h).1 = out1_A_1 c (grid1.coords ⟨0, h⟩) (ms1_0 ⟨0, h⟩) (hs1_0 ⟨0, h⟩) (ms1_1 ⟨0, h⟩) (hs1_1 ⟨0, h⟩)
        (ms1_2 ⟨0, h⟩) (hs1_2 ⟨0, h⟩) ((hcond1_0 ⟨0, h⟩).mpr rfl) (iblk1 V c 0 ⟨0, h⟩) :=
      congrArg Prod.fst (outsAt1_A V c ⟨0, h⟩ rfl)
    rw [e]
    refine (congrFun (out_A_1 (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) ((hcond1_0 ⟨0, h⟩).mpr rfl) (iblk1 V c 0 ⟨0, h⟩)) (ix2 (0 : Fin 1) q)).trans ?_
    refine (acc_pay4_apply (iblk1 V c 0 ⟨0, h⟩) _ q).trans ?_
    rw [acc_pay1_apply, zero_add, Fin.sum_univ_one]
    rfl
  | n + 1, h => by
    have hN : n + 1 < 50 := lt_of_lt_of_eq h N_1
    have hn : n < cfg1.N := Nat.lt_of_succ_lt h
    have hB : ¬(⟨n + 1, h⟩ : Fin cfg1.N).val % 50 = 0 := by show ¬(n + 1) % 50 = 0; omega
    have e : (outsAt1 V c (n + 1) h).1 = out1_B_1 c (grid1.coords ⟨n + 1, h⟩) (ms1_0 ⟨n + 1, h⟩) (hs1_0 ⟨n + 1, h⟩) (ms1_1 ⟨n + 1, h⟩) (hs1_1 ⟨n + 1, h⟩)
        (ms1_2 ⟨n + 1, h⟩) (hs1_2 ⟨n + 1, h⟩) (fun hh => hB ((hcond1_0 ⟨n + 1, h⟩).mp hh)) (iblk1 V c 0 ⟨n + 1, h⟩)
        (outsAt1 V c n hn).1 (outsAt1 V c n hn).2 :=
      congrArg Prod.fst (outsAt1_B V c ⟨n + 1, h⟩ hB)
    rw [e]
    refine (congrFun (out_B_1 (F := Ideal) c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (fun hh => hB ((hcond1_0 ⟨n + 1, h⟩).mp hh)) (iblk1 V c 0 ⟨n + 1, h⟩)
      (outsAt1 V c n hn).1 (outsAt1 V c n hn).2) (ix2 (0 : Fin 1) q)).trans ?_
    refine (acc_pay4_apply (iblk1 V c 0 ⟨n + 1, h⟩) _ q).trans ?_
    rw [Fin.sum_univ_castSucc]
    exact congrArg₂ (· + ·) (acc1 c q n hn) rfl

/-- The same for the second accumulator, with the column sums of squares. -/
theorem acc2 (c : Dev nD) (q : Fin 64) : ∀ (n : ℕ) (h : n < cfg1.N),
    (outsAt1 V c n h).2 (ix2 (0 : Fin 1) q)
      = ∑ s : Fin (n + 1), blkSq (iblk1 V c 0 ⟨s.val, Nat.lt_of_lt_of_le s.isLt h⟩) q
  | 0, h => by
    have e : (outsAt1 V c 0 h).2 = out1_A_2 c (grid1.coords ⟨0, h⟩) (ms1_0 ⟨0, h⟩) (hs1_0 ⟨0, h⟩) (ms1_1 ⟨0, h⟩) (hs1_1 ⟨0, h⟩)
        (ms1_2 ⟨0, h⟩) (hs1_2 ⟨0, h⟩) ((hcond1_0 ⟨0, h⟩).mpr rfl) (iblk1 V c 0 ⟨0, h⟩) :=
      congrArg Prod.snd (outsAt1_A V c ⟨0, h⟩ rfl)
    rw [e]
    refine (congrFun (out_A_2 (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) ((hcond1_0 ⟨0, h⟩).mpr rfl) (iblk1 V c 0 ⟨0, h⟩)) (ix2 (0 : Fin 1) q)).trans ?_
    refine (acc_pay5_apply (iblk1 V c 0 ⟨0, h⟩) _ q).trans ?_
    rw [acc_pay2_apply, zero_add, Fin.sum_univ_one]
    rfl
  | n + 1, h => by
    have hN : n + 1 < 50 := lt_of_lt_of_eq h N_1
    have hn : n < cfg1.N := Nat.lt_of_succ_lt h
    have hB : ¬(⟨n + 1, h⟩ : Fin cfg1.N).val % 50 = 0 := by show ¬(n + 1) % 50 = 0; omega
    have e : (outsAt1 V c (n + 1) h).2 = out1_B_2 c (grid1.coords ⟨n + 1, h⟩) (ms1_0 ⟨n + 1, h⟩) (hs1_0 ⟨n + 1, h⟩) (ms1_1 ⟨n + 1, h⟩) (hs1_1 ⟨n + 1, h⟩)
        (ms1_2 ⟨n + 1, h⟩) (hs1_2 ⟨n + 1, h⟩) (fun hh => hB ((hcond1_0 ⟨n + 1, h⟩).mp hh)) (iblk1 V c 0 ⟨n + 1, h⟩)
        (outsAt1 V c n hn).1 (outsAt1 V c n hn).2 :=
      congrArg Prod.snd (outsAt1_B V c ⟨n + 1, h⟩ hB)
    rw [e]
    refine (congrFun (out_B_2 (F := Ideal) c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (fun hh => hB ((hcond1_0 ⟨n + 1, h⟩).mp hh)) (iblk1 V c 0 ⟨n + 1, h⟩)
      (outsAt1 V c n hn).1 (outsAt1 V c n hn).2) (ix2 (0 : Fin 1) q)).trans ?_
    refine (acc_pay5_apply (iblk1 V c 0 ⟨n + 1, h⟩) _ q).trans ?_
    rw [Fin.sum_univ_castSucc]
    exact congrArg₂ (· + ·) (acc2 c q n hn) rfl

/-- Entry `(r, q)` of the input's block at point `t` is entry `(2000 t + r, q)` of the input array. -/
theorem iblk1_apply (c : Dev nD) (a : S100000x64.Idx → EReal) (ha : V c main_v45 = a) (t : Fin cfg1.N) (r : Fin 2000) (q : Fin 64)
    (hp : t.val * 2000 + r.val < 100000) :
    iblk1 V c 0 t (ix2 r q) = a (ix2 (⟨t.val * 2000 + r.val, hp⟩ : Fin 100000) q) := by
  subst ha
  obtain ⟨e0, e1, -⟩ := idx_facts1 t
  show (V c main_v45 : S100000x64.Idx → EReal) (((cfg1.win 0).blk t).view.emb (ix2 r q)) = _
  refine congrArg (V c main_v45 : S100000x64.Idx → EReal) ?_
  funext b; apply Fin.ext
  match b with
  | ⟨0, _⟩ => show win1_0.index t (0 : Fin 2) * 2000 + 1 * r.val = t.val * 2000 + r.val; omega
  | ⟨1, _⟩ => show win1_0.index t (1 : Fin 2) * 64 + 1 * q.val = q.val; omega

/-- The 50 blocks' column sums added up are the column sum over all 100000 rows. -/
theorem blocks_sum (c : Dev nD) (a : S100000x64.Idx → EReal) (ha : V c main_v45 = a) (q : Fin 64) (h : 49 < cfg1.N) :
    ∑ s : Fin (49 + 1), blkSum (iblk1 V c 0 ⟨s.val, Nat.lt_of_lt_of_le s.isLt h⟩) q = ∑ p : Fin 100000, a (ix2 p q) := by
  have key := sum_rows_blocks (fun n => if hn : n < 100000 then a (ix2 (⟨n, hn⟩ : Fin 100000) q) else 0)
  refine Eq.trans ?_ ((Finset.sum_congr rfl fun p _ => by rw [dif_pos p.isLt]).trans key).symm
  refine Finset.sum_congr rfl fun s _ => ?_
  unfold blkSum
  refine Finset.sum_congr rfl fun r _ => ?_
  have hs : s.val < 50 := s.isLt
  have hr : r.val < 2000 := r.isLt
  have hp : s.val * 2000 + r.val < 100000 := by omega
  rw [dif_pos hp]
  exact iblk1_apply V c a ha ⟨s.val, Nat.lt_of_lt_of_le s.isLt h⟩ r q hp

theorem blocks_sq (c : Dev nD) (a : S100000x64.Idx → EReal) (ha : V c main_v45 = a) (q : Fin 64) (h : 49 < cfg1.N) :
    ∑ s : Fin (49 + 1), blkSq (iblk1 V c 0 ⟨s.val, Nat.lt_of_lt_of_le s.isLt h⟩) q = ∑ p : Fin 100000, a (ix2 p q) * a (ix2 p q) := by
  have key := sum_rows_blocks (fun n => if hn : n < 100000 then a (ix2 (⟨n, hn⟩ : Fin 100000) q) * a (ix2 (⟨n, hn⟩ : Fin 100000) q) else 0)
  refine Eq.trans ?_ ((Finset.sum_congr rfl fun p _ => by rw [dif_pos p.isLt]).trans key).symm
  refine Finset.sum_congr rfl fun s _ => ?_
  unfold blkSq
  refine Finset.sum_congr rfl fun r _ => ?_
  have hs : s.val < 50 := s.isLt
  have hr : r.val < 2000 := r.isLt
  have hp : s.val * 2000 + r.val < 100000 := by omega
  rw [dif_pos hp, iblk1_apply V c a ha ⟨s.val, Nat.lt_of_lt_of_le s.isLt h⟩ r q hp]
end

/-! ## The arrays after the run -/

theorem h49 : 49 < cfg1.N := lt_of_lt_of_eq (by decide : 49 < 50) N_1.symm

section
variable (V : (c : Dev nD) → (b : Ref sig .tc) → Buf (Elt Ideal) ((c : Thread nD τ).loc b))

/-- The accumulators' contents after a point depend on the point's number only. -/
theorem outsAt1_congr (c : Dev nD) (n n' : ℕ) (h : n < cfg1.N) (h' : n' < cfg1.N) (e : n = n') :
    outsAt1 V c n h = outsAt1 V c n' h' := by
  subst e; rfl

/-- What the first accumulator's buffer holds after the last point, as contents of its one-row array. -/
def last1_1 (c : Dev nD) : Buf (Elt Ideal) ((c : Thread nD τ).loc main_v46_0) := (outsAt1 V c 49 h49).1

/-- The one write-back, at the last point, writes it: the accumulator's block is the whole one-row array. -/
theorem flushed1_1_eq (c : Dev nD) (t : Fin cfg1.N) (hf : (cfg1.win 1).flush t = true) :
    (dat1 V c).flushed 1 t = ((cfg1.win 1).blk t).view.read (Elt Ideal) (last1_1 V c) := by
  have hN : t.val < 50 := lt_of_lt_of_eq t.isLt N_1
  have ht : t.val = 49 := by have := (flush1_1 t).mp hf; omega
  obtain ⟨e0, e1, e2, e3, e4, e5⟩ := idx_facts1 t
  show (cfg1.win 1).cut (grid1.coords t) ((dat1 V c).after 1 t) = _
  rw [after1_1]
  funext j
  obtain ⟨u, q, rfl⟩ : ∃ (u : Fin 1) (q : Fin 64), j = ix2 u q := ⟨j 0, j 1, eq_ix2 j⟩
  have hemb : ((cfg1.win 1).blk t).view.emb (ix2 u q) = (ix2 u q : S1x64.Idx) := by
    funext b; apply Fin.ext
    match b with
    | ⟨0, _⟩ => show win1_1.index t (0 : Fin 2) * 1 + 1 * u.val = u.val; omega
    | ⟨1, _⟩ => show win1_1.index t (1 : Fin 2) * 64 + 1 * q.val = q.val; omega
  show (outsAt1 V c t.val t.isLt).1 (ix2 u q) = last1_1 V c (((cfg1.win 1).blk t).view.emb (ix2 u q))
  rw [hemb]
  unfold last1_1
  exact congrFun (congrArg Prod.fst (outsAt1_congr V c t.val 49 t.isLt h49 ht)) (ix2 u q)

/-- An index of the one-row array is in point `t`'s block iff each coordinate is in the block's range on its axis. -/
theorem mem_blk1_1 (t : Fin cfg1.N) (i : S1x64.Idx) :
    i ∈ ((cfg1.win 1).blk t).view.set ↔ ∀ a : Fin 2, win1_1.index t a * S1x64.size a ≤ (i a).val ∧ (i a).val < win1_1.index t a * S1x64.size a + S1x64.size a := by
  show i ∈ ((View.whole main_v46_0).slice (win1_1.rect t)).set ↔ _
  rw [View.set_slice_whole, Rect.mem_set_unit]
  exact Iff.rfl

/-- The last point's block covers the one-row array. -/
theorem cover1_1 (i : S1x64.Idx) :
    ∃ t : Fin cfg1.N, (cfg1.win 1).flush t = true ∧ i ∈ ((cfg1.win 1).blk t).view.set := by
  have hi0 : (i 0).val < 1 := (i 0).isLt
  have hi1 : (i 1).val < 64 := (i 1).isLt
  obtain ⟨e0, e1, e2, e3, e4, e5⟩ := idx_facts1 ⟨49, h49⟩
  refine ⟨⟨49, h49⟩, (flush1_1 _).mpr rfl, ?_⟩
  rw [mem_blk1_1]
  intro a
  match a with
  | ⟨0, _⟩ =>
    show win1_1.index ⟨49, h49⟩ (0 : Fin 2) * 1 ≤ (i 0).val ∧ (i 0).val < win1_1.index ⟨49, h49⟩ (0 : Fin 2) * 1 + 1
    rw [e2]; omega
  | ⟨1, _⟩ =>
    show win1_1.index ⟨49, h49⟩ (1 : Fin 2) * 64 ≤ (i 1).val ∧ (i 1).val < win1_1.index ⟨49, h49⟩ (1 : Fin 2) * 64 + 64
    rw [e3]; omega

/-- The first accumulator's array after the region's run is what its buffer held after the last point. -/
theorem final1_1 (c : Dev nD) : (dat1 V c).arrAt 1 cfg1.N = last1_1 V c :=
  (dat1 V c).arrAt_eq_of_cover 1 _ (flushed1_1_eq V c) cover1_1

/-- REGION 1, first result: entry \`(0, q)\` is the sum of column \`q\` of the input array \`a\` (the region's input as it finds it, read into the extended reals) over all 100000 rows. -/
theorem reg1_sum (c : Dev nD) (a : S100000x64.Idx → EReal) (ha : V c main_v45 = a) (q : Fin 64) :
    @Eq EReal ((dat1 V c).arrAt 1 cfg1.N (ix2 (0 : Fin 1) q)) (∑ p : Fin 100000, a (ix2 p q)) := by
  rw [final1_1 V c]
  show (outsAt1 V c 49 h49).1 (ix2 (0 : Fin 1) q) = _
  exact (acc1 V c q 49 h49).trans (blocks_sum V c a ha q h49)

/-- What the second accumulator's buffer holds after the last point, as contents of its one-row array. -/
def last1_2 (c : Dev nD) : Buf (Elt Ideal) ((c : Thread nD τ).loc main_v46_1) := (outsAt1 V c 49 h49).2

/-- The one write-back, at the last point, writes it: the accumulator's block is the whole one-row array. -/
theorem flushed1_2_eq (c : Dev nD) (t : Fin cfg1.N) (hf : (cfg1.win 2).flush t = true) :
    (dat1 V c).flushed 2 t = ((cfg1.win 2).blk t).view.read (Elt Ideal) (last1_2 V c) := by
  have hN : t.val < 50 := lt_of_lt_of_eq t.isLt N_1
  have ht : t.val = 49 := by have := (flush1_2 t).mp hf; omega
  obtain ⟨e0, e1, e2, e3, e4, e5⟩ := idx_facts1 t
  show (cfg1.win 2).cut (grid1.coords t) ((dat1 V c).after 2 t) = _
  rw [after1_2]
  funext j
  obtain ⟨u, q, rfl⟩ : ∃ (u : Fin 1) (q : Fin 64), j = ix2 u q := ⟨j 0, j 1, eq_ix2 j⟩
  have hemb : ((cfg1.win 2).blk t).view.emb (ix2 u q) = (ix2 u q : S1x64.Idx) := by
    funext b; apply Fin.ext
    match b with
    | ⟨0, _⟩ => show win1_2.index t (0 : Fin 2) * 1 + 1 * u.val = u.val; omega
    | ⟨1, _⟩ => show win1_2.index t (1 : Fin 2) * 64 + 1 * q.val = q.val; omega
  show (outsAt1 V c t.val t.isLt).2 (ix2 u q) = last1_2 V c (((cfg1.win 2).blk t).view.emb (ix2 u q))
  rw [hemb]
  unfold last1_2
  exact congrFun (congrArg Prod.snd (outsAt1_congr V c t.val 49 t.isLt h49 ht)) (ix2 u q)

/-- An index of the one-row array is in point `t`'s block iff each coordinate is in the block's range on its axis. -/
theorem mem_blk1_2 (t : Fin cfg1.N) (i : S1x64.Idx) :
    i ∈ ((cfg1.win 2).blk t).view.set ↔ ∀ a : Fin 2, win1_2.index t a * S1x64.size a ≤ (i a).val ∧ (i a).val < win1_2.index t a * S1x64.size a + S1x64.size a := by
  show i ∈ ((View.whole main_v46_1).slice (win1_2.rect t)).set ↔ _
  rw [View.set_slice_whole, Rect.mem_set_unit]
  exact Iff.rfl

/-- The last point's block covers the one-row array. -/
theorem cover1_2 (i : S1x64.Idx) :
    ∃ t : Fin cfg1.N, (cfg1.win 2).flush t = true ∧ i ∈ ((cfg1.win 2).blk t).view.set := by
  have hi0 : (i 0).val < 1 := (i 0).isLt
  have hi1 : (i 1).val < 64 := (i 1).isLt
  obtain ⟨e0, e1, e2, e3, e4, e5⟩ := idx_facts1 ⟨49, h49⟩
  refine ⟨⟨49, h49⟩, (flush1_2 _).mpr rfl, ?_⟩
  rw [mem_blk1_2]
  intro a
  match a with
  | ⟨0, _⟩ =>
    show win1_2.index ⟨49, h49⟩ (0 : Fin 2) * 1 ≤ (i 0).val ∧ (i 0).val < win1_2.index ⟨49, h49⟩ (0 : Fin 2) * 1 + 1
    rw [e4]; omega
  | ⟨1, _⟩ =>
    show win1_2.index ⟨49, h49⟩ (1 : Fin 2) * 64 ≤ (i 1).val ∧ (i 1).val < win1_2.index ⟨49, h49⟩ (1 : Fin 2) * 64 + 64
    rw [e5]; omega

/-- The second accumulator's array after the region's run is what its buffer held after the last point. -/
theorem final1_2 (c : Dev nD) : (dat1 V c).arrAt 2 cfg1.N = last1_2 V c :=
  (dat1 V c).arrAt_eq_of_cover 2 _ (flushed1_2_eq V c) cover1_2

/-- REGION 1, second result: entry \`(0, q)\` is the sum of the squares of column \`q\` of the input array \`a\` over all 100000 rows. -/
theorem reg1_sumsq (c : Dev nD) (a : S100000x64.Idx → EReal) (ha : V c main_v45 = a) (q : Fin 64) :
    @Eq EReal ((dat1 V c).arrAt 2 cfg1.N (ix2 (0 : Fin 1) q)) (∑ p : Fin 100000, a (ix2 p q) * a (ix2 p q)) := by
  rw [final1_2 V c]
  show (outsAt1 V c 49 h49).2 (ix2 (0 : Fin 1) q) = _
  exact (acc2 V c q 49 h49).trans (blocks_sq V c a ha q h49)

end

end Cert.KernelIdeal.KReg

end
-- ==== Proof.Spec.lean ====
/-
  The host arithmetic of the two-layer graph convolution, as whole-array functions at the ideal instance
  (a float is an extended real). Nodes N = 100000, edges E = 1600000, and one self-loop per node, so
  E + N = 1700000 messages; widths 128 → 64 → 32.

  * `src`, `dst`: the message endpoints — row 0 / row 1 of the edge list followed by 0, 1, …, N-1.
  * `deg`: the in-degree, an accumulating scatter of ones along `dst`; `dis = 1 / √deg`;
    `nrm e = dis (src e) · dis (dst e)`, the symmetric normalisation of message `e`
    (an index is wrapped, `i < 0 ↦ i + N`, before it addresses a row).
  * `layer h b`: gather the rows of `h` along `src`, scale message `e` by `nrm e`, scatter-add along `dst`
    into zeros, add the bias row `b`.
  * `scale`, `shift`: from the column sums `S` and sums of squares `Q` of the first layer's output,
    `mean = S / N`, `var = Q / N - mean²`, `scale = γ · rsqrt (var + ε)`, `shift = β - mean · scale`.
-/
import proofs.«177512_j55714315763894_1_alg».proof.KernelIdeal
import Idealize.ShloMosaic.PureOps.Ideal

noncomputable section

namespace Cert.Spec

open Idealize.ShloMosaic Cert.KernelIdeal

variable [Cert.KernelIdeal.Facts₀]
open Cert.KernelIdeal.Facts₀

/-- A float array and an integer array of shape `S` at the ideal instance. -/
abbrev FA (S : Shape) : Type := FVec Ideal S .f32
abbrev IA (S : Shape) : Type := IVec S 32

/-- Row `k` of the edge list, then the self-loops `0 … N-1`. -/
def endpoints0 (a1 : IA S2x1600000) : IA S1700000 :=
  concatenate S1700000 0
    [⟨S1600000, shapeCast S1600000 (extractStridedSlice S1x1600000 ![0, 0] a1 slices_S2x1600000_S1x1600000_0_0)
        shapeCasts_S1x1600000_S1600000⟩,
     ⟨S100000, iotaInDim S100000 32 0⟩]
    concatenates_S1600000_S100000_S1700000_d0

def endpoints1 (a1 : IA S2x1600000) : IA S1700000 :=
  concatenate S1700000 0
    [⟨S1600000, shapeCast S1600000 (extractStridedSlice S1x1600000 ![1, 0] a1 slices_S2x1600000_S1x1600000_1_0)
        shapeCasts_S1x1600000_S1600000⟩,
     ⟨S100000, iotaInDim S100000 32 0⟩]
    concatenates_S1600000_S100000_S1700000_d0

/-- The sources of the messages. -/
def src (a1 : IA S2x1600000) : IA S1700000 := endpoints0 a1
/-- The targets of the messages. -/
def dst (a1 : IA S2x1600000) : IA S1700000 := endpoints1 a1

/-- An index vector as a column, a negative entry `i` first replaced by `i + N`. -/
def wrapCol (s : IA S1700000) : IA S1700000x1 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- An index vector as a column, as it is. -/
def col (s : IA S1700000) : IA S1700000x1 :=
  broadcastInDim S1700000x1 ![0] bcast_S1700000_S1700000x1_0 s

/-- The in-degree: ones scattered along the targets into zeros. -/
def deg (d : IA S1700000) : FA S100000 :=
  Host.scatterAdd (F := Ideal) scatter_S100000_S1700000x1_S1700000_n_0_0_1
    (broadcastInDim S100000 ![] bcast_S_S100000 (constant (F := Ideal) S_ .f32 0x00000000#32))
    (col d)
    (broadcastInDim S1700000 ![] bcast_S_S1700000 (constant (F := Ideal) S_ .f32 0x3F800000#32))

/-- `1 / √deg`. -/
def dis (d : IA S1700000) : FA S100000 :=
  Host.divf (F := Ideal) (broadcastInDim S100000 ![] bcast_S_S100000 (constant (F := Ideal) S_ .f32 0x3F800000#32))
    (Host.sqrt (F := Ideal) (deg d))

/-- The weight of each message: `dis (src e) · dis (dst e)`. -/
def nrmOf (s d : IA S1700000) : FA S1700000 :=
  mulf (Host.gather gather_S100000_S1700000x1_S1700000_n_0_n_n_0_1_1 (dis d) (wrapCol s))
    (Host.gather gather_S100000_S1700000x1_S1700000_n_0_n_n_0_1_1 (dis d) (wrapCol d))

def nrm (a1 : IA S2x1600000) : FA S1700000 := nrmOf (src a1) (dst a1)

/-- One graph-convolution aggregation over 64 columns. -/
def layer1 (s d : IA S1700000) (n : FA S1700000) (h : FA S100000x64) (b : FA S64) :
    FA S100000x64 :=
  addf
    (Host.scatterAdd (F := Ideal) scatter_S100000x64_S1700000x1_S1700000x64_1_0_0_1
      (broadcastInDim S100000x64 ![] bcast_S_S100000x64 (constant (F := Ideal) S_ .f32 0x00000000#32))
      (col d)
      (mulf (Host.gather gather_S100000x64_S1700000x1_S1700000x64_1_0_n_n_0_1_164 h (wrapCol s))
        (broadcastInDim S1700000x64 ![0, 1] bcast_S1700000x1_S1700000x64_0_1
          (broadcastInDim S1700000x1 ![0] bcast_S1700000_S1700000x1_0 n))))
    (broadcastInDim S100000x64 ![0, 1] bcast_S1x64_S100000x64_0_1 (broadcastInDim S1x64 ![1] bcast_S64_S1x64_1 b))

/-- One graph-convolution aggregation over 32 columns. -/
def layer2 (s d : IA S1700000) (n : FA S1700000) (h : FA S100000x32) (b : FA S32) :
    FA S100000x32 :=
  addf
    (Host.scatterAdd (F := Ideal) scatter_S100000x32_S1700000x1_S1700000x32_1_0_0_1
      (broadcastInDim S100000x32 ![] bcast_S_S100000x32 (constant (F := Ideal) S_ .f32 0x00000000#32))
      (col d)
      (mulf (Host.gather gather_S100000x32_S1700000x1_S1700000x32_1_0_n_n_0_1_132 h (wrapCol s))
        (broadcastInDim S1700000x32 ![0, 1] bcast_S1700000x1_S1700000x32_0_1
          (broadcastInDim S1700000x1 ![0] bcast_S1700000_S1700000x1_0 n))))
    (broadcastInDim S100000x32 ![0, 1] bcast_S1x32_S100000x32_0_1 (broadcastInDim S1x32 ![1] bcast_S32_S1x32_1 b))

/-- The node count as a row. -/
def nodes : FA S1x64 := broadcastInDim S1x64 ![] bcast_S_S1x64 (constant (F := Ideal) S_ .f32 0x47C35000#32)

/-- `γ · rsqrt (Q / N - (S / N)² + ε)`. -/
def scale (S Q : FA S1x64) (g : FA S64) : FA S1x64 :=
  mulf (shapeCast S1x64 g shapeCasts_S64_S1x64)
    (Host.rsqrt (F := Ideal)
      (addf (subf (Host.divf (F := Ideal) Q nodes) (mulf (Host.divf (F := Ideal) S nodes) (Host.divf (F := Ideal) S nodes)))
        (broadcastInDim S1x64 ![] bcast_S_S1x64 (constant (F := Ideal) S_ .f32 0x3727C5AC#32))))

/-- `β - (S / N) · scale`. -/
def shift (S Q : FA S1x64) (g b : FA S64) : FA S1x64 :=
  subf (shapeCast S1x64 b shapeCasts_S64_S1x64) (mulf (Host.divf (F := Ideal) S nodes) (scale S Q g))

end Cert.Spec

end
-- ==== Proof.KHost.lean ====
import proofs.«177512_j55714315763894_1_alg».proof.Proof.KRun
import proofs.«177512_j55714315763894_1_alg».proof.Proof.Spec
import Idealize.ShloMosaic.Lib.StableHlo.Run
import Idealize.ShloMosaic.PureOps.Ideal

/-!
  What each host stretch of @main computes, at the ideal instance (a float is an extended real).

  A stretch is a line of array operations; its effect on the buffer contents is the fold of the operations'
  results. Read at the buffer a later region or the return takes, the fold is the composition of the
  operations that feed that buffer, applied to the contents the stretch found — the whole-array functions
  `Cert.Spec.src`, `dst`, `nrm` (the message endpoints and weights), `layer1`, `layer2` (gather along the
  sources, weight, scatter-add along the targets, add the bias) and `scale`, `shift` (the normalisation's
  affine map from the column sums and sums of squares). First for any contents `W` a stretch may find, then
  at the contents it does find in the run, every operand traced back to where it was written.
-/

set_option maxRecDepth 16384

noncomputable section

namespace Cert.KernelIdeal.KRun

open Idealize.ShloMosaic Idealize.ShloMosaic.TcCoe Idealize.ShloMosaic.Tactic
open Idealize.SL Idealize.SL.Sem
open Cert.KernelIdeal

/-! ## Each stretch over any contents it may find -/

section Stretch
variable (W : Valuation τ sig (Elt Ideal))

/-- The first stretch leaves the message sources: row 0 of the edge list, then the self-loops. -/
theorem host0_v3 : (StableHlo.after (Gen.hostOps0 (F := Ideal)) W (Proc.devRef .tc main_v3) : Spec.IA S1700000)
    = Spec.src (W (Proc.devRef .tc main_arg1)) := by
  dsimp only [Gen.hostOps0]
  after_results_simp
  rfl

/-- The first stretch leaves the message targets: row 1 of the edge list, then the self-loops. -/
theorem host0_v6 : (StableHlo.after (Gen.hostOps0 (F := Ideal)) W (Proc.devRef .tc main_v6) : Spec.IA S1700000)
    = Spec.dst (W (Proc.devRef .tc main_arg1)) := by
  dsimp only [Gen.hostOps0]
  after_results_simp
  rfl

/-- The first stretch leaves the message weights `1/√deg(src) · 1/√deg(dst)`. -/
theorem host0_v28 : (StableHlo.after (Gen.hostOps0 (F := Ideal)) W (Proc.devRef .tc main_v28) : Spec.FA S1700000)
    = Spec.nrm (W (Proc.devRef .tc main_arg1)) := by
  dsimp only [Gen.hostOps0]
  after_results_simp
  rfl

/-- The second stretch aggregates the first product over the graph and adds the first bias. -/
theorem host1_v45 : (StableHlo.after (Gen.hostOps1 (F := Ideal)) W (Proc.devRef .tc main_v45) : Spec.FA S100000x64)
    = Spec.layer1 (W (Proc.devRef .tc main_v3)) (W (Proc.devRef .tc main_v6)) (W (Proc.devRef .tc main_v28))
        (W (Proc.devRef .tc main_v29)) (W (Proc.devRef .tc main_arg3)) := by
  dsimp only [Gen.hostOps1]
  after_results_simp
  rfl

/-- The third stretch turns the column sums and sums of squares into the normalisation's scale … -/
theorem host2_v57 : (StableHlo.after (Gen.hostOps2 (F := Ideal)) W (Proc.devRef .tc main_v57) : Spec.FA S1x64)
    = Spec.scale (W (Proc.devRef .tc main_v46_0)) (W (Proc.devRef .tc main_v46_1)) (W (Proc.devRef .tc main_arg4)) := by
  dsimp only [Gen.hostOps2]
  after_results_simp
  rfl

/-- … and its shift. -/
theorem host2_v60 : (StableHlo.after (Gen.hostOps2 (F := Ideal)) W (Proc.devRef .tc main_v60) : Spec.FA S1x64)
    = Spec.shift (W (Proc.devRef .tc main_v46_0)) (W (Proc.devRef .tc main_v46_1)) (W (Proc.devRef .tc main_arg4))
        (W (Proc.devRef .tc main_arg5)) := by
  dsimp only [Gen.hostOps2]
  after_results_simp
  rfl

/-- The last stretch aggregates the second product over the graph and adds the second bias. -/
theorem host4_v78 : (StableHlo.after (Gen.hostOps4 (F := Ideal)) W (Proc.devRef .tc main_v78) : Spec.FA S100000x32)
    = Spec.layer2 (W (Proc.devRef .tc main_v3)) (W (Proc.devRef .tc main_v6)) (W (Proc.devRef .tc main_v28))
        (W (Proc.devRef .tc main_v62)) (W (Proc.devRef .tc main_arg7)) := by
  dsimp only [Gen.hostOps4]
  after_results_simp
  rfl

end Stretch

/-! ## Each stretch in the run, its operands traced back -/

section Run
variable (m : (ℓ : Loc nD τ sig) → Buf (Elt Ideal) ℓ) (ρ : Dev nD → PrngReg) (c : Dev nD)

/-- At the first region's entry: the endpoints and weights, from the launched edge list. -/
theorem W1_v3 : (Gen.W1 m ρ c (Proc.devRef .tc main_v3) : Spec.IA S1700000)
    = Spec.src (m ((c : Thread nD τ).loc main_arg1)) := host0_v3 (Gen.W0 m ρ c)
theorem W1_v6 : (Gen.W1 m ρ c (Proc.devRef .tc main_v6) : Spec.IA S1700000)
    = Spec.dst (m ((c : Thread nD τ).loc main_arg1)) := host0_v6 (Gen.W0 m ρ c)
theorem W1_v28 : (Gen.W1 m ρ c (Proc.devRef .tc main_v28) : Spec.FA S1700000)
    = Spec.nrm (m ((c : Thread nD τ).loc main_arg1)) := host0_v28 (Gen.W0 m ρ c)

/-- At the second region's entry: the first layer's aggregation of the first region's product. -/
theorem V3_v45 : (Gen.V3 m ρ c main_v45 : Spec.FA S100000x64)
    = Spec.layer1 (Spec.src (m ((c : Thread nD τ).loc main_arg1))) (Spec.dst (m ((c : Thread nD τ).loc main_arg1)))
        (Spec.nrm (m ((c : Thread nD τ).loc main_arg1)))
        ((Gen.dat0 (Gen.V1 m ρ) c).arrAt 2 cfg0.N) (m ((c : Thread nD τ).loc main_arg3)) := by
  refine (host1_v45 (Gen.W2 m ρ c)).trans ?_
  rw [W2_v3 m ρ c, W2_v6 m ρ c, W2_v28 m ρ c, W2_v29 m ρ c, W2_arg3 m ρ c, W1_v3 m ρ c, W1_v6 m ρ c, W1_v28 m ρ c]

/-- At the third region's entry: the scale and shift, from the second region's column sums and sums of squares. -/
theorem V5_v57 : (Gen.V5 m ρ c main_v57 : Spec.FA S1x64)
    = Spec.scale ((Gen.dat1 (Gen.V3 m ρ) c).arrAt 1 cfg1.N) ((Gen.dat1 (Gen.V3 m ρ) c).arrAt 2 cfg1.N)
        (m ((c : Thread nD τ).loc main_arg4)) := by
  refine (host2_v57 (Gen.W4 m ρ c)).trans ?_
  rw [W4_v46_0 m ρ c, W4_v46_1 m ρ c, W4_arg4 m ρ c]
theorem V5_v60 : (Gen.V5 m ρ c main_v60 : Spec.FA S1x64)
    = Spec.shift ((Gen.dat1 (Gen.V3 m ρ) c).arrAt 1 cfg1.N) ((Gen.dat1 (Gen.V3 m ρ) c).arrAt 2 cfg1.N)
        (m ((c : Thread nD τ).loc main_arg4)) (m ((c : Thread nD τ).loc main_arg5)) := by
  refine (host2_v60 (Gen.W4 m ρ c)).trans ?_
  rw [W4_v46_0 m ρ c, W4_v46_1 m ρ c, W4_arg4 m ρ c, W4_arg5 m ρ c]

/-- At the return: the second layer's aggregation of the last region's product. -/
theorem W8_v78 : (Gen.W8 m ρ c (Proc.devRef .tc main_v78) : Spec.FA S100000x32)
    = Spec.layer2 (Spec.src (m ((c : Thread nD τ).loc main_arg1))) (Spec.dst (m ((c : Thread nD τ).loc main_arg1)))
        (Spec.nrm (m ((c : Thread nD τ).loc main_arg1)))
        ((Gen.dat3 (Gen.V6 m ρ) c).arrAt 2 cfg3.N) (m ((c : Thread nD τ).loc main_arg7)) := by
  refine (host4_v78 (Gen.W7 m ρ c)).trans ?_
  rw [W7_v3 m ρ c, W7_v6 m ρ c, W7_v28 m ρ c, W7_v62 m ρ c, W7_arg7 m ρ c, W1_v3 m ρ c, W1_v6 m ρ c, W1_v28 m ρ c]

end Run

end Cert.KernelIdeal.KRun

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.KReg0.lean ====
import proofs.«177512_j55714315763894_1_alg».proof.Proof.Gen.KernelIdeal.Frame
import proofs.«177512_j55714315763894_1_alg».proof.Proof.LibMatProd
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KReg

open Cert.KernelIdeal Cert.KernelIdeal.Gen Idealize.ShloMosaic Idealize.ShloMosaic.TcCoe Idealize.SL.Sem
open Idealize.ShloMosaic.ValueIdx
open Idealize.ShloMosaic.Pipeline (Dat)

/-- The matrix unit's payload at an index: a row of the left block against a column of the right block. -/
theorem pay0_apply (x0 : Vec Ideal S2000x128 .f32) (x1 : Vec Ideal S128x64 .f32) (r : Fin 2000) (q : Fin 64) :
    k0_pay1 x0 x1 (ix2 r q) = ∑ k : Fin 128, x0 (ix2 r k) * x1 (ix2 k q) := by
  unfold k0_pay1
  refine (Ideal.matmul_constant_zero_apply dot_S2000x128_S128x64_S2000x64_1_0_0_1_n_n none _ _ (ix2 r q)).trans ?_
  refine (Cert.Gcn.Dense.sum_contr_eq_prod (M := 2000) (K := 128) (N := 64) dot_S2000x128_S128x64_S2000x64_1_0_0_1_n_n rfl rfl
    (fun i k => ?_) (fun i k => ?_) (fun i k => ?_) (fun i k => ?_) _ _ (ix2 r q)).trans ?_
  · rfl
  · exact DotDims.lhsIdx_val_of_single _ rfl i k
  · exact DotDims.rhsIdx_val_of_single _ rfl i k
  · rfl
  · rfl

/-- The windows' index maps over the 50 grid points: the left operand's and the result's blocks are row block `t`,
    the right operand's block is the whole matrix. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem hz : (![0, 0] : Fin 2 → Nat) = fun _ => 0 := funext fun a => by fin_cases a <;> rfl

/-- One entry of a row block of the product: if row `r` of the left block is row `p` of the left matrix and the right
    block is the right matrix, entry `(r, q)` of the block's product is entry `(p, q)` of the matrices' product. -/
theorem blk0_entry (a0 : S100000x128.Idx → EReal) (a1 : S128x64.Idx → EReal)
    (x0 : Vec Ideal S2000x128 .f32) (x1 : Vec Ideal S128x64 .f32) (p : Fin 100000) (r : Fin 2000) (q : Fin 64)
    (h0 : ∀ k : Fin 128, x0 (ix2 r k) = a0 (ix2 p k))
    (h1 : ∀ k : Fin 128, x1 (ix2 k q) = a1 (ix2 k q)) :
    k0_pay1 x0 x1 (ix2 r q) = ∑ k : Fin 128, a0 (ix2 p k) * a1 (ix2 k q) :=
  (pay0_apply x0 x1 r q).trans (Finset.sum_congr rfl fun k _ => by rw [h0 k, h1 k])

section
variable (V : (c : Dev nD) → (b : Ref sig .tc) → Buf (Elt Ideal) ((c : Thread nD τ).loc b))

/-- What point `t` writes back is block `t` of the product of the two argument arrays as the region finds them. -/
theorem flushed0_eq (c : Dev nD) (t : Fin cfg0.N) :
    (dat0 V c).flushed 2 t = ((cfg0.win 2).blk t).view.read (Elt Ideal)
      (Cert.Gcn.Dense.prod (V c main_arg0 : S100000x128.Idx → EReal) (V c main_arg2 : S128x64.Idx → EReal)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x64) hz]
  obtain ⟨e0, e1, e2, e3, e4, e5⟩ := idx_facts0 t
  funext j
  obtain ⟨r, q, rfl⟩ : ∃ (r : Fin 2000) (q : Fin 64), j = ix2 r q := ⟨j 0, j 1, eq_ix2 j⟩
  have ht : t.val < 50 := lt_of_lt_of_eq t.isLt N_0
  have hp : t.val * 2000 + r.val < 100000 := by have := r.isLt; omega
  have hemb : ((cfg0.win 2).blk t).view.emb (ix2 r q) = (ix2 (⟨t.val * 2000 + r.val, hp⟩ : Fin 100000) q : S100000x64.Idx) := by
    funext a; apply Fin.ext
    match a with
    | ⟨0, _⟩ => show win0_2.index t (0 : Fin 2) * 2000 + 1 * r.val = t.val * 2000 + r.val; omega
    | ⟨1, _⟩ => show win0_2.index t (1 : Fin 2) * 64 + 1 * q.val = q.val; omega
  show k0_pay1 (iblk0 V c 0 t) (iblk0 V c 1 t) (ix2 r q)
    = Cert.Gcn.Dense.prod (V c main_arg0 : S100000x128.Idx → EReal) (V c main_arg2 : S128x64.Idx → EReal) (((cfg0.win 2).blk t).view.emb (ix2 r q))
  rw [hemb]
  refine blk0_entry (V c main_arg0) (V c main_arg2) (iblk0 V c 0 t) (iblk0 V c 1 t) ⟨t.val * 2000 + r.val, hp⟩ r q (fun k => ?_) (fun k => ?_)
  · show (V c main_arg0 : S100000x128.Idx → EReal) (((cfg0.win 0).blk t).view.emb (ix2 r k)) = V c main_arg0 (ix2 (⟨t.val * 2000 + r.val, hp⟩ : Fin 100000) k)
    refine congrArg (V c main_arg0 : S100000x128.Idx → EReal) ?_
    funext a; apply Fin.ext
    match a with
    | ⟨0, _⟩ => show win0_0.index t (0 : Fin 2) * 2000 + 1 * r.val = t.val * 2000 + r.val; omega
    | ⟨1, _⟩ => show win0_0.index t (1 : Fin 2) * 128 + 1 * k.val = k.val; omega
  · show (V c main_arg2 : S128x64.Idx → EReal) (((cfg0.win 1).blk t).view.emb (ix2 k q)) = V c main_arg2 (ix2 k q)
    refine congrArg (V c main_arg2 : S128x64.Idx → EReal) ?_
    funext a; apply Fin.ext
    match a with
    | ⟨0, _⟩ => show win0_1.index t (0 : Fin 2) * 128 + 1 * k.val = k.val; omega
    | ⟨1, _⟩ => show win0_1.index t (1 : Fin 2) * 64 + 1 * q.val = q.val; omega

/-- An index of the result array is in point `t`'s block iff each coordinate is in the block's range on its axis. -/
theorem mem_blk0 (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v29).slice (win0_2.rect t)).set ↔ _
  rw [View.set_slice_whole, Rect.mem_set_unit]
  exact Iff.rfl

/-- Every index of the result array is in some point's block: row `p` lies in row block `p / 2000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 2000 < cfg0.N := by rw [show cfg0.N = 50 from N_0]; omega
  obtain ⟨e0, e1, e2, e3, e4, e5⟩ := idx_facts0 ⟨(i 0).val / 2000, hN⟩
  refine ⟨⟨(i 0).val / 2000, hN⟩, flush0_2 _, ?_⟩
  rw [mem_blk0]
  intro a
  match a with
  | ⟨0, _⟩ =>
    show win0_2.index ⟨(i 0).val / 2000, hN⟩ (0 : Fin 2) * 2000 ≤ (i 0).val ∧ (i 0).val < win0_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hN⟩ (1 : Fin 2) * 64 ≤ (i 1).val ∧ (i 1).val < win0_2.index ⟨(i 0).val / 2000, hN⟩ (1 : Fin 2) * 64 + 64
    rw [e5]; omega

/-- The result array after the region's run is the product of the two argument arrays as the region finds them. -/
theorem final0 (c : Dev nD) :
    (dat0 V c).arrAt 2 cfg0.N = Cert.Gcn.Dense.prod (V c main_arg0 : S100000x128.Idx → EReal) (V c main_arg2 : S128x64.Idx → EReal) :=
  (dat0 V c).arrAt_eq_of_cover 2 _ (fun t _ => flushed0_eq V c t) cover0

/-- REGION 0, index by index: entry `(p, q)` of the result array is `Σ_k a0 (p, k) · a2 (k, q)`, where `a0` and `a2` are
    the two argument arrays as the region finds them, read as functions into the extended reals. -/
theorem reg0 (c : Dev nD) (a0 : S100000x128.Idx → EReal) (a2 : S128x64.Idx → EReal)
    (h0 : V c main_arg0 = a0) (h2 : V c main_arg2 = a2) (p : Fin 100000) (q : Fin 64) :
    @Eq EReal ((dat0 V c).arrAt 2 cfg0.N (ix2 p q)) (∑ k : Fin 128, a0 (ix2 p k) * a2 (ix2 k q)) := by
  subst h0 h2
  rw [final0 V c]; rfl
end

end Cert.KernelIdeal.KReg

end
-- ==== Proof.KReg2.lean ====
import proofs.«177512_j55714315763894_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
  The third region in closed form, at the ideal instance: the normalisation's affine map followed by the
  rectifier, entry by entry.

  The region walks 50 row blocks of 2000 rows of the first layer's output `h`. At each it multiplies the block
  by the scale row, adds the shift row (both `1 × 64`, broadcast over the rows) and takes the maximum with
  zero; the reshapes in between are to the same shape. The 50 written blocks tile the result, so entry `(p, q)`
  of the result array is `max (h (p, q) · scale (0, q) + shift (0, q)) 0`.
-/

noncomputable section

namespace Cert.KernelIdeal.KReg

open Cert.KernelIdeal Cert.KernelIdeal.Gen Idealize.ShloMosaic Idealize.ShloMosaic.TcCoe Idealize.SL.Sem
open Idealize.ShloMosaic.ValueIdx
open Idealize.ShloMosaic.Pipeline (Dat)

/-- Scale, shift and rectify, over the whole array: `max (h (p, q) · sc (0, q) + sh (0, q)) 0`. -/
def normRelu (h : S100000x64.Idx → EReal) (sc sh : S1x64.Idx → EReal) : S100000x64.Idx → EReal :=
  fun i => max (h i * sc (ix2 (0 : Fin 1) (i 1)) + sh (ix2 (0 : Fin 1) (i 1))) 0

/-- The block's payload at an index: the entry scaled and shifted by its column's coefficients, then rectified. -/
theorem pay2_apply (x0 : Vec Ideal S2000x64 .f32) (x1 x2 : Vec Ideal S1x64 .f32) (r : Fin 2000) (q : Fin 64) :
    k2_pay1 x0 x1 x2 (ix2 r q) = max (x0 (ix2 r q) * x1 (ix2 (0 : Fin 1) q) + x2 (ix2 (0 : Fin 1) q)) 0 := by
  have e0 : ∀ h : S2000x64.ShapeCasts S2000x64, shapeCast S2000x64 x0 h = x0 := fun h => shapeCast_self x0 h
  have e1 : ∀ h : S1x64.ShapeCasts S1x64, shapeCast S1x64 x1 h = x1 := fun h => shapeCast_self x1 h
  have e2 : ∀ h : S1x64.ShapeCasts S1x64, shapeCast S1x64 x2 h = x2 := fun h => shapeCast_self x2 h
  unfold k2_pay1
  simp only [e0, e1, e2]
  show max (x0 (ix2 r q) * broadcastTo S2000x64 x1 broadcasts_S1x64_S2000x64 (ix2 r q)
      + broadcastTo S2000x64 x2 broadcasts_S1x64_S2000x64 (ix2 r q)) (Ideal.ofBits .f32 0x00000000#32) = _
  rw [broadcastTo_1b_ab_apply x1 _ r q, broadcastTo_1b_ab_apply x2 _ r q, Ideal.ofBits_zero_f32]

/-- The index maps over the 50 grid points: the input's and the result's blocks are row block `t`, the two
    coefficient rows' block is the whole row. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem hz2 : (![0, 0] : Fin 2 → Nat) = fun _ => 0 := funext fun a => by fin_cases a <;> rfl

/-- One entry of a row block: if entry `(r, q)` of the input block is entry `(p, q)` of the input array and the
    coefficient blocks are the coefficient rows, the block's payload there is the whole-array function there. -/
theorem blk2_entry (h : S100000x64.Idx → EReal) (sc sh : S1x64.Idx → EReal)
    (x0 : Vec Ideal S2000x64 .f32) (x1 x2 : Vec Ideal S1x64 .f32) (p : Fin 100000) (r : Fin 2000) (q : Fin 64)
    (h0 : x0 (ix2 r q) = h (ix2 p q))
    (h1 : x1 (ix2 (0 : Fin 1) q) = sc (ix2 (0 : Fin 1) q))
    (h2 : x2 (ix2 (0 : Fin 1) q) = sh (ix2 (0 : Fin 1) q)) :
    k2_pay1 x0 x1 x2 (ix2 r q) = normRelu h sc sh (ix2 p q) := by
  rw [pay2_apply x0 x1 x2 r q, h0, h1, h2]; rfl

section
variable (V : (c : Dev nD) → (b : Ref sig .tc) → Buf (Elt Ideal) ((c : Thread nD τ).loc b))

/-- What point `t` writes back is block `t` of the whole-array function of the three arrays the region finds. -/
theorem flushed2_eq (c : Dev nD) (t : Fin cfg2.N) :
    (dat2 V c).flushed 3 t = ((cfg2.win 3).blk t).view.read (Elt Ideal)
      (normRelu (V c main_v45 : S100000x64.Idx → EReal) (V c main_v57 : S1x64.Idx → EReal) (V c main_v60 : S1x64.Idx → EReal)) := by
  show (cfg2.win 3).cut (grid2.coords t) ((dat2 V c).after 3 t) = _
  rw [after2_3]
  unfold out2_3
  rw [View.canon_unit_zero hz2]
  simp only [View.ld_unit_zero (S := S2000x64) hz2, View.ld_unit_zero (S := S1x64) hz2]
  obtain ⟨e0, e1, e2, e3, e4, e5, e6, e7⟩ := idx_facts2 t
  funext j
  obtain ⟨r, q, rfl⟩ : ∃ (r : Fin 2000) (q : Fin 64), j = ix2 r q := ⟨j 0, j 1, eq_ix2 j⟩
  have ht : t.val < 50 := lt_of_lt_of_eq t.isLt N_2
  have hp : t.val * 2000 + r.val < 100000 := by have := r.isLt; omega
  have hemb : ((cfg2.win 3).blk t).view.emb (ix2 r q) = (ix2 (⟨t.val * 2000 + r.val, hp⟩ : Fin 100000) q : S100000x64.Idx) := by
    funext a; apply Fin.ext
    match a with
    | ⟨0, _⟩ => show win2_3.index t (0 : Fin 2) * 2000 + 1 * r.val = t.val * 2000 + r.val; omega
    | ⟨1, _⟩ => show win2_3.index t (1 : Fin 2) * 64 + 1 * q.val = q.val; omega
  show k2_pay1 (iblk2 V c 0 t) (iblk2 V c 1 t) (iblk2 V c 2 t) (ix2 r q)
    = normRelu (V c main_v45 : S100000x64.Idx → EReal) (V c main_v57 : S1x64.Idx → EReal) (V c main_v60 : S1x64.Idx → EReal)
        (((cfg2.win 3).blk t).view.emb (ix2 r q))
  rw [hemb]
  refine blk2_entry (V c main_v45) (V c main_v57) (V c main_v60) (iblk2 V c 0 t) (iblk2 V c 1 t) (iblk2 V c 2 t)
    ⟨t.val * 2000 + r.val, hp⟩ r q ?_ ?_ ?_
  · show (V c main_v45 : S100000x64.Idx → EReal) (((cfg2.win 0).blk t).view.emb (ix2 r q)) = V c main_v45 (ix2 (⟨t.val * 2000 + r.val, hp⟩ : Fin 100000) q)
    refine congrArg (V c main_v45 : S100000x64.Idx → EReal) ?_
    funext a; apply Fin.ext
    match a with
    | ⟨0, _⟩ => show win2_0.index t (0 : Fin 2) * 2000 + 1 * r.val = t.val * 2000 + r.val; omega
    | ⟨1, _⟩ => show win2_0.index t (1 : Fin 2) * 64 + 1 * q.val = q.val; omega
  · show (V c main_v57 : S1x64.Idx → EReal) (((cfg2.win 1).blk t).view.emb (ix2 (0 : Fin 1) q)) = V c main_v57 (ix2 (0 : Fin 1) q)
    refine congrArg (V c main_v57 : S1x64.Idx → EReal) ?_
    funext a; apply Fin.ext
    match a with
    | ⟨0, _⟩ => show win2_1.index t (0 : Fin 2) * 1 + 1 * 0 = 0; omega
    | ⟨1, _⟩ => show win2_1.index t (1 : Fin 2) * 64 + 1 * q.val = q.val; omega
  · show (V c main_v60 : S1x64.Idx → EReal) (((cfg2.win 2).blk t).view.emb (ix2 (0 : Fin 1) q)) = V c main_v60 (ix2 (0 : Fin 1) q)
    refine congrArg (V c main_v60 : S1x64.Idx → EReal) ?_
    funext a; apply Fin.ext
    match a with
    | ⟨0, _⟩ => show win2_2.index t (0 : Fin 2) * 1 + 1 * 0 = 0; omega
    | ⟨1, _⟩ => show win2_2.index t (1 : Fin 2) * 64 + 1 * q.val = q.val; omega

/-- An index of the result array is in point `t`'s block iff each coordinate is in the block's range on its axis. -/
theorem mem_blk2 (t : Fin cfg2.N) (i : S100000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v61).slice (win2_3.rect t)).set ↔ _
  rw [View.set_slice_whole, Rect.mem_set_unit]
  exact Iff.rfl

/-- Every index of the result array is in some point's block: row `p` lies in row block `p / 2000`. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : (i 0).val / 2000 < cfg2.N := by rw [show cfg2.N = 50 from N_2]; omega
  obtain ⟨e0, e1, e2, e3, e4, e5, e6, e7⟩ := idx_facts2 ⟨(i 0).val / 2000, hN⟩
  refine ⟨⟨(i 0).val / 2000, hN⟩, flush2_3 _, ?_⟩
  rw [mem_blk2]
  intro a
  match a with
  | ⟨0, _⟩ =>
    show win2_3.index ⟨(i 0).val / 2000, hN⟩ (0 : Fin 2) * 2000 ≤ (i 0).val ∧ (i 0).val < win2_3.index ⟨(i 0).val / 2000, hN⟩ (0 : Fin 2) * 2000 + 2000
    rw [e6]; show (i 0).val / 2000 * 2000 ≤ (i 0).val ∧ (i 0).val < (i 0).val / 2000 * 2000 + 2000; omega
  | ⟨1, _⟩ =>
    show win2_3.index ⟨(i 0).val / 2000, hN⟩ (1 : Fin 2) * 64 ≤ (i 1).val ∧ (i 1).val < win2_3.index ⟨(i 0).val / 2000, hN⟩ (1 : Fin 2) * 64 + 64
    rw [e7]; omega

/-- The result array after the region's run is the whole-array function of the three arrays the region finds. -/
theorem final2 (c : Dev nD) :
    (dat2 V c).arrAt 3 cfg2.N = normRelu (V c main_v45 : S100000x64.Idx → EReal) (V c main_v57 : S1x64.Idx → EReal)
      (V c main_v60 : S1x64.Idx → EReal) :=
  (dat2 V c).arrAt_eq_of_cover 3 _ (fun t _ => flushed2_eq V c t) cover2

/-- The third region, index by index: entry `(p, q)` of the result array is
    `max (h (p, q) · sc (0, q) + sh (0, q)) 0`, where `h`, `sc`, `sh` are the three arrays as the region finds
    them, read as functions into the extended reals. -/
theorem reg2 (c : Dev nD) (h : S100000x64.Idx → EReal) (sc sh : S1x64.Idx → EReal)
    (hh : V c main_v45 = h) (hsc : V c main_v57 = sc) (hsh : V c main_v60 = sh) (p : Fin 100000) (q : Fin 64) :
    @Eq EReal ((dat2 V c).arrAt 3 cfg2.N (ix2 p q))
      (max (h (ix2 p q) * sc (ix2 (0 : Fin 1) q) + sh (ix2 (0 : Fin 1) q)) 0) := by
  subst hh hsc hsh
  rw [final2 V c]; rfl
end

end Cert.KernelIdeal.KReg

end
-- ==== Proof.KReg3.lean ====
import proofs.«177512_j55714315763894_1_alg».proof.Proof.Gen.KernelIdeal.Frame
import proofs.«177512_j55714315763894_1_alg».proof.Proof.LibMatProd
import Idealize.ShloMosaic.Lib.Pipeline.Value
import Idealize.ShloMosaic.Lib.ValueIdx
import Idealize.ShloMosaic.Lib.ValueLayout
import Idealize.ShloMosaic.PureOps.Ideal.Laws

/-!
  The last region in closed form, at the ideal instance: the second dense product.

  The region walks 50 row blocks of 2000 rows. At each it multiplies the block of the normalised activations
  (2000 × 64) by the whole second weight matrix (64 × 32) on the matrix unit, into a zero accumulator, after a
  change of float format that is the identity on extended reals and a reshape to the same shape. The 50 written
  blocks tile the result, so the result array is the product of the two arrays the region finds.
-/

noncomputable section

namespace Cert.KernelIdeal.KReg

open Cert.KernelIdeal Cert.KernelIdeal.Gen Idealize.ShloMosaic Idealize.ShloMosaic.TcCoe Idealize.SL.Sem
open Idealize.ShloMosaic.ValueIdx
open Idealize.ShloMosaic.Pipeline (Dat)

/-- The block product at an index: row `r` of the left block against column `q` of the right block. -/
theorem pay3_apply (x0 : Vec Ideal S2000x64 .f32) (x1 : Vec Ideal S64x32 .f32) (r : Fin 2000) (q : Fin 32) :
    k3_pay1 x0 x1 (ix2 r q) = ∑ k : Fin 64, x0 (ix2 r k) * x1 (ix2 k q) := by
  have e : ∀ h : S2000x64.ShapeCasts S2000x64, shapeCast S2000x64 x0 h = x0 := fun h => shapeCast_self x0 h
  unfold k3_pay1
  simp only [e]
  refine (Ideal.matmul_constant_zero_apply dot_S2000x64_S64x32_S2000x32_1_0_0_1_n_n none _ _ (ix2 r q)).trans ?_
  refine (Cert.Gcn.Dense.sum_contr_eq_prod (M := 2000) (K := 64) (N := 32) dot_S2000x64_S64x32_S2000x32_1_0_0_1_n_n rfl rfl
    (fun i k => ?_) (fun i k => ?_) (fun i k => ?_) (fun i k => ?_) _ _ (ix2 r q)).trans ?_
  · rfl
  · exact DotDims.lhsIdx_val_of_single _ rfl i k
  · exact DotDims.rhsIdx_val_of_single _ rfl i k
  · rfl
  · rfl

/-- The index maps over the 50 grid points: the left operand's and the result's blocks are row block `t`, the
    right operand's block is the whole matrix. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem hz3 : (![0, 0] : Fin 2 → Nat) = fun _ => 0 := funext fun a => by fin_cases a <;> rfl

/-- One entry of a row block of the product: if row `r` of the left block is row `p` of the left matrix and the
    right block is the right matrix, entry `(r, q)` of the block product is entry `(p, q)` of the product. -/
theorem blk3_entry (a0 : S100000x64.Idx → EReal) (a1 : S64x32.Idx → EReal)
    (x0 : Vec Ideal S2000x64 .f32) (x1 : Vec Ideal S64x32 .f32) (p : Fin 100000) (r : Fin 2000) (q : Fin 32)
    (h0 : ∀ k : Fin 64, x0 (ix2 r k) = a0 (ix2 p k))
    (h1 : ∀ k : Fin 64, x1 (ix2 k q) = a1 (ix2 k q)) :
    k3_pay1 x0 x1 (ix2 r q) = ∑ k : Fin 64, a0 (ix2 p k) * a1 (ix2 k q) :=
  (pay3_apply x0 x1 r q).trans (Finset.sum_congr rfl fun k _ => by rw [h0 k, h1 k])

section
variable (V : (c : Dev nD) → (b : Ref sig .tc) → Buf (Elt Ideal) ((c : Thread nD τ).loc b))

/-- What point `t` writes back is block `t` of the product of the two arrays as the region finds them. -/
theorem flushed3_eq (c : Dev nD) (t : Fin cfg3.N) :
    (dat3 V c).flushed 2 t = ((cfg3.win 2).blk t).view.read (Elt Ideal)
      (Cert.Gcn.Dense.prod (V c main_v61 : S100000x64.Idx → EReal) (V c main_arg6 : S64x32.Idx → EReal)) := by
  show (cfg3.win 2).cut (grid3.coords t) ((dat3 V c).after 2 t) = _
  rw [after3_2]
  unfold out3_2
  rw [View.canon_unit_zero hz3]
  simp only [View.ld_unit_zero (S := S2000x64) hz3, View.ld_unit_zero (S := S64x32) hz3]
  obtain ⟨e0, e1, e2, e3, e4, e5⟩ := idx_facts3 t
  funext j
  obtain ⟨r, q, rfl⟩ : ∃ (r : Fin 2000) (q : Fin 32), j = ix2 r q := ⟨j 0, j 1, eq_ix2 j⟩
  have ht : t.val < 50 := lt_of_lt_of_eq t.isLt N_3
  have hp : t.val * 2000 + r.val < 100000 := by have := r.isLt; omega
  have hemb : ((cfg3.win 2).blk t).view.emb (ix2 r q) = (ix2 (⟨t.val * 2000 + r.val, hp⟩ : Fin 100000) q : S100000x32.Idx) := by
    funext a; apply Fin.ext
    match a with
    | ⟨0, _⟩ => show win3_2.index t (0 : Fin 2) * 2000 + 1 * r.val = t.val * 2000 + r.val; omega
    | ⟨1, _⟩ => show win3_2.index t (1 : Fin 2) * 32 + 1 * q.val = q.val; omega
  show k3_pay1 (iblk3 V c 0 t) (iblk3 V c 1 t) (ix2 r q)
    = Cert.Gcn.Dense.prod (V c main_v61 : S100000x64.Idx → EReal) (V c main_arg6 : S64x32.Idx → EReal) (((cfg3.win 2).blk t).view.emb (ix2 r q))
  rw [hemb]
  refine blk3_entry (V c main_v61) (V c main_arg6) (iblk3 V c 0 t) (iblk3 V c 1 t) ⟨t.val * 2000 + r.val, hp⟩ r q (fun k => ?_) (fun k => ?_)
  · show (V c main_v61 : S100000x64.Idx → EReal) (((cfg3.win 0).blk t).view.emb (ix2 r k)) = V c main_v61 (ix2 (⟨t.val * 2000 + r.val, hp⟩ : Fin 100000) k)
    refine congrArg (V c main_v61 : S100000x64.Idx → EReal) ?_
    funext a; apply Fin.ext
    match a with
    | ⟨0, _⟩ => show win3_0.index t (0 : Fin 2) * 2000 + 1 * r.val = t.val * 2000 + r.val; omega
    | ⟨1, _⟩ => show win3_0.index t (1 : Fin 2) * 64 + 1 * k.val = k.val; omega
  · show (V c main_arg6 : S64x32.Idx → EReal) (((cfg3.win 1).blk t).view.emb (ix2 k q)) = V c main_arg6 (ix2 k q)
    refine congrArg (V c main_arg6 : S64x32.Idx → EReal) ?_
    funext a; apply Fin.ext
    match a with
    | ⟨0, _⟩ => show win3_1.index t (0 : Fin 2) * 64 + 1 * k.val = k.val; omega
    | ⟨1, _⟩ => show win3_1.index t (1 : Fin 2) * 32 + 1 * q.val = q.val; omega

/-- An index of the result array is in point `t`'s block iff each coordinate is in the block's range on its axis. -/
theorem mem_blk3 (t : Fin cfg3.N) (i : S100000x32.Idx) :
    i ∈ ((cfg3.win 2).blk t).view.set ↔ ∀ a : Fin 2, win3_2.index t a * S2000x32.size a ≤ (i a).val ∧ (i a).val < win3_2.index t a * S2000x32.size a + S2000x32.size a := by
  show i ∈ ((View.whole main_v62).slice (win3_2.rect t)).set ↔ _
  rw [View.set_slice_whole, Rect.mem_set_unit]
  exact Iff.rfl

/-- Every index of the result array is in some point's block: row `p` lies in row block `p / 2000`. -/
theorem cover3 (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : (i 0).val / 2000 < cfg3.N := by rw [show cfg3.N = 50 from N_3]; omega
  obtain ⟨e0, e1, e2, e3, e4, e5⟩ := idx_facts3 ⟨(i 0).val / 2000, hN⟩
  refine ⟨⟨(i 0).val / 2000, hN⟩, flush3_2 _, ?_⟩
  rw [mem_blk3]
  intro a
  match a with
  | ⟨0, _⟩ =>
    show win3_2.index ⟨(i 0).val / 2000, hN⟩ (0 : Fin 2) * 2000 ≤ (i 0).val ∧ (i 0).val < win3_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win3_2.index ⟨(i 0).val / 2000, hN⟩ (1 : Fin 2) * 32 ≤ (i 1).val ∧ (i 1).val < win3_2.index ⟨(i 0).val / 2000, hN⟩ (1 : Fin 2) * 32 + 32
    rw [e5]; omega

/-- The result array after the region's run is the product of the two arrays as the region finds them. -/
theorem final3 (c : Dev nD) :
    (dat3 V c).arrAt 2 cfg3.N = Cert.Gcn.Dense.prod (V c main_v61 : S100000x64.Idx → EReal) (V c main_arg6 : S64x32.Idx → EReal) :=
  (dat3 V c).arrAt_eq_of_cover 2 _ (fun t _ => flushed3_eq V c t) cover3

/-- The last region, index by index: entry `(p, q)` of the result array is `Σ_k x (p, k) · w (k, q)`, where `x` and
    `w` are the two arrays as the region finds them, read as functions into the extended reals. -/
theorem reg3 (c : Dev nD) (x : S100000x64.Idx → EReal) (w : S64x32.Idx → EReal)
    (hx : V c main_v61 = x) (hw : V c main_arg6 = w) (p : Fin 100000) (q : Fin 32) :
    @Eq EReal ((dat3 V c).arrAt 2 cfg3.N (ix2 p q)) (∑ k : Fin 64, x (ix2 p k) * w (ix2 k q)) := by
  subst hx hw
  rw [final3 V c]; rfl
end

end Cert.KernelIdeal.KReg

end
-- ==== Proof.LibRealOps.lean ====
import Idealize.ShloMosaic.PureOps.Ideal
import Idealize.ShloMosaic.PureOps.Ideal.Laws
import Idealize.ShloMosaic.PureOps.IdealRules

/-!
# Real-valued arrays are closed under the whole-array operations

At the ideal instance a float array is a function into the extended reals. An array is
*all real* when every entry is (the image of) a real number. This file shows that the
elementwise arithmetic, the re-indexings (broadcast, gather), the finite sums (scatter-add,
dot products) and the quotient 1 / max(y, 1) keep an array all real: a finite sum or a
product of reals is a real, the maximum of two reals is a real, and a quotient of reals with a
nonzero denominator is a real.
-/

open Idealize Idealize.ShloMosaic

namespace Cert.Proof.RealOps

/-- Every entry of the array is a real number. -/
def AllReal {ι : Type*} (f : ι → EReal) : Prop := ∀ i, ∃ r : ℝ, f i = (r : EReal)

/-! ### Scalars: sums, products, maxima and finite sums of reals are reals -/

theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb
  exact ⟨x + y, (EReal.coe_add x y).symm⟩

theorem real_sub {a b : EReal} (ha : ∃ r : ℝ, a = (r : EReal)) (hb : ∃ r : ℝ, b = (r : EReal)) :
    ∃ r : ℝ, a - b = (r : EReal) := by
  obtain ⟨x, rfl⟩ := ha; obtain ⟨y, rfl⟩ := hb
  exact ⟨x - y, (EReal.coe_sub x y).symm⟩

theorem real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb
  exact ⟨x * y, (EReal.coe_mul x y).symm⟩

theorem real_max {a b : EReal} (ha : ∃ r : ℝ, a = (r : EReal)) (hb : ∃ r : ℝ, b = (r : EReal)) :
    ∃ r : ℝ, max a b = (r : EReal) := by
  obtain ⟨x, rfl⟩ := ha; obtain ⟨y, rfl⟩ := hb
  exact ⟨max x y, (EReal.coe_strictMono.monotone.map_max).symm⟩

/-- A finite sum of reals is a real: by induction on the index set, one summand at a time. -/
theorem real_sum {ι : Type*} (t : Finset ι) (f : ι → EReal) (h : ∀ i ∈ t, ∃ r : ℝ, f i = (r : EReal)) :
    ∃ r : ℝ, ∑ i ∈ t, f i = (r : EReal) := by
  classical
  induction t using Finset.induction_on with
  | empty => exact ⟨0, by rw [Finset.sum_empty, EReal.coe_zero]⟩
  | insert a t ha ih =>
    rw [Finset.sum_insert ha]
    exact real_add (h a (Finset.mem_insert_self a t)) (ih fun i hi => h i (Finset.mem_insert_of_mem hi))

/-! ### 1. Elementwise arithmetic -/

theorem AllReal.addf {s : Shape} {x y : FVec Ideal s .f32} (hx : AllReal x) (hy : AllReal y) :
    AllReal (ShloMosaic.addf x y) := fun i => real_add (hx i) (hy i)

theorem AllReal.subf {s : Shape} {x y : FVec Ideal s .f32} (hx : AllReal x) (hy : AllReal y) :
    AllReal (ShloMosaic.subf x y) := fun i => real_sub (hx i) (hy i)

theorem AllReal.mulf {s : Shape} {x y : FVec Ideal s .f32} (hx : AllReal x) (hy : AllReal y) :
    AllReal (ShloMosaic.mulf x y) := fun i => real_mul (hx i) (hy i)

theorem AllReal.maximumf {s : Shape} {x y : FVec Ideal s .f32} (hx : AllReal x) (hy : AllReal y) :
    AllReal (ShloMosaic.maximumf x y) := fun i => real_max (hx i) (hy i)

/-! ### 2. Re-indexings: the result reads the operand at some index -/

theorem AllReal.broadcastInDim {s t : Shape} (dims : Fin s.rank → Fin t.rank) (h : s.BroadcastsInDim t dims)
    {x : FVec Ideal s .f32} (hx : AllReal x) : AllReal (ShloMosaic.broadcastInDim t dims h x) :=
  fun _ => hx _

theorem AllReal.gather {s si t : Shape} {w : Nat} (d : GatherDims s si t) {x : FVec Ideal s .f32} (idx : IVec si w)
    (hx : AllReal x) : AllReal (Host.gather d x idx) :=
  fun _ => hx _

/-! ### 3. Scatter-add: the operand's entry plus a finite sum of update entries -/

theorem AllReal.scatterAdd {s si u : Shape} {w : Nat} (d : ScatterDims s si u) {x : FVec Ideal s .f32}
    (idx : IVec si w) {upd : FVec Ideal u .f32} (hx : AllReal x) (hu : AllReal upd) :
    AllReal (Host.scatterAdd (F := Ideal) d x idx upd) := by
  intro i
  unfold Host.scatterAdd
  rw [Ideal.hostScatterAdd_def]
  unfold Ideal.hostScatterAdd
  exact real_add (hx i) (real_sum _ _ fun j _ => hu j)

/-! ### 4. Dot products: a finite sum of products -/

theorem AllReal.dotGeneral {sl sr so : Shape} (d : DotDims sl sr so) (prec : Option ContractPrecision)
    {l : FVec Ideal sl .f32} {r : FVec Ideal sr .f32} (hl : AllReal l) (hr : AllReal r) :
    AllReal (Host.dotGeneral (F := Ideal) d prec l r) := by
  intro j
  show ∃ q : ℝ, FloatOps.dotGeneral d prec .single l r j = (q : EReal)
  rw [Ideal.dotGeneral_apply]
  exact real_sum _ _ fun k _ => real_mul (hl _) (hr _)

/-- With any all-real accumulator. -/
theorem AllReal.matmul_acc {sl sr so : Shape} (d : DotDims sl sr so) (prec : Option ContractPrecision)
    {l : FVec Ideal sl .f32} {r : FVec Ideal sr .f32} {acc : FVec Ideal so .f32}
    (hl : AllReal l) (hr : AllReal r) (hacc : AllReal acc) :
    AllReal (FloatOps.matmul d prec l r acc) := by
  intro j
  rw [Ideal.matmul_apply]
  exact real_add (hacc j) (real_sum _ _ fun k _ => real_mul (hl _) (hr _))

theorem AllReal.matmul {sl sr so : Shape} (d : DotDims sl sr so) (prec : Option ContractPrecision)
    {l : FVec Ideal sl .f32} {r : FVec Ideal sr .f32} (hl : AllReal l) (hr : AllReal r) :
    AllReal (FloatOps.matmul d prec l r (constant so .f32 0x00000000#32)) := by
  intro j
  rw [Ideal.matmul_constant_zero_apply]
  exact real_sum _ _ fun k _ => real_mul (hl _) (hr _)

/-! ### 5. The constants 0 and 1 -/

/-- The pattern of the float 1.0 denotes the extended real 1. -/
theorem ofBits_one_f32 : Ideal.ofBits .f32 0x3F800000#32 = 1 := IdealRules.sign_bit.ideal_onePat .f32

theorem constant_zero_apply (S : Shape) (i : S.Idx) : constant (F := Ideal) S .f32 0x00000000#32 i = 0 :=
  Ideal.ofBits_zero_f32

theorem constant_one_apply (S : Shape) (i : S.Idx) : constant (F := Ideal) S .f32 0x3F800000#32 i = 1 :=
  ofBits_one_f32

theorem AllReal.constant_zero (S : Shape) : AllReal (constant (F := Ideal) S .f32 0x00000000#32) :=
  fun i => ⟨0, by rw [constant_zero_apply, EReal.coe_zero]⟩

theorem AllReal.constant_one (S : Shape) : AllReal (constant (F := Ideal) S .f32 0x3F800000#32) :=
  fun i => ⟨1, by rw [constant_one_apply, EReal.coe_one]⟩

/-! ### 6. The reciprocal degree 1 / max(y, 1) -/

/-- A quotient of reals with a nonzero denominator is a real. -/
theorem real_div {a b : EReal} (ha : ∃ r : ℝ, a = (r : EReal)) (hb : ∃ r : ℝ, b = (r : EReal)) (h0 : b ≠ 0) :
    ∃ r : ℝ, Ideal.div a b = (r : EReal) := by
  obtain ⟨x, rfl⟩ := ha; obtain ⟨y, rfl⟩ := hb
  have hy : y ≠ 0 := fun h => h0 (by rw [h, EReal.coe_zero])
  exact ⟨x * (1 / y), by rw [Ideal.div_coe hy, EReal.coe_mul]⟩

/-- Elementwise division by an all-real array with no zero entry. -/
theorem AllReal.hostDivf {s : Shape} {x y : FVec Ideal s .f32} (hx : AllReal x) (hy : AllReal y)
    (h0 : ∀ i, y i ≠ 0) : AllReal (Host.divf (F := Ideal) x y) :=
  fun i => real_div (hx i) (hy i) (h0 i)

/-- For a real r the maximum of r and 1 is the real max r 1, which is at least 1 and so not zero:
    the quotient 1 / max(r, 1) is the real 1 / max r 1. -/
theorem div_one_max_one (r : ℝ) : Ideal.div 1 (max (r : EReal) 1) = ((1 / max r 1 : ℝ) : EReal) := by
  have h1 : max (r : EReal) 1 = ((max r 1 : ℝ) : EReal) := by
    rw [← EReal.coe_one]; exact (EReal.coe_strictMono.monotone.map_max).symm
  have hne : max r 1 ≠ 0 := ne_of_gt (lt_of_lt_of_le one_pos (le_max_right r 1))
  rw [h1, Ideal.div_coe hne, one_mul]

/-- The value of the reciprocal degree at an index where y is the real r. -/
theorem recipDeg_apply {s0 s : Shape} (dims : Fin s0.rank → Fin s.rank) (hb : s0.BroadcastsInDim s dims)
    (y : FVec Ideal s .f32) (i : s.Idx) {r : ℝ} (hr : y i = (r : EReal)) :
    Host.divf (F := Ideal) (ShloMosaic.broadcastInDim s dims hb (constant s0 .f32 0x3F800000#32))
        (ShloMosaic.maximumf y (ShloMosaic.broadcastInDim s dims hb (constant s0 .f32 0x3F800000#32))) i
      = ((1 / max r 1 : ℝ) : EReal) := by
  show Ideal.div (Ideal.ofBits .f32 0x3F800000#32) (max (y i) (Ideal.ofBits .f32 0x3F800000#32)) = _
  rw [ofBits_one_f32, hr, div_one_max_one]

theorem AllReal.recipDeg {s0 s : Shape} (dims : Fin s0.rank → Fin s.rank) (hb : s0.BroadcastsInDim s dims)
    {y : FVec Ideal s .f32} (hy : AllReal y) :
    AllReal (Host.divf (F := Ideal) (ShloMosaic.broadcastInDim s dims hb (constant s0 .f32 0x3F800000#32))
      (ShloMosaic.maximumf y (ShloMosaic.broadcastInDim s dims hb (constant s0 .f32 0x3F800000#32)))) := by
  intro i
  obtain ⟨r, hr⟩ := hy i
  exact ⟨1 / max r 1, recipDeg_apply dims hb y i hr⟩

/-- The literal instance: the scalar 1 broadcast from the rank-zero shape. -/
example {s : Shape} (hb : (⟨0, ![]⟩ : Shape).BroadcastsInDim s ![]) {y : FVec Ideal s .f32} (hy : AllReal y) :
    AllReal (Host.divf (F := Ideal) (ShloMosaic.broadcastInDim s ![] hb (constant (⟨0, ![]⟩ : Shape) .f32 0x3F800000#32))
      (ShloMosaic.maximumf y (ShloMosaic.broadcastInDim s ![] hb (constant (⟨0, ![]⟩ : Shape) .f32 0x3F800000#32)))) := by
  apply AllReal.recipDeg; exact hy

/-! ### 7. The log-softmax identity on reals

For real entries a k, the row maximum M (a fold of max from ⊥ over a nonempty index set) is a
real, the sum S of the exponentials exp (a k - M) is a positive real, so log S is a real; and on
reals  x - (M + L) = (x - M) - L,  while max ⊥ M = M. -/

/-- The coercion of a finite sum of reals is the sum of the coercions. -/
theorem coe_sum_real {ι : Type*} (t : Finset ι) (g : ι → ℝ) :
    ∑ i ∈ t, ((g i : ℝ) : EReal) = ((∑ i ∈ t, g i : ℝ) : EReal) := by
  classical
  induction t using Finset.induction_on with
  | empty => rw [Finset.sum_empty, Finset.sum_empty, EReal.coe_zero]
  | insert a t ha ih => rw [Finset.sum_insert ha, Finset.sum_insert ha, ih, EReal.coe_add]

/-- The fold of max from ⊥ over a nonempty finite set of reals is a real: the first element
    absorbs ⊥, and each further step is a maximum of two reals. -/
theorem real_fold_max {ι : Type*} (t : Finset ι) (f : ι → EReal) (h : ∀ i ∈ t, ∃ r : ℝ, f i = (r : EReal))
    (ht : t.Nonempty) : ∃ r : ℝ, t.fold max (⊥ : EReal) f = (r : EReal) := by
  classical
  induction t using Finset.induction_on with
  | empty => exact absurd ht Finset.not_nonempty_empty
  | insert a s ha ih =>
    rw [Finset.fold_insert ha]
    rcases s.eq_empty_or_nonempty with rfl | hs
    · rw [Finset.fold_empty, max_bot_right]; exact h a (Finset.mem_insert_self a _)
    · exact real_max (h a (Finset.mem_insert_self a _)) (ih (fun i hi => h i (Finset.mem_insert_of_mem hi)) hs)

/-- The logarithm of a positive real is a real. -/
theorem log_coe_of_pos {σ : ℝ} (h : 0 < σ) : Ideal.log (σ : EReal) = ((Real.log σ : ℝ) : EReal) := by
  rw [Ideal.log_coe, if_neg (not_le.mpr h)]

/-- On reals, subtracting a sum is subtracting twice; and ⊥ is neutral for max. -/
theorem sub_add_eq_sub_max_bot_sub {x m l : EReal} (hx : ∃ r : ℝ, x = (r : EReal)) (hm : ∃ r : ℝ, m = (r : EReal))
    (hl : ∃ r : ℝ, l = (r : EReal)) : x - (m + l) = (x - max ⊥ m) - l := by
  obtain ⟨x, rfl⟩ := hx; obtain ⟨m, rfl⟩ := hm; obtain ⟨l, rfl⟩ := hl
  rw [max_bot_left, ← EReal.coe_add, ← EReal.coe_sub, ← EReal.coe_sub, ← EReal.coe_sub, sub_add_eq_sub_sub]

section LogSoftmax
variable {ι : Type*} [Fintype ι] [Nonempty ι]

/-- The row maximum is a real. -/
theorem real_rowMax {a : ι → EReal} (ha : AllReal a) :
    ∃ m : ℝ, Finset.univ.fold max (⊥ : EReal) a = (m : EReal) :=
  real_fold_max Finset.univ a (fun i _ => ha i) Finset.univ_nonempty

/-- The sum of the exponentials of the entries shifted by a real is a positive real. -/
theorem real_sumExp_pos {a : ι → EReal} (ha : AllReal a) {M : EReal} (hM : ∃ m : ℝ, M = (m : EReal)) :
    ∃ σ : ℝ, 0 < σ ∧ ∑ k, Ideal.exp (a k - M) = (σ : EReal) := by
  obtain ⟨m, rfl⟩ := hM
  choose r hr using ha
  refine ⟨∑ k, Real.exp (r k - m), Finset.sum_pos (fun k _ => Real.exp_pos _) Finset.univ_nonempty, ?_⟩
  rw [← coe_sum_real]
  exact Finset.sum_congr rfl fun k _ => by rw [hr k, ← EReal.coe_sub, Ideal.exp_coe]

/-- Its logarithm is a real. -/
theorem real_logSumExp {a : ι → EReal} (ha : AllReal a) {M : EReal} (hM : ∃ m : ℝ, M = (m : EReal)) :
    ∃ l : ℝ, Ideal.log (∑ k, Ideal.exp (a k - M)) = (l : EReal) := by
  obtain ⟨σ, hσ, hS⟩ := real_sumExp_pos ha hM
  exact ⟨Real.log σ, by rw [hS, log_coe_of_pos hσ]⟩

/-- The log-softmax identity, with the row maximum and the sum of exponentials spelled out. -/
theorem logSoftmax_eq {a : ι → EReal} (ha : AllReal a) (j : ι) :
    a j - (Finset.univ.fold max (⊥ : EReal) a
            + Ideal.log (∑ k, Ideal.exp (a k - Finset.univ.fold max (⊥ : EReal) a)))
      = (a j - max ⊥ (Finset.univ.fold max (⊥ : EReal) a))
          - Ideal.log (∑ k, Ideal.exp (a k - Finset.univ.fold max (⊥ : EReal) a)) :=
  sub_add_eq_sub_max_bot_sub (ha j) (real_rowMax ha) (real_logSumExp ha (real_rowMax ha))

end LogSoftmax

/-- The instance at rows of 47 entries. -/
example (a : Fin 47 → EReal) (ha : AllReal a) (j : Fin 47) :
    a j - (Finset.univ.fold max (⊥ : EReal) a
            + Ideal.log (∑ k, Ideal.exp (a k - Finset.univ.fold max (⊥ : EReal) a)))
      = (a j - max ⊥ (Finset.univ.fold max (⊥ : EReal) a))
          - Ideal.log (∑ k, Ideal.exp (a k - Finset.univ.fold max (⊥ : EReal) a)) :=
  logSoftmax_eq ha j

/-! ### The lemmas fire by apply on the forms a program states -/

example {s si u : Shape} {w : Nat} (d : ScatterDims s si u) (x : FVec Ideal s .f32) (idx : IVec si w)
    (upd : FVec Ideal u .f32) (hx : AllReal x) (hu : AllReal upd) : AllReal (Host.scatterAdd d x idx upd) := by
  apply AllReal.scatterAdd <;> assumption

example {sl sr so : Shape} (d : DotDims sl sr so) (l : FVec Ideal sl .f32) (r : FVec Ideal sr .f32)
    (hl : AllReal l) (hr : AllReal r) : AllReal (Host.dotGeneral d none l r) := by
  apply AllReal.dotGeneral <;> assumption

example {sl sr so : Shape} (d : DotDims sl sr so) (l : FVec Ideal sl .f32) (r : FVec Ideal sr .f32)
    (hl : AllReal l) (hr : AllReal r) : AllReal (ShloMosaic.matmul d none l r (constant so .f32 0x00000000#32)) := by
  apply AllReal.matmul <;> assumption

example {s : Shape} (hb : (⟨0, ![]⟩ : Shape).BroadcastsInDim s ![]) :
    AllReal (ShloMosaic.broadcastInDim s ![] hb (constant (F := Ideal) (⟨0, ![]⟩ : Shape) .f32 0x00000000#32)) := by
  apply AllReal.broadcastInDim; apply AllReal.constant_zero

example {s si t : Shape} {w : Nat} (d : GatherDims s si t) (x y : FVec Ideal s .f32) (idx : IVec si w)
    (hx : AllReal x) (hy : AllReal y) : AllReal (Host.gather d (ShloMosaic.mulf (ShloMosaic.addf x y) (ShloMosaic.maximumf x y)) idx) := by
  apply AllReal.gather; apply AllReal.mulf
  · exact AllReal.addf hx hy
  · exact AllReal.maximumf hx hy

end Cert.Proof.RealOps
-- ==== Proof.BatchNorm.lean ====
/-
  Batch normalisation of one column, in two arrangements, over the extended reals.

  For a column `h` of `n` REAL entries with sum `S`, sum of squares `Q`, mean `μ = S / n`:
    the variance as `Q / n - μ²` and as `(Σ (h i - μ)²) / n` is one real (`var_real`), and so, with `v` that
    variance plus a positive `ε`,
      `h p · (γ · rsqrt v) + (β - μ · (γ · rsqrt v))  =  (h p - μ) / √v · γ + β`.
  Both identities distribute a product over a difference and cancel, so they need every entry finite: on the extended
  reals `⊤ - ⊤` is `⊥` and the two arrangements part. The statement `bn_eq` is over the exact shapes of the two
  programs' arithmetic (a quotient by `n` as `Ideal.div`, a host sum as `0 + Σ`).
-/
import Idealize.ShloMosaic.PureOps.Ideal
import Idealize.ShloMosaic.PureOps.Ideal.Laws
import proofs.«177512_j55714315763894_1_alg».proof.Proof.LibRealOps

noncomputable section

namespace Cert.BN

open Idealize Idealize.ShloMosaic Cert.Proof.RealOps

/-- The quotient of two reals, the divisor not zero. -/
theorem div_real (x : ℝ) {y : ℝ} (hy : y ≠ 0) : Ideal.div (x : EReal) (y : EReal) = ((x / y : ℝ) : EReal) := by
  rw [Ideal.div_coe hy, ← EReal.coe_mul, mul_one_div]

/-- The reciprocal root of a positive real. -/
theorem rsqrt_real {v : ℝ} (hv : 0 < v) : Ideal.rsqrt (v : EReal) = (((Real.sqrt v)⁻¹ : ℝ) : EReal) := by
  rw [Ideal.rsqrt_coe, if_neg (not_lt.mpr hv.le), if_neg hv.ne']

/-- The root of a non-negative real. -/
theorem sqrt_real {v : ℝ} (hv : 0 ≤ v) : Ideal.sqrt (v : EReal) = ((Real.sqrt v : ℝ) : EReal) := by
  rw [Ideal.sqrt_coe, if_neg (not_lt.mpr hv)]

/-- The mean of the squared deviations is the mean of the squares less the squared mean. -/
theorem var_real {n : ℕ} (hn : 0 < n) (r : Fin n → ℝ) :
    (∑ i, (r i - (∑ j, r j) / n) * (r i - (∑ j, r j) / n)) / n
      = (∑ i, r i * r i) / n - ((∑ j, r j) / n) * ((∑ j, r j) / n) := by
  have hn' : (n : ℝ) ≠ 0 := by exact_mod_cast hn.ne'
  generalize hμ : (∑ j, r j) / (n : ℝ) = μ
  have hS : ∑ j, r j = μ * n := by rw [← hμ]; field_simp
  have e : ∑ i, (r i - μ) * (r i - μ) = ∑ i, r i * r i - 2 * μ * ∑ i, r i + n * (μ * μ) := by
    have h1 : ∀ i, (r i - μ) * (r i - μ) = r i * r i - 2 * μ * r i + μ * μ := fun i => by ring
    simp only [h1, Finset.sum_add_distrib, Finset.sum_sub_distrib, ← Finset.mul_sum, Finset.sum_const,
      Finset.card_univ, Fintype.card_fin, nsmul_eq_mul]
    ring
  rw [e, hS]
  field_simp
  ring

/-- The variance is not negative. -/
theorem var_nonneg {n : ℕ} (r : Fin n → ℝ) (μ : ℝ) : 0 ≤ (∑ i, (r i - μ) * (r i - μ)) / n :=
  div_nonneg (Finset.sum_nonneg fun i _ => mul_self_nonneg _) (Nat.cast_nonneg n)

/-- THE LAW. One entry of the normalised, rectified column in the two arrangements: scale and shift folded from the
    sum and the sum of squares, against centre, divide by the root, scale, shift. -/
theorem bn_eq {n : ℕ} (hn : 0 < n) (r : Fin n → ℝ) (γ β e : ℝ) (he : 0 < e) (p : Fin n) :
    max ((r p : EReal)
          * ((γ : EReal) * Ideal.rsqrt ((Ideal.div (∑ i, (r i : EReal) * (r i : EReal)) ((n : ℝ) : EReal)
              - Ideal.div (∑ i, (r i : EReal)) ((n : ℝ) : EReal) * Ideal.div (∑ i, (r i : EReal)) ((n : ℝ) : EReal))
              + (e : EReal)))
        + ((β : EReal) - Ideal.div (∑ i, (r i : EReal)) ((n : ℝ) : EReal)
            * ((γ : EReal) * Ideal.rsqrt ((Ideal.div (∑ i, (r i : EReal) * (r i : EReal)) ((n : ℝ) : EReal)
              - Ideal.div (∑ i, (r i : EReal)) ((n : ℝ) : EReal) * Ideal.div (∑ i, (r i : EReal)) ((n : ℝ) : EReal))
              + (e : EReal))))) 0
      = max (Ideal.div ((r p : EReal) - Ideal.div (0 + ∑ i, (r i : EReal)) ((n : ℝ) : EReal))
              (Ideal.sqrt (Ideal.div (0 + ∑ i, ((r i : EReal) - Ideal.div (0 + ∑ j, (r j : EReal)) ((n : ℝ) : EReal))
                    * ((r i : EReal) - Ideal.div (0 + ∑ j, (r j : EReal)) ((n : ℝ) : EReal))) ((n : ℝ) : EReal)
                  + (e : EReal)))
            * (γ : EReal) + (β : EReal)) 0 := by
  have hn' : (n : ℝ) ≠ 0 := by exact_mod_cast hn.ne'
  have hS : ∑ i, (r i : EReal) = ((∑ i, r i : ℝ) : EReal) := coe_sum_real _ _
  have hQ : ∑ i, (r i : EReal) * (r i : EReal) = ((∑ i, r i * r i : ℝ) : EReal) := by
    rw [← coe_sum_real]; exact Finset.sum_congr rfl fun i _ => (EReal.coe_mul _ _).symm
  generalize hμ : (∑ j, r j) / (n : ℝ) = μ
  have hmean : Ideal.div (∑ i, (r i : EReal)) ((n : ℝ) : EReal) = (μ : EReal) := by rw [hS, div_real _ hn', hμ]
  have hD : ∑ i, ((r i : EReal) - (μ : EReal)) * ((r i : EReal) - (μ : EReal))
      = ((∑ i, (r i - μ) * (r i - μ) : ℝ) : EReal) := by
    rw [← coe_sum_real]
    exact Finset.sum_congr rfl fun i _ => by rw [← EReal.coe_sub, ← EReal.coe_mul]
  have hvar : (∑ i, (r i - μ) * (r i - μ)) / n = (∑ i, r i * r i) / n - μ * μ := by
    have := var_real hn r; rw [hμ] at this; exact this
  have hv : 0 < (∑ i, (r i - μ) * (r i - μ)) / n + e := add_pos_of_nonneg_of_pos (var_nonneg r μ) he
  have hsq : Real.sqrt ((∑ i, (r i - μ) * (r i - μ)) / n + e) ≠ 0 := (Real.sqrt_pos.mpr hv).ne'
  -- the left side, as one real
  have hL : (Ideal.div (∑ i, (r i : EReal) * (r i : EReal)) ((n : ℝ) : EReal)
      - Ideal.div (∑ i, (r i : EReal)) ((n : ℝ) : EReal) * Ideal.div (∑ i, (r i : EReal)) ((n : ℝ) : EReal))
      + (e : EReal) = (((∑ i, (r i - μ) * (r i - μ)) / n + e : ℝ) : EReal) := by
    rw [hmean, hQ, div_real _ hn', ← EReal.coe_mul, ← EReal.coe_sub, ← EReal.coe_add, hvar]
  -- the right side's variance, as the same real
  have hR : Ideal.div (0 + ∑ i, ((r i : EReal) - Ideal.div (0 + ∑ j, (r j : EReal)) ((n : ℝ) : EReal))
        * ((r i : EReal) - Ideal.div (0 + ∑ j, (r j : EReal)) ((n : ℝ) : EReal))) ((n : ℝ) : EReal) + (e : EReal)
      = (((∑ i, (r i - μ) * (r i - μ)) / n + e : ℝ) : EReal) := by
    rw [zero_add, zero_add, hmean, hD, div_real _ hn', ← EReal.coe_add]
  rw [hL, hR, zero_add, hmean, rsqrt_real hv, sqrt_real hv.le, ← EReal.coe_sub, div_real _ hsq]
  simp only [← EReal.coe_mul, ← EReal.coe_sub, ← EReal.coe_add]
  congr 2
  field_simp
  ring

end Cert.BN

end
-- ==== Proof.LibNormalize.lean ====
import Idealize.ShloMosaic.PureOps.Ideal
import Idealize.ShloMosaic.PureOps.Ideal.Laws

/-!
# Normalising by a root over the extended reals

General facts about the ideal float operations, for comparing a normalisation written
`x * rsqrt (v + ε)` with one written `x / sqrt (v + ε)`:

* `x / √s = x · (1/√s)` for every extended real `x` as soon as `0 < s` (at `s = +∞` both sides are `x · 0`);
  no finiteness of `x` is needed;
* a square is non-negative, so a mean of squares plus a positive `ε` is positive — again for all
  extended reals, infinite ones included;
* the float constants 128, 100000 and 10⁻⁵ (as rounded to binary32) denote positive reals.
-/

noncomputable section

namespace Cert.Norm

open Idealize.ShloMosaic

/-- Dividing by the root of a positive `s` is multiplying by its reciprocal root. -/
theorem div_sqrt_eq_mul_rsqrt (a s : EReal) (hs : 0 < s) : Ideal.div a (Ideal.sqrt s) = a * Ideal.rsqrt s := by
  induction s using EReal.rec with
  | bot => exact absurd hs (not_lt.mpr bot_le)
  | top => rw [Ideal.sqrt_top, Ideal.rsqrt_top, Ideal.div, if_neg EReal.top_ne_zero, EReal.inv_top]
  | coe r =>
    have hr : 0 < r := by exact_mod_cast hs
    have hsq : 0 < Real.sqrt r := Real.sqrt_pos.mpr hr
    rw [Ideal.sqrt_coe, Ideal.rsqrt_coe, if_neg (not_lt.mpr hr.le), if_neg (not_lt.mpr hr.le), if_neg hr.ne',
      Ideal.div, if_neg (by exact_mod_cast hsq.ne'), EReal.coe_inv]

/-- A square of an extended real is non-negative (`(±∞)² = +∞`). -/
theorem mul_self_nonneg (x : EReal) : 0 ≤ x * x := by
  induction x using EReal.rec with
  | bot => simp
  | top => simp
  | coe r => exact_mod_cast _root_.mul_self_nonneg r

/-- A sum of squares divided by a positive real, plus a positive real, is positive. -/
theorem meanSq_add_pos {n : ℕ} (d : Fin n → EReal) {c e : ℝ} (hc : 0 < c) (he : 0 < e) :
    0 < Ideal.div (∑ k, d k * d k) (c : EReal) + (e : EReal) := by
  rw [Ideal.div_coe hc.ne']
  have h1 : 0 ≤ ∑ k, d k * d k := Finset.sum_nonneg fun k _ => mul_self_nonneg (d k)
  have h2 : 0 ≤ (∑ k, d k * d k) * ((1 / c : ℝ) : EReal) :=
    mul_nonneg h1 (by exact_mod_cast (one_div_pos.mpr hc).le)
  exact lt_of_lt_of_le (by exact_mod_cast he) (le_add_of_nonneg_left h2)

/-- The binary32 pattern of 128.0 denotes the real 128. -/
theorem ofBits_128 : Ideal.ofBits .f32 0x43000000#32 = ((128 : ℝ) : EReal) := by
  simp [Ideal.ofBits, Ideal.ieee, -EReal.coe_mul]; norm_num

/-- The binary32 pattern of 100000.0 denotes the real 100000. -/
theorem ofBits_100000 : Ideal.ofBits .f32 0x47C35000#32 = ((100000 : ℝ) : EReal) := by
  simp [Ideal.ofBits, Ideal.ieee, -EReal.coe_mul]; norm_num

/-- The binary32 pattern nearest 10⁻⁵ denotes the positive real 10995116 / 2⁴⁰. -/
theorem ofBits_eps : Ideal.ofBits .f32 0x3727C5AC#32 = (((10995116 : ℝ) / 1099511627776 : ℝ) : EReal) := by
  simp [Ideal.ofBits, Ideal.ieee, -EReal.coe_mul]; norm_num

/-- So the variance-plus-ε under a row normalisation over 128 lanes is positive, -/
theorem var128_pos {n : ℕ} (d : Fin n → EReal) :
    0 < Ideal.div (∑ k, d k * d k) (Ideal.ofBits .f32 0x43000000#32) + Ideal.ofBits .f32 0x3727C5AC#32 := by
  rw [ofBits_128, ofBits_eps]; exact meanSq_add_pos d (by norm_num) (by norm_num)

/-- and the one under a normalisation over 100000 nodes. -/
theorem var100000_pos {n : ℕ} (d : Fin n → EReal) :
    0 < Ideal.div (∑ k, d k * d k) (Ideal.ofBits .f32 0x47C35000#32) + Ideal.ofBits .f32 0x3727C5AC#32 := by
  rw [ofBits_100000, ofBits_eps]; exact meanSq_add_pos d (by norm_num) (by norm_num)

end Cert.Norm

end
-- ==== Proof.Rescale.lean ====
/-
  The kernel's normalise-and-rectify step against the reference's, entry by entry.

  With `H` the first layer's output (REAL entries), `S`, `Q` its column sums and column sums of squares:
  the kernel computes `max (H (p,q) · scale q + shift q) 0` with `scale`, `shift` folded from `S`, `Q`, `γ`, `β`
  (`Spec.scale`, `Spec.shift`); the reference centres, divides by the root of the variance plus ε, scales and
  shifts (`centred` below). The two are `BN.bn_eq` on column `q`; the node count `100000` and `ε` enter as the exact
  values of their binary32 patterns.
-/
import proofs.«177512_j55714315763894_1_alg».proof.Proof.Spec
import proofs.«177512_j55714315763894_1_alg».proof.Proof.BatchNorm
import proofs.«177512_j55714315763894_1_alg».proof.Proof.LibRealOps
import proofs.«177512_j55714315763894_1_alg».proof.Proof.LibNormalize
import Idealize.ShloMosaic.Lib.ValueIdx
import Idealize.ShloMosaic.Lib.ValueLayout

noncomputable section

namespace Cert.Rescale

open Idealize Idealize.ShloMosaic Idealize.ShloMosaic.ValueIdx Cert.KernelIdeal Cert.Spec Cert.Proof.RealOps

variable [Cert.KernelIdeal.Facts₀]
open Cert.KernelIdeal.Facts₀

/-- The node count and ε as their binary32 patterns denote them. -/
abbrev cN : EReal := Ideal.ofBits .f32 0x47C35000#32
abbrev cE : EReal := Ideal.ofBits .f32 0x3727C5AC#32

/-- `scale` at column `q`. -/
theorem scale_apply (S Q : FA S1x64) (g : FA S64) (q : Fin 64) :
    scale S Q g (ix2 (0 : Fin 1) q)
      = g (ix1 q) * Ideal.rsqrt ((Ideal.div (Q (ix2 (0 : Fin 1) q)) cN
          - Ideal.div (S (ix2 (0 : Fin 1) q)) cN * Ideal.div (S (ix2 (0 : Fin 1) q)) cN) + cE) := by
  unfold scale
  show shapeCast S1x64 g shapeCasts_S64_S1x64 (ix2 (0 : Fin 1) q) * _ = _
  rw [shapeCast_a_1a_apply]
  rfl

/-- `shift` at column `q`. -/
theorem shift_apply (S Q : FA S1x64) (g b : FA S64) (q : Fin 64) :
    shift S Q g b (ix2 (0 : Fin 1) q)
      = b (ix1 q) - Ideal.div (S (ix2 (0 : Fin 1) q)) cN * scale S Q g (ix2 (0 : Fin 1) q) := by
  unfold shift
  show shapeCast S1x64 b shapeCasts_S64_S1x64 (ix2 (0 : Fin 1) q) - _ = _
  rw [shapeCast_a_1a_apply]
  rfl

/-- The reference's arrangement of one entry: centre on the column mean, divide by the root of the mean squared
    deviation plus ε, scale, shift, rectify (a host sum reads `0 + Σ`). -/
def centred (H : FA S100000x64) (g b : FA S64) (p : Fin 100000) (q : Fin 64) : EReal :=
  max (Ideal.div (H (ix2 p q) - Ideal.div (0 + ∑ i : Fin 100000, H (ix2 i q)) cN)
        (Ideal.sqrt (Ideal.div (0 + ∑ i : Fin 100000,
            (H (ix2 i q) - Ideal.div (0 + ∑ j : Fin 100000, H (ix2 j q)) cN)
              * (H (ix2 i q) - Ideal.div (0 + ∑ j : Fin 100000, H (ix2 j q)) cN)) cN + cE))
      * g (ix1 q) + b (ix1 q)) 0

/-- THE JOIN: on a real first-layer output, with real `γ`, `β`, the kernel's entry is the reference's. -/
theorem rescale_eq_centred (H : FA S100000x64) (S Q : FA S1x64) (g b : FA S64)
    (hS : ∀ q : Fin 64, S (ix2 (0 : Fin 1) q) = ∑ p : Fin 100000, H (ix2 p q))
    (hQ : ∀ q : Fin 64, Q (ix2 (0 : Fin 1) q) = ∑ p : Fin 100000, H (ix2 p q) * H (ix2 p q))
    (hH : AllReal H) (hg : AllReal g) (hb : AllReal b) (p : Fin 100000) (q : Fin 64) :
    max (H (ix2 p q) * scale S Q g (ix2 (0 : Fin 1) q) + shift S Q g b (ix2 (0 : Fin 1) q)) 0
      = centred H g b p q := by
  choose r hr using hH
  obtain ⟨γ, hγ⟩ := hg (ix1 q)
  obtain ⟨β, hβ⟩ := hb (ix1 q)
  have hN : cN = (((100000 : ℕ) : ℝ) : EReal) := by
    show Ideal.ofBits .f32 0x47C35000#32 = _
    rw [Cert.Norm.ofBits_100000]; norm_num
  have hE : cE = (((10995116 : ℝ) / 1099511627776 : ℝ) : EReal) := Cert.Norm.ofBits_eps
  have key := Cert.BN.bn_eq (n := 100000) (by norm_num) (fun i => r (ix2 i q)) γ β
    ((10995116 : ℝ) / 1099511627776) (by norm_num) p
  unfold centred
  rw [shift_apply, scale_apply, hS q, hQ q, hγ, hβ, hN, hE]
  simp only [hr]
  exact key

end Cert.Rescale

end
-- ==== Proof.LibScatterGather.lean ====
/-
  Row gathers and row scatters of StableHLO, read at an index, and the one law of the extended reals
  that lets a non-negative finite factor cross an accumulating scatter.

  * a gather of whole rows (`x[idx]` on the leading axis of a matrix, or of a vector): result row e is
    operand row `idx e`, read signed and clamped into the operand;
  * an accumulating scatter of whole rows: update row e lands on operand row `idx e` (read signed, not
    clamped) when that is a row of the operand, and nowhere otherwise;
  * on the extended reals multiplication by c distributes over a finite sum when 0 ≤ c < ⊤, so scaling
    every update that lands on an element by that element's factor scales the accumulated sum.
-/
import Idealize.ShloMosaic.PureOps.Ideal
import Idealize.ShloMosaic.PureOps.Ideal.Laws
import Idealize.ShloMosaic.Lib.ValueIdx

noncomputable section

namespace Cert.ScatterGather

open Idealize.ShloMosaic Idealize.ShloMosaic.ValueIdx

/-! ## Sums on the extended reals -/

/-- A factor `0 ≤ c < ⊤` distributes over a finite sum of extended reals. -/
theorem sum_mul_of_nonneg_ne_top {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih => rw [Finset.sum_insert ha, Finset.sum_insert ha, EReal.right_distrib_of_nonneg_of_ne_top h0 ht, ih]

/-- An accumulating scatter into zeros whose every landing update carries the factor of the element it
    lands on: the factor comes out of the accumulated sum. Only an element some update lands on needs
    its factor non-negative and finite: where nothing lands both sides are zero. -/
theorem hostScatterAdd_zero_mul {s si su : Shape} (d : ScatterDims s si su) {w : Nat} (idx : IVec si w)
    (u u' : su.Idx → EReal) (c : s.Idx → EReal)
    (hc : ∀ j i, d.resultIdx? j idx = some i → 0 ≤ c i ∧ c i ≠ ⊤)
    (h : ∀ j i, d.resultIdx? j idx = some i → u j = u' j * c i) (i : s.Idx) :
    Ideal.hostScatterAdd d (fun _ => 0) idx u i = Ideal.hostScatterAdd d (fun _ => 0) idx u' i * c i := by
  unfold Ideal.hostScatterAdd
  simp only [zero_add]
  by_cases hne : (Finset.univ.filter (fun j => d.resultIdx? j idx = some i)).Nonempty
  · obtain ⟨j0, hj0⟩ := hne
    have hci := hc j0 i (Finset.mem_filter.mp hj0).2
    rw [sum_mul_of_nonneg_ne_top _ _ hci.1 hci.2]
    exact Finset.sum_congr rfl (fun j hj => h j i (Finset.mem_filter.mp hj).2)
  · rw [Finset.not_nonempty_iff_eq_empty.mp hne]; simp

/-- The inverse square root of a positive count is a non-negative real. -/
theorem rsqrt_count {ι : Type} (s : Finset ι) (hs : s.Nonempty) :
    0 ≤ Ideal.rsqrt (0 + ∑ _j ∈ s, (1 : EReal)) ∧ Ideal.rsqrt (0 + ∑ _j ∈ s, (1 : EReal)) ≠ ⊤ := by
  have hcard : 0 < s.card := Finset.card_pos.mpr hs
  have hsum : (0 + ∑ _j ∈ s, (1 : EReal)) = ((s.card : ℝ) : EReal) := by
    rw [zero_add, Finset.sum_const, EReal.nsmul_eq_mul, mul_one]; rfl
  have hpos : (0 : ℝ) < (s.card : ℝ) := by exact_mod_cast hcard
  rw [hsum, Ideal.rsqrt_coe, if_neg (not_lt.mpr hpos.le), if_neg hpos.ne']
  exact ⟨by exact_mod_cast inv_nonneg.mpr (Real.sqrt_nonneg _), EReal.coe_ne_top _⟩

/-! ## A gather of rows -/

section Gather
variable {α : Type} {N M C w : Nat}

/-- `x[idx]` on the leading axis of `x : [N, C]` at `idx : [M]` carried as `[M, 1]`. -/
abbrev rowsDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row a gather reads for result row `e`: the start index read signed, clamped into `[0, N - 1]`. -/
def clampRow (N : Nat) (hN : 0 < N) {M w : Nat} (idx : IVec ⟨2, ![M, 1]⟩ w) (e : Fin M) : Fin N :=
  ⟨min (idx (ix2 e (0 : Fin 1))).toInt.toNat (N - 1), by omega⟩

/-- THE ROW GATHER READ AT `(e, j)`: the operand at row `clampRow … e`, column `j`. -/
theorem gather_rows_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowsDims N M C wf) x idx y = x (ix2 (clampRow N hN idx (y 0)) (y 1)) := by
  unfold Host.gather
  congr 1
  funext a
  refine Fin.ext ?_
  match a with
  | ⟨0, _⟩ =>
    show (rowsDims N M C wf).start y idx 0 + (rowsDims N M C wf).batchCoord y 0 + (rowsDims N M C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N M C wf).startIndexMap from List.mem_singleton.mpr rfl)]
    have hsi : (rowsDims N M C wf).siIdx y ⟨List.idxOf (0 : Fin 2) (rowsDims N M C wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowsDims N M C wf).start y idx 1 + (rowsDims N M C wf).batchCoord y 1 + (rowsDims N M C wf).offCoord y 1 = (y 1).val
    rw [GatherDims.batchCoord_eq_zero _ _ _ List.not_mem_nil]
    unfold GatherDims.start
    rw [dif_neg (show (1 : Fin 2) ∉ ([0] : List (Fin 2)) by decide)]
    simp only [Nat.zero_add, Nat.add_zero]
    unfold GatherDims.offCoord
    rw [dif_pos ((GatherDims.mem_sKept _ _).mpr ⟨(show (1 : Fin 2) ∉ ([0] : List (Fin 2)) by decide), List.not_mem_nil⟩)]
    rfl

/-- `x[idx]` of a vector `x : [N]` at `idx : [M]` carried as `[M, 1]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `clampRow … e`. -/
theorem gather_flat_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatDims N M wf) x idx y = x (ix1 (clampRow N hN idx (y 0))) := by
  unfold Host.gather
  congr 1
  funext a
  obtain rfl : a = 0 := Subsingleton.elim _ _
  refine Fin.ext ?_
  show (flatDims N M wf).start y idx 0 + (flatDims N M wf).batchCoord y 0 + (flatDims N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx y ⟨List.idxOf (0 : Fin 1) (flatDims N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

end Gather

/-! ## An accumulating scatter of rows -/

section Scatter
variable {N M C w : Nat}

/-- `x.at[idx].add(u)` on the leading axis of `x : [N, C]`, `idx : [M]` carried as `[M, 1]`, `u : [M, C]`. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem rowsScatter_start0 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 0 = (idx (ix2 (j 0) (0 : Fin 1))).toInt := by
  unfold ScatterDims.start
  rw [dif_pos (show (0 : Fin 2) ∈ (rowsScatter N M C wf).scatterDimsToOperandDims from List.mem_singleton.mpr rfl)]
  have hsi : (rowsScatter N M C wf).siIdx j ⟨List.idxOf (0 : Fin 2) (rowsScatter N M C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowsScatter_start1 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 1 = 0 := by
  unfold ScatterDims.start
  rw [dif_neg (show (1 : Fin 2) ∉ ([0] : List (Fin 2)) by decide)]

theorem rowsScatter_window0 (wf : ScatterDims.WF ⟨2, ![N, C]⟩ ⟨2, ![M, 1]⟩ ⟨2, ![M, C]⟩ [1] [0] [0] 1)
    (j : (⟨2, ![M, C]⟩ : Shape).Idx) : (rowsScatter N M C wf).window j 0 = 0 := by
  unfold ScatterDims.window
  have h : (0 : Fin 2) ∉ (rowsScatter N M C wf).sKept := by
    show (0 : Fin 2) ∉ ([1] : List (Fin 2)); decide
  rw [dif_neg h]

theorem rowsScatter_window1 (wf : ScatterDims.WF ⟨2, ![N, C]⟩ ⟨2, ![M, 1]⟩ ⟨2, ![M, C]⟩ [1] [0] [0] 1)
    (j : (⟨2, ![M, C]⟩ : Shape).Idx) : (rowsScatter N M C wf).window j 1 = (j 1).val := by
  unfold ScatterDims.window
  have h : (1 : Fin 2) ∈ (rowsScatter N M C wf).sKept := by
    show (1 : Fin 2) ∈ ([1] : List (Fin 2)); decide
  rw [dif_pos h]
  rfl

/-- WHERE A ROW UPDATE LANDS: element `(e, k)` of the updates lands on `(n, k')` exactly when the index of
    row `e`, read signed, is `n` and `k = k'`. -/
theorem rowsScatter_resultIdx?_eq_some_iff (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) (i : (⟨2, ![N, C]⟩ : Shape).Idx) :
    (rowsScatter N M C wf).resultIdx? j idx = some i ↔
      (idx (ix2 (j 0) (0 : Fin 1))).toInt = ((i 0).val : Int) ∧ (j 1).val = (i 1).val := by
  have hi0 : (i 0).val < N := (i 0).isLt
  have hj1 : (j 1).val < C := (j 1).isLt
  unfold ScatterDims.resultIdx?
  split
  · rename_i h
    rw [Option.some.injEq]
    constructor
    · intro e
      have e0 := congrArg (fun f => (f 0).val) e
      have e1 := congrArg (fun f => (f 1).val) e
      simp only [rowsScatter_start0, rowsScatter_start1, rowsScatter_window0, rowsScatter_window1] at e0 e1
      have h0 := h 0
      simp only [rowsScatter_start0, rowsScatter_window0] at h0
      constructor
      · omega
      · omega
    · rintro ⟨e0, e1⟩
      funext a
      refine Fin.ext ?_
      match a with
      | ⟨0, _⟩ =>
        show ((rowsScatter N M C wf).start j idx 0 + ((rowsScatter N M C wf).window j 0 : Int)).toNat = (i 0).val
        rw [rowsScatter_start0, rowsScatter_window0, e0]; omega
      | ⟨1, _⟩ =>
        show ((rowsScatter N M C wf).start j idx 1 + ((rowsScatter N M C wf).window j 1 : Int)).toNat = (i 1).val
        rw [rowsScatter_start1, rowsScatter_window1]; omega
  · rename_i h
    constructor
    · intro e; exact absurd e (by simp)
    · rintro ⟨e0, e1⟩
      exfalso; apply h
      intro a
      match a with
      | ⟨0, _⟩ =>
        show 0 ≤ (rowsScatter N M C wf).start j idx 0 + ((rowsScatter N M C wf).window j 0 : Int) ∧
          (rowsScatter N M C wf).start j idx 0 + ((rowsScatter N M C wf).window j 0 : Int) < ((⟨2, ![N, C]⟩ : Shape).size 0 : Int)
        rw [rowsScatter_start0, rowsScatter_window0, e0]
        refine ⟨by omega, ?_⟩
        show ((i 0).val : Int) + ((0 : Nat) : Int) < (N : Int)
        omega
      | ⟨1, _⟩ =>
        show 0 ≤ (rowsScatter N M C wf).start j idx 1 + ((rowsScatter N M C wf).window j 1 : Int) ∧
          (rowsScatter N M C wf).start j idx 1 + ((rowsScatter N M C wf).window j 1 : Int) < ((⟨2, ![N, C]⟩ : Shape).size 1 : Int)
        rw [rowsScatter_start1, rowsScatter_window1]
        refine ⟨by omega, ?_⟩
        show (0 : Int) + ((j 1).val : Int) < (C : Int)
        omega

/-- `x.at[idx].add(u)` of a vector `x : [N]`, `idx : [M]` carried as `[M, 1]`, `u : [M]`. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem flatScatter_start0 (wf : ScatterDims.WF ⟨1, ![N]⟩ ⟨2, ![M, 1]⟩ ⟨1, ![M]⟩ [] [0] [0] 1)
    (j : (⟨1, ![M]⟩ : Shape).Idx) (idx : IVec ⟨2, ![M, 1]⟩ w) :
    (flatScatter N M wf).start j idx 0 = (idx (ix2 (j 0) (0 : Fin 1))).toInt := by
  unfold ScatterDims.start
  rw [dif_pos (show (0 : Fin 1) ∈ (flatScatter N M wf).scatterDimsToOperandDims from List.mem_singleton.mpr rfl)]
  have hsi : (flatScatter N M wf).siIdx j ⟨List.idxOf (0 : Fin 1) (flatScatter N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 (wf : ScatterDims.WF ⟨1, ![N]⟩ ⟨2, ![M, 1]⟩ ⟨1, ![M]⟩ [] [0] [0] 1)
    (j : (⟨1, ![M]⟩ : Shape).Idx) : (flatScatter N M wf).window j 0 = 0 := by
  unfold ScatterDims.window
  have h : (0 : Fin 1) ∉ (flatScatter N M wf).sKept := by
    show (0 : Fin 1) ∉ ([] : List (Fin 1)); exact List.not_mem_nil
  rw [dif_neg h]

/-- WHERE A VECTOR UPDATE LANDS: element `e` lands on `n` exactly when its index, read signed, is `n`. -/
theorem flatScatter_resultIdx?_eq_some_iff (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (flatScatter N M wf).resultIdx? j idx = some i ↔ (idx (ix2 (j 0) (0 : Fin 1))).toInt = ((i 0).val : Int) := by
  have hi0 : (i 0).val < N := (i 0).isLt
  unfold ScatterDims.resultIdx?
  split
  · rename_i h
    rw [Option.some.injEq]
    constructor
    · intro e
      have e0 := congrArg (fun f => (f 0).val) e
      simp only [flatScatter_start0, flatScatter_window0] at e0
      have h0 := h 0
      simp only [flatScatter_start0, flatScatter_window0] at h0
      omega
    · intro e0
      funext a
      obtain rfl : a = 0 := Subsingleton.elim _ _
      refine Fin.ext ?_
      show ((flatScatter N M wf).start j idx 0 + ((flatScatter N M wf).window j 0 : Int)).toNat = (i 0).val
      rw [flatScatter_start0, flatScatter_window0, e0]; omega
  · rename_i h
    constructor
    · intro e; exact absurd e (by simp)
    · intro e0
      exfalso; apply h
      intro a
      obtain rfl : a = 0 := Subsingleton.elim _ _
      show 0 ≤ (flatScatter N M wf).start j idx 0 + ((flatScatter N M wf).window j 0 : Int) ∧
        (flatScatter N M wf).start j idx 0 + ((flatScatter N M wf).window j 0 : Int) < ((⟨1, ![N]⟩ : Shape).size 0 : Int)
      rw [flatScatter_start0, flatScatter_window0, e0]
      refine ⟨by omega, ?_⟩
      show ((i 0).val : Int) + ((0 : Nat) : Int) < (N : Int)
      omega

end Scatter

end Cert.ScatterGather

end
-- ==== Proof.LibGraphMean.lean ====
/-
  The mean of gathered rows commutes with a linear map, on the extended reals.

  A graph layer gathers rows of a node array `X` along the edges' sources, adds the gathered rows into the rows
  their edges point to, and divides each row by a per-row divisor. Row `r` of the result is
  `(Σ_{e lands on r} X[src e, ·]) / d r`. When `X` and a weight matrix `B` hold real numbers and `d r` is a
  non-zero real, projecting afterwards,  `Σ_k ((Σ_e X[src e, k]) / d r) · B[q, k]`,  is the same number as
  projecting first,  `(Σ_e Σ_k X[src e, k] · B[q, k]) / d r`:  both are finite sums of products of reals, and the
  law is the exchange of two finite sums with the factor `1 / d r` and `B[q, k]` moved across them.
  The divisor of the layer is the in-degree clamped below by one, `max (#{e lands on r}) 1`: a real, at least one.
-/
import Idealize.ShloMosaic.PureOps.Ideal
import Idealize.ShloMosaic.PureOps.Ideal.Laws
import Idealize.ShloMosaic.Lib.ValueIdx
import proofs.«177512_j55714315763894_1_alg».proof.Proof.LibScatterGather

noncomputable section

namespace Cert.GraphMean

open Idealize.ShloMosaic Idealize.ShloMosaic.ValueIdx Cert.ScatterGather

/-- The coercion of the reals into the extended reals goes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {N M C w : Nat}

/-- The update rows that land on operand row `r`: those whose index, read signed, is `r`. -/
def landing (idx : IVec ⟨2, ![M, 1]⟩ w) (r : Fin N) : Finset (Fin M) :=
  Finset.univ.filter fun e => (idx (ix2 e (0 : Fin 1))).toInt = (r.val : Int)

/-- An accumulating row scatter into zeros, read at `(r, k)`: the sum of column `k` of the update rows that land
    on row `r`. -/
theorem scatter_rows_apply (wf : ScatterDims.WF ⟨2, ![N, C]⟩ ⟨2, ![M, 1]⟩ ⟨2, ![M, C]⟩ [1] [0] [0] 1)
    (idx : IVec ⟨2, ![M, 1]⟩ w) (u : (⟨2, ![M, C]⟩ : Shape).Idx → EReal) (r : Fin N) (k : Fin C) :
    Ideal.hostScatterAdd (rowsScatter N M C wf) (fun _ => 0) idx u (ix2 r k) = ∑ e ∈ landing idx r, u (ix2 e k) := by
  unfold Ideal.hostScatterAdd
  rw [zero_add]
  have key : ∀ j : (⟨2, ![M, C]⟩ : Shape).Idx, (rowsScatter N M C wf).resultIdx? j idx = some (ix2 r k) →
      (idx (ix2 (j 0) (0 : Fin 1))).toInt = (r.val : Int) ∧ ix2 (j 0) k = j := by
    intro j hj
    have h := (rowsScatter_resultIdx?_eq_some_iff wf j idx (ix2 r k)).mp hj
    refine ⟨h.1, ?_⟩
    funext a
    match a with
    | ⟨0, _⟩ => rfl
    | ⟨1, _⟩ => exact (Fin.ext h.2).symm
  refine Finset.sum_nbij' (fun j => j 0) (fun e => ix2 e k) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowsScatter_resultIdx?_eq_some_iff wf (ix2 e k) idx (ix2 r k)).mpr ⟨(Finset.mem_filter.mp he).2, rfl⟩⟩
  · intro j hj
    exact (key j (Finset.mem_filter.mp hj).2).2
  · intro e _
    rfl
  · intro j hj
    exact congrArg u (key j (Finset.mem_filter.mp hj).2).2.symm

/-- An accumulating scatter of ones into a vector of zeros, read at `r`: the number of updates that land on `r`. -/
theorem scatter_count_apply (wf : ScatterDims.WF ⟨1, ![N]⟩ ⟨2, ![M, 1]⟩ ⟨1, ![M]⟩ [] [0] [0] 1)
    (idx : IVec ⟨2, ![M, 1]⟩ w) (r : Fin N) :
    Ideal.hostScatterAdd (flatScatter N M wf) (fun _ => 0) idx (fun _ => 1) (ix1 r)
      = (((landing idx r).card : ℝ) : EReal) := by
  unfold Ideal.hostScatterAdd
  rw [zero_add]
  have e : ∑ j ∈ Finset.univ.filter (fun j : (⟨1, ![M]⟩ : Shape).Idx => (flatScatter N M wf).resultIdx? j idx = some (ix1 r)), (1 : EReal)
      = ∑ _e ∈ landing idx r, (1 : EReal) := by
    refine Finset.sum_nbij' (fun j => j 0) (fun e => ix1 e) ?_ ?_ ?_ ?_ ?_
    · intro j hj
      exact Finset.mem_filter.mpr ⟨Finset.mem_univ _,
        (flatScatter_resultIdx?_eq_some_iff wf j idx (ix1 r)).mp (Finset.mem_filter.mp hj).2⟩
    · intro e he
      exact Finset.mem_filter.mpr ⟨Finset.mem_univ _,
        (flatScatter_resultIdx?_eq_some_iff wf (ix1 e) idx (ix1 r)).mpr (Finset.mem_filter.mp he).2⟩
    · intro j _
      exact (eq_ix1 j).symm
    · intro e _
      rfl
    · intro j _
      rfl
  rw [e, Finset.sum_const, EReal.nsmul_eq_mul, mul_one]
  rfl

/-- The same count, for the host's accumulating scatter of a vector of ones into a vector of zeros, whatever the
    names its record, its operand and its updates go by. -/
theorem host_count_apply (d : ScatterDims ⟨1, ![N]⟩ ⟨2, ![M, 1]⟩ ⟨1, ![M]⟩)
    (wf : ScatterDims.WF ⟨1, ![N]⟩ ⟨2, ![M, 1]⟩ ⟨1, ![M]⟩ [] [0] [0] 1) (hd : d = flatScatter N M wf)
    (Z : FVec Ideal ⟨1, ![N]⟩ .f32) (hZ : Z = fun _ => 0) (idx : IVec ⟨2, ![M, 1]⟩ w)
    (U : FVec Ideal ⟨1, ![M]⟩ .f32) (hU : U = fun _ => 1) (r : Fin N) :
    Host.scatterAdd (F := Ideal) d Z idx U (ix1 r) = (((landing idx r).card : ℝ) : EReal) := by
  subst hd hZ hU
  exact scatter_count_apply wf idx r

/-- The in-degree of row `r` clamped below by one: the layer's divisor. -/
def degree (idx : IVec ⟨2, ![M, 1]⟩ w) (r : Fin N) : ℝ := max ((landing idx r).card : ℝ) 1

theorem degree_ne_zero (idx : IVec ⟨2, ![M, 1]⟩ w) (r : Fin N) : degree idx r ≠ 0 :=
  (lt_of_lt_of_le one_pos (le_max_right _ _)).ne'

/-- The maximum of a count and one, on the extended reals, is that real. -/
theorem max_count_one (idx : IVec ⟨2, ![M, 1]⟩ w) (r : Fin N) :
    max (((landing idx r).card : ℝ) : EReal) 1 = (degree idx r : EReal) := by
  unfold degree
  rw [← EReal.coe_one]
  exact (EReal.coe_strictMono.monotone.map_max).symm

/-- The exchange of sums over the reals: scaling and projecting the sum of rows is summing the projected rows and
    scaling. -/
theorem real_law {E K : Type} [Fintype K] (s : Finset E) (a : E → K → ℝ) (b : K → ℝ) (c : ℝ) :
    ∑ k : K, ((∑ e ∈ s, a e k) * c) * b k = (∑ e ∈ s, ∑ k : K, a e k * b k) * c := by
  simp only [Finset.sum_mul]
  rw [Finset.sum_comm]
  exact Finset.sum_congr rfl fun e _ => Finset.sum_congr rfl fun k _ => by ring

/-- THE LAW. `X = ↑a` and `B = ↑b` real, the divisor of row `r` the non-zero real `d r` in every column, the
    scatter's operand zero: the mean of the gathered rows of `X`, projected by `B`, is the mean of the gathered rows
    of the projected `X`. -/
theorem mean_project (hN : 0 < N)
    (wfg : GatherDims.WF ⟨2, ![N, C]⟩ ⟨2, ![M, 1]⟩ ⟨2, ![M, C]⟩ [1] [0] [] [0] [] 1 ![1, C])
    (wfs : ScatterDims.WF ⟨2, ![N, C]⟩ ⟨2, ![M, 1]⟩ ⟨2, ![M, C]⟩ [1] [0] [0] 1)
    (Z : (⟨2, ![N, C]⟩ : Shape).Idx → EReal) (hZ : Z = fun _ => 0)
    (I1 I2 : IVec ⟨2, ![M, 1]⟩ w)
    (Dn : (⟨2, ![N, C]⟩ : Shape).Idx → EReal) (d : Fin N → ℝ) (hd : ∀ r, d r ≠ 0)
    (hDn : ∀ r k, Dn (ix2 r k) = (d r : EReal))
    (a : (⟨2, ![N, C]⟩ : Shape).Idx → ℝ) (b : (⟨2, ![C, C]⟩ : Shape).Idx → ℝ) (r : Fin N) (q : Fin C) :
    ∑ k : Fin C, Ideal.div (Ideal.hostScatterAdd (rowsScatter N M C wfs) Z I2
        (Host.gather (rowsDims N M C wfg) (fun i => (a i : EReal)) I1) (ix2 r k)) (Dn (ix2 r k)) * (b (ix2 q k) : EReal)
      = Ideal.div (Ideal.hostScatterAdd (rowsScatter N M C wfs) Z I2
        (Host.gather (rowsDims N M C wfg) (fun i => ∑ k : Fin C, (a (ix2 (i 0) k) : EReal) * (b (ix2 (i 1) k) : EReal)) I1)
          (ix2 r q)) (Dn (ix2 r q)) := by
  subst hZ
  simp only [scatter_rows_apply, hDn, Ideal.div_coe (hd r), gather_rows_apply hN wfg]
  simp only [← EReal.coe_mul, ← coe_sum]
  exact congrArg _ (real_law (landing I2 r) (fun e k => a (ix2 (clampRow N hN I1 e) k)) (fun k => b (ix2 q k)) (1 / d r))

end Cert.GraphMean

end
-- ==== Proof.RealLayer.lean ====
/-
  Every entry of the first layer's output is a real number when the features, the weights and the bias are.

  The only place an infinity could enter is the normalisation `1 / √deg`: on the extended reals `1 / 0 = ⊤`. It does not:
  message `E + r` is node `r`'s self-loop, its target is `r`, so the in-degree of `r` — the number of messages whose
  target is `r` — is a natural number `≥ 1`, its root a positive real, the reciprocal a real. From there a gather
  reads a real, a product of reals is real, an accumulating scatter into zeros sums finitely many reals, and the
  bias is real.
-/
import proofs.«177512_j55714315763894_1_alg».proof.Proof.Spec
import proofs.«177512_j55714315763894_1_alg».proof.Proof.BatchNorm
import proofs.«177512_j55714315763894_1_alg».proof.Proof.LibRealOps
import proofs.«177512_j55714315763894_1_alg».proof.Proof.LibGraphMean
import Idealize.ShloMosaic.Lib.Pipeline.Value
import Idealize.ShloMosaic.Lib.IdealHost
import Idealize.ShloMosaic.Lib.ValueIdx

noncomputable section

namespace Cert.RealLayer

open Idealize Idealize.ShloMosaic Idealize.ShloMosaic.ValueIdx Cert.KernelIdeal Cert.Spec Cert.Proof.RealOps
  Cert.ScatterGather Cert.GraphMean

variable [Cert.KernelIdeal.Facts₀]
open Cert.KernelIdeal.Facts₀

/-- A node number, as a 32-bit word read signed, is itself. -/
theorem toInt_ofNat_node (n : ℕ) (h : n < 100000) : (BitVec.ofNat 32 n).toInt = (n : Int) := by
  unfold BitVec.toInt
  rw [BitVec.toNat_ofNat, Nat.mod_eq_of_lt (by omega), if_pos (by omega)]

/-- Message `E + r` is the self-loop of node `r`: its target is `r`. -/
theorem dst_selfloop (a1 : IA S2x1600000) (r : Fin 100000) :
    (col (dst a1) (ix2 (⟨1600000 + r.val, by omega⟩ : Fin 1700000) (0 : Fin 1))).toInt = (r.val : Int) := by
  have e1 : col (dst a1) (ix2 (⟨1600000 + r.val, by omega⟩ : Fin 1700000) (0 : Fin 1))
      = dst a1 (ix1 (⟨1600000 + r.val, by omega⟩ : Fin 1700000)) := by
    unfold col
    refine broadcastInDim_apply ![0] bcast_S1700000_S1700000x1_0 (dst a1) _ _ (fun a => ?_)
    match a with
    | ⟨0, h0⟩ =>
      have hsz : S1700000.size (⟨0, h0⟩ : Fin 1) = 1700000 := rfl
      rw [if_neg (by rw [hsz]; omega)]; rfl
  have e2 : dst a1 (ix1 (⟨1600000 + r.val, by omega⟩ : Fin 1700000)) = iotaInDim S100000 32 0 (ix1 r) := by
    unfold dst endpoints1
    refine concatenate_pair_apply_right 0 _ _ concatenates_S1600000_S100000_S1700000_d0 _ rfl rfl (ix1 r)
      (fun b hb => ?_) ?_
    · match b with
      | ⟨0, _⟩ => exact absurd rfl hb
    · show r.val + 1600000 = 1600000 + r.val
      omega
  rw [e1, e2, iotaInDim_apply]
  exact toInt_ofNat_node r.val r.isLt

/-- The in-degree of a node is the number of messages whose target it is. -/
theorem deg_eq_card (a1 : IA S2x1600000) (r : Fin 100000) :
    deg (dst a1) (ix1 r) = (((landing (col (dst a1)) r).card : ℝ) : EReal) := by
  have hZ : (broadcastInDim S100000 ![] bcast_S_S100000 (constant (F := Ideal) S_ .f32 0x00000000#32) : FA S100000)
      = fun _ => 0 := funext fun i => constant_zero_apply _ _
  have hU : (broadcastInDim S1700000 ![] bcast_S_S1700000 (constant (F := Ideal) S_ .f32 0x3F800000#32) : FA S1700000)
      = fun _ => 1 := funext fun i => constant_one_apply _ _
  have hd : scatter_S100000_S1700000x1_S1700000_n_0_0_1
      = flatScatter 100000 1700000 scatter_S100000_S1700000x1_S1700000_n_0_0_1_wf := rfl
  unfold deg
  exact host_count_apply _ scatter_S100000_S1700000x1_S1700000_n_0_0_1_wf hd _ hZ (col (dst a1)) _ hU r

/-- The in-degree of every node is a natural number, at least one: its self-loop is counted. -/
theorem deg_pos (a1 : IA S2x1600000) (r : Fin 100000) :
    ∃ k : ℕ, 0 < k ∧ deg (dst a1) (ix1 r) = (((k : ℕ) : ℝ) : EReal) := by
  refine ⟨(landing (col (dst a1)) r).card, Finset.card_pos.mpr ⟨⟨1600000 + r.val, by omega⟩, ?_⟩, deg_eq_card a1 r⟩
  unfold landing
  rw [Finset.mem_filter]
  exact ⟨Finset.mem_univ _, dst_selfloop a1 r⟩

/-- The reciprocal root of an array of positive natural numbers is real. -/
theorem recip_sqrt_real (D : FA S100000)
    (hD : ∀ r : Fin 100000, ∃ k : ℕ, 0 < k ∧ D (ix1 r) = (((k : ℕ) : ℝ) : EReal)) :
    AllReal (Host.divf (F := Ideal)
      (broadcastInDim S100000 ![] bcast_S_S100000 (constant (F := Ideal) S_ .f32 0x3F800000#32))
      (Host.sqrt (F := Ideal) D)) := by
  intro i
  obtain ⟨r, rfl⟩ : ∃ r : Fin 100000, i = ix1 r := ⟨i 0, eq_ix1 i⟩
  obtain ⟨k, hk, hd⟩ := hD r
  have hkr : (0 : ℝ) < (k : ℝ) := by exact_mod_cast hk
  show ∃ x : ℝ, Ideal.div (constant (F := Ideal) S_ .f32 0x3F800000#32 _) (Ideal.sqrt (D (ix1 r))) = (x : EReal)
  rw [hd, Cert.BN.sqrt_real hkr.le]
  exact real_div ⟨1, constant_one_apply _ _⟩ ⟨_, rfl⟩
    (by rw [Ne, EReal.coe_eq_zero]; exact (Real.sqrt_pos.mpr hkr).ne')

/-- `1 / √deg` is real at every node. -/
theorem dis_real (a1 : IA S2x1600000) : AllReal (dis (dst a1)) :=
  recip_sqrt_real (deg (dst a1)) (deg_pos a1)

/-- The weight of every message is real. -/
theorem nrm_real (a1 : IA S2x1600000) : AllReal (nrm a1) :=
  AllReal.mulf (AllReal.gather _ _ (dis_real a1)) (AllReal.gather _ _ (dis_real a1))

/-- One aggregation of a real matrix with real weights and a real bias is real (64 columns). -/
theorem layer1_real (s d : IA S1700000) {n : FA S1700000} {h : FA S100000x64} {b : FA S64}
    (hn : AllReal n) (hh : AllReal h) (hb : AllReal b) : AllReal (layer1 s d n h b) :=
  AllReal.addf
    (AllReal.scatterAdd _ _ (AllReal.broadcastInDim _ _ (AllReal.constant_zero S_))
      (AllReal.mulf (AllReal.gather _ _ hh) (AllReal.broadcastInDim _ _ (AllReal.broadcastInDim _ _ hn))))
    (AllReal.broadcastInDim _ _ (AllReal.broadcastInDim _ _ hb))

end Cert.RealLayer

end
-- ==== Proof.RefRun.lean ====
import proofs.«177512_j55714315763894_1_alg».proof.Proof.Gen.ReferenceIdeal
import Idealize.ShloMosaic.Lib.StableHlo.Run
import Idealize.ShloMosaic.PureOps.Ideal

/-!
# The run of the reference program, read back

The reference's @main is a straight line of 123 StableHLO operations once its three function calls are
unfolded at their call sites (the variance's 19 operations and, inside it, the 3 of its `where`; the 3 of
the rectifier). This module lists them, in order, as five consecutive stretches, shows @main is that line,
and reads the value the line leaves in the result buffer as a composition of five stage functions of the
argument arrays:

* `src`, `dst`: the edge list's two rows, each followed by the self-loop indices `0 … N-1`;
* `nrm`: the symmetric normalisation weight of every edge, `deg(src)^(-1/2) · deg(dst)^(-1/2)`, the degree
  being the number of edges arriving at a node;
* `layer1`, `layer2`: gather the rows of the projected features at the edges' sources, scale each by the edge's
  weight, add them up at the edges' destinations, add the bias;
* `bn`: subtract the column mean, divide by the square root of the column variance plus a small constant,
  scale, shift, and take the positive part.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

section Line

variable {F : FTy → Type} [FloatOps F]

/-- Operations 1–7: the node indices `0 … N-1`, and each row of the edge list followed by them. -/
abbrev opsA : List (HloOp τ sig (Elt F)) :=
  [
    nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- Operations 8–36: the in-degrees (a scatter-add of ones at the destinations), their inverse square roots, the two gathers of these at the edges' ends and the product. -/
abbrev opsB : List (HloOp τ sig (Elt F)) :=
  [
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    unary main_v10 main_v11 (Host.sqrt : (⟨S100000, .f32⟩ : BufTy).Contents (Elt F) → (⟨S100000, .f32⟩ : BufTy).Contents (Elt F)),
    nullary main_cst_1 (constant S_ .f32 0x3F800000#32),
    unary main_cst_1 main_v12 (broadcastInDim S100000 ![] bcast_S_S100000 : (⟨S_, .f32⟩ : BufTy).Contents (Elt F) → (⟨S100000, .f32⟩ : BufTy).Contents (Elt F)),
    binary main_v12 main_v11 main_v13 (Host.divf : (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v14 (broadcastInDim S1700000 ![] bcast_S_S1700000 : (⟨S_, .i32⟩ : BufTy).Contents (Elt F) → (⟨S1700000, .i32⟩ : BufTy).Contents (Elt F)),
    binary main_v3 main_v14 main_v15 (cmpi .slt : (⟨S1700000, .i32⟩ : BufTy).Contents (Elt F) → (⟨S1700000, .i32⟩ : BufTy).Contents (Elt F) → (⟨S1700000, .i1⟩ : BufTy).Contents (Elt F)),
    nullary main_c_2 (constantI S_ 32 100000#32),
    unary main_c_2 main_v16 (broadcastInDim S1700000 ![] bcast_S_S1700000 : (⟨S_, .i32⟩ : BufTy).Contents (Elt F) → (⟨S1700000, .i32⟩ : BufTy).Contents (Elt F)),
    binary main_v3 main_v16 main_v17 (addi : (⟨S1700000, .i32⟩ : BufTy).Contents (Elt F) → (⟨S1700000, .i32⟩ : BufTy).Contents (Elt F) → (⟨S1700000, .i32⟩ : BufTy).Contents (Elt F)),
    ternary main_v15 main_v17 main_v3 main_v18 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v18 main_v19 (broadcastInDim S1700000x1 ![0] bcast_S1700000_S1700000x1_0 : (⟨S1700000, .i32⟩ : BufTy).Contents (Elt F) → (⟨S1700000x1, .i32⟩ : BufTy).Contents (Elt F)),
    binary main_v13 main_v19 main_v20 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_3 (constantI S_ 32 0#32),
    unary main_c_3 main_v21 (broadcastInDim S1700000 ![] bcast_S_S1700000 : (⟨S_, .i32⟩ : BufTy).Contents (Elt F) → (⟨S1700000, .i32⟩ : BufTy).Contents (Elt F)),
    binary main_v6 main_v21 main_v22 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (addi : (⟨S1700000, .i32⟩ : BufTy).Contents (Elt F) → (⟨S1700000, .i32⟩ : BufTy).Contents (Elt F) → (⟨S1700000, .i32⟩ : BufTy).Contents (Elt F)),
    ternary main_v22 main_v24 main_v6 main_v25 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v25 main_v26 (broadcastInDim S1700000x1 ![0] bcast_S1700000_S1700000x1_0 : (⟨S1700000, .i32⟩ : BufTy).Contents (Elt F) → (⟨S1700000x1, .i32⟩ : BufTy).Contents (Elt F)),
    binary main_v13 main_v26 main_v27 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v20 main_v27 main_v28 (mulf : (⟨S1700000, .f32⟩ : BufTy).Contents (Elt F) → (⟨S1700000, .f32⟩ : BufTy).Contents (Elt F) → (⟨S1700000, .f32⟩ : BufTy).Contents (Elt F)) ]

/-- Operations 37–56: the first projection, the gather of its rows at the sources, the scaling by the weights, the scatter-add at the destinations and the bias. -/
abbrev opsC : List (HloOp τ sig (Elt F)) :=
  [
    binary main_arg0 main_arg2 main_v29 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_5 (constantI S_ 32 0#32),
    unary main_c_5 main_v30 (broadcastInDim S1700000 ![] bcast_S_S1700000 : (⟨S_, .i32⟩ : BufTy).Contents (Elt F) → (⟨S1700000, .i32⟩ : BufTy).Contents (Elt F)),
    binary main_v3 main_v30 main_v31 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (addi : (⟨S1700000, .i32⟩ : BufTy).Contents (Elt F) → (⟨S1700000, .i32⟩ : BufTy).Contents (Elt F) → (⟨S1700000, .i32⟩ : BufTy).Contents (Elt F)),
    ternary main_v31 main_v33 main_v3 main_v34 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v34 main_v35 (broadcastInDim S1700000x1 ![0] bcast_S1700000_S1700000x1_0 : (⟨S1700000, .i32⟩ : BufTy).Contents (Elt F) → (⟨S1700000x1, .i32⟩ : BufTy).Contents (Elt F)),
    binary main_v29 main_v35 main_v36 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v28 main_v37 (broadcastInDim S1700000x1 ![0] bcast_S1700000_S1700000x1_0 : (⟨S1700000, .f32⟩ : BufTy).Contents (Elt F) → (⟨S1700000x1, .f32⟩ : BufTy).Contents (Elt F)),
    unary main_v37 main_v38 (broadcastInDim S1700000x64 ![0, 1] bcast_S1700000x1_S1700000x64_0_1 : (⟨S1700000x1, .f32⟩ : BufTy).Contents (Elt F) → (⟨S1700000x64, .f32⟩ : BufTy).Contents (Elt F)),
    binary main_v36 main_v38 main_v39 (mulf : (⟨S1700000x64, .f32⟩ : BufTy).Contents (Elt F) → (⟨S1700000x64, .f32⟩ : BufTy).Contents (Elt F) → (⟨S1700000x64, .f32⟩ : BufTy).Contents (Elt F)),
    nullary main_cst_7 (constant S_ .f32 0x00000000#32),
    unary main_cst_7 main_v40 (broadcastInDim S100000x64 ![] bcast_S_S100000x64 : (⟨S_, .f32⟩ : BufTy).Contents (Elt F) → (⟨S100000x64, .f32⟩ : BufTy).Contents (Elt F)),
    unary main_v6 main_v41 (broadcastInDim S1700000x1 ![0] bcast_S1700000_S1700000x1_0 : (⟨S1700000, .i32⟩ : BufTy).Contents (Elt F) → (⟨S1700000x1, .i32⟩ : BufTy).Contents (Elt F)),
    ternary main_v40 main_v41 main_v39 main_v42 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v43 (broadcastInDim S1x64 ![1] bcast_S64_S1x64_1 : (⟨S64, .f32⟩ : BufTy).Contents (Elt F) → (⟨S1x64, .f32⟩ : BufTy).Contents (Elt F)),
    unary main_v43 main_v44 (broadcastInDim S100000x64 ![0, 1] bcast_S1x64_S100000x64_0_1 : (⟨S1x64, .f32⟩ : BufTy).Contents (Elt F) → (⟨S100000x64, .f32⟩ : BufTy).Contents (Elt F)),
    binary main_v42 main_v44 main_v45 (addf : (⟨S100000x64, .f32⟩ : BufTy).Contents (Elt F) → (⟨S100000x64, .f32⟩ : BufTy).Contents (Elt F) → (⟨S100000x64, .f32⟩ : BufTy).Contents (Elt F)) ]

/-- Operations 57–103: the column means, the variance (its function's operations in place of the call, and inside it its `where`'s), the normalisation, scale and shift, and the positive part (the rectifier's operations in place of its call). -/
abbrev opsD : List (HloOp τ sig (Elt F)) :=
  [
    nullary main_cst_8 (constant S_ .f32 0x00000000#32),
    binary main_v45 main_cst_8 main_v46 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_9 (constant S_ .f32 0x47C35000#32),
    unary main_cst_9 main_v47 (broadcastInDim S64 ![] bcast_S_S64 : (⟨S_, .f32⟩ : BufTy).Contents (Elt F) → (⟨S64, .f32⟩ : BufTy).Contents (Elt F)),
    binary main_v46 main_v47 main_v48 (Host.divf : (⟨S64, .f32⟩ : BufTy).Contents (Elt F) → (⟨S64, .f32⟩ : BufTy).Contents (Elt F) → (⟨S64, .f32⟩ : BufTy).Contents (Elt F)),
    nullary main_c_10 (constantI S_ 32 0#32),
    TRef.nullary main_call0.cst (constant S_ .f32 0x00000000#32),
    TRef.binary (.of main_v45) main_call0.cst main_call0.v0 (fun x v => Host.reduceAdd x v reducesTo_S100000x64_S64_d0 h_S_),
    TRef.unary main_call0.v0 main_call0.v1 (broadcastInDim S1x64 ![1] bcast_S64_S1x64_1),
    TRef.nullary main_call0.cst_0 (constant S_ .f32 0x47C35000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S100000x64 ![0, 1] bcast_S1x64_S100000x64_0_1),
    TRef.binary (.of main_v45) main_call0.v4 main_call0.v5 subf,
    TRef.binary main_call0.v5 main_call0.v5 main_call0.v6 mulf,
    TRef.unary (.of main_c_10) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v48 main_v50 (broadcastInDim S1x64 ![1] bcast_S64_S1x64_1 : (⟨S64, .f32⟩ : BufTy).Contents (Elt F) → (⟨S1x64, .f32⟩ : BufTy).Contents (Elt F)),
    unary main_v50 main_v51 (broadcastInDim S100000x64 ![0, 1] bcast_S1x64_S100000x64_0_1 : (⟨S1x64, .f32⟩ : BufTy).Contents (Elt F) → (⟨S100000x64, .f32⟩ : BufTy).Contents (Elt F)),
    binary main_v45 main_v51 main_v52 (subf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x3727C5AC#32),
    unary main_cst_11 main_v53 (broadcastInDim S64 ![] bcast_S_S64 : (⟨S_, .f32⟩ : BufTy).Contents (Elt F) → (⟨S64, .f32⟩ : BufTy).Contents (Elt F)),
    binary main_v49 main_v53 main_v54 (addf : (⟨S64, .f32⟩ : BufTy).Contents (Elt F) → (⟨S64, .f32⟩ : BufTy).Contents (Elt F) → (⟨S64, .f32⟩ : BufTy).Contents (Elt F)),
    unary main_v54 main_v55 (Host.sqrt : (⟨S64, .f32⟩ : BufTy).Contents (Elt F) → (⟨S64, .f32⟩ : BufTy).Contents (Elt F)),
    unary main_v55 main_v56 (broadcastInDim S1x64 ![1] bcast_S64_S1x64_1 : (⟨S64, .f32⟩ : BufTy).Contents (Elt F) → (⟨S1x64, .f32⟩ : BufTy).Contents (Elt F)),
    unary main_v56 main_v57 (broadcastInDim S100000x64 ![0, 1] bcast_S1x64_S100000x64_0_1 : (⟨S1x64, .f32⟩ : BufTy).Contents (Elt F) → (⟨S100000x64, .f32⟩ : BufTy).Contents (Elt F)),
    binary main_v52 main_v57 main_v58 (Host.divf : (⟨S100000x64, .f32⟩ : BufTy).Contents (Elt F) → (⟨S100000x64, .f32⟩ : BufTy).Contents (Elt F) → (⟨S100000x64, .f32⟩ : BufTy).Contents (Elt F)),
    unary main_arg4 main_v59 (broadcastInDim S1x64 ![1] bcast_S64_S1x64_1 : (⟨S64, .f32⟩ : BufTy).Contents (Elt F) → (⟨S1x64, .f32⟩ : BufTy).Contents (Elt F)),
    unary main_v59 main_v60 (broadcastInDim S100000x64 ![0, 1] bcast_S1x64_S100000x64_0_1 : (⟨S1x64, .f32⟩ : BufTy).Contents (Elt F) → (⟨S100000x64, .f32⟩ : BufTy).Contents (Elt F)),
    binary main_v58 main_v60 main_v61 (mulf : (⟨S100000x64, .f32⟩ : BufTy).Contents (Elt F) → (⟨S100000x64, .f32⟩ : BufTy).Contents (Elt F) → (⟨S100000x64, .f32⟩ : BufTy).Contents (Elt F)),
    unary main_arg5 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v61 main_v63 main_v64 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v64) main_call1.v0 main_call1.v1 maximumf ]

/-- Operations 104–123: the second projection, gather, scaling, scatter-add and bias. -/
abbrev opsE : List (HloOp τ sig (Elt F)) :=
  [
    binary main_v65 main_arg6 main_v66 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    nullary main_c_12 (constantI S_ 32 0#32),
    unary main_c_12 main_v67 (broadcastInDim S1700000 ![] bcast_S_S1700000 : (⟨S_, .i32⟩ : BufTy).Contents (Elt F) → (⟨S1700000, .i32⟩ : BufTy).Contents (Elt F)),
    binary main_v3 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v69 (broadcastInDim S1700000 ![] bcast_S_S1700000 : (⟨S_, .i32⟩ : BufTy).Contents (Elt F) → (⟨S1700000, .i32⟩ : BufTy).Contents (Elt F)),
    binary main_v3 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v3 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v66 main_v72 main_v73 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v28 main_v74 (broadcastInDim S1700000x1 ![0] bcast_S1700000_S1700000x1_0 : (⟨S1700000, .f32⟩ : BufTy).Contents (Elt F) → (⟨S1700000x1, .f32⟩ : BufTy).Contents (Elt F)),
    unary main_v74 main_v75 (broadcastInDim S1700000x32 ![0, 1] bcast_S1700000x1_S1700000x32_0_1 : (⟨S1700000x1, .f32⟩ : BufTy).Contents (Elt F) → (⟨S1700000x32, .f32⟩ : BufTy).Contents (Elt F)),
    binary main_v73 main_v75 main_v76 (mulf : (⟨S1700000x32, .f32⟩ : BufTy).Contents (Elt F) → (⟨S1700000x32, .f32⟩ : BufTy).Contents (Elt F) → (⟨S1700000x32, .f32⟩ : BufTy).Contents (Elt F)),
    nullary main_cst_14 (constant S_ .f32 0x00000000#32),
    unary main_cst_14 main_v77 (broadcastInDim S100000x32 ![] bcast_S_S100000x32 : (⟨S_, .f32⟩ : BufTy).Contents (Elt F) → (⟨S100000x32, .f32⟩ : BufTy).Contents (Elt F)),
    unary main_v6 main_v78 (broadcastInDim S1700000x1 ![0] bcast_S1700000_S1700000x1_0 : (⟨S1700000, .i32⟩ : BufTy).Contents (Elt F) → (⟨S1700000x1, .i32⟩ : BufTy).Contents (Elt F)),
    ternary main_v77 main_v78 main_v76 main_v79 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    unary main_arg7 main_v80 (broadcastInDim S1x32 ![1] bcast_S32_S1x32_1 : (⟨S32, .f32⟩ : BufTy).Contents (Elt F) → (⟨S1x32, .f32⟩ : BufTy).Contents (Elt F)),
    unary main_v80 main_v81 (broadcastInDim S100000x32 ![0, 1] bcast_S1x32_S100000x32_0_1 : (⟨S1x32, .f32⟩ : BufTy).Contents (Elt F) → (⟨S100000x32, .f32⟩ : BufTy).Contents (Elt F)),
    binary main_v79 main_v81 main_v82 (addf : (⟨S100000x32, .f32⟩ : BufTy).Contents (Elt F) → (⟨S100000x32, .f32⟩ : BufTy).Contents (Elt F) → (⟨S100000x32, .f32⟩ : BufTy).Contents (Elt F)) ]

/-- @main's 123 operations, in order. -/
abbrev ops : List (HloOp τ sig (Elt F)) := opsA ++ opsB ++ opsC ++ opsD ++ opsE

set_option maxRecDepth 8192 in
set_option maxHeartbeats 4000000 in
/-- @main is that straight line: its two windows and the three functions' bodies unfold to one chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub ..⟩
set_option maxRecDepth 8192 in
theorem opsB_sub : (opsB : List (HloOp τ sig (Elt F))).Forall fun op => op.bufs ⊆ tcRefs τ sig :=
  ⟨nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem opsC_sub : (opsC : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
set_option maxRecDepth 8192 in
theorem opsD_sub : (opsD : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem opsE_sub : (opsE : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- Every operation of the line touches TensorCore buffers only. -/
theorem ops_sub : (ops : List (HloOp τ sig (Elt F))).Forall fun op => op.bufs ⊆ tcRefs τ sig :=
  List.forall_iff_forall_mem.mpr fun op h => by
    simp only [ops, List.mem_append] at h
    rcases h with (((h | h) | h) | h) | h
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsE_sub op h]

end Line

section Stages

/-! ## The stages

Each stage is the composition of its stretch's operations, written out, at the exact values (a float an
extended real). -/

/-- The sources of the edges: row 0 of the edge list (a slice, flattened), then the nodes `0 … N-1`
    (the self-loops). Operations `%0 … %3`. -/
def src (a1 : (⟨S2x1600000, .i32⟩ : BufTy).Contents (Elt Ideal)) : (⟨S1700000, .i32⟩ : BufTy).Contents (Elt Ideal) :=
  concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0

/-- The destinations of the edges: row 1 of the edge list, then the nodes `0 … N-1`. Operations `%0, %4 … %6`. -/
def dst (a1 : (⟨S2x1600000, .i32⟩ : BufTy).Contents (Elt Ideal)) : (⟨S1700000, .i32⟩ : BufTy).Contents (Elt Ideal) :=
  concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0

/-- The edge weights from the two index arrays: the in-degree of every node (ones added up at the
    destinations), one over its square root, gathered at the sources and at the destinations (an index below zero
    wrapped by `N` first, as the gather's lowering does), and the two multiplied. Operations `%cst … %28`. -/
def nrmOf (s d : (⟨S1700000, .i32⟩ : BufTy).Contents (Elt Ideal)) : (⟨S1700000, .f32⟩ : BufTy).Contents (Elt Ideal) :=
  mulf (F := Ideal) (Host.gather gather_S100000_S1700000x1_S1700000_n_0_n_n_0_1_1 (Host.divf (F := Ideal) (broadcastInDim S100000 ![] bcast_S_S100000 (constant (F := Ideal) S_ .f32 0x3F800000#32)) (Host.sqrt (F := Ideal) (Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 d) (broadcastInDim S1700000 ![] bcast_S_S1700000 (constant (F := Ideal) S_ .f32 0x3F800000#32))))) (broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s))) (Host.gather gather_S100000_S1700000x1_S1700000_n_0_n_n_0_1_1 (Host.divf (F := Ideal) (broadcastInDim S100000 ![] bcast_S_S100000 (constant (F := Ideal) S_ .f32 0x3F800000#32)) (Host.sqrt (F := Ideal) (Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 d) (broadcastInDim S1700000 ![] bcast_S_S1700000 (constant (F := Ideal) S_ .f32 0x3F800000#32))))) (broadcastInDim S1700000x1 ![0] bcast_S1700000_S1700000x1_0 (select (cmpi .slt d (broadcastInDim S1700000 ![] bcast_S_S1700000 (constantI S_ 32 0#32))) (addi d (broadcastInDim S1700000 ![] bcast_S_S1700000 (constantI S_ 32 100000#32))) d)))

/-- The edge weights of the edge list `a1`. -/
def nrm (a1 : (⟨S2x1600000, .i32⟩ : BufTy).Contents (Elt Ideal)) : (⟨S1700000, .f32⟩ : BufTy).Contents (Elt Ideal) :=
  nrmOf (src a1) (dst a1)

/-- The first propagation: the rows of `h` gathered at the sources, each scaled by its edge's weight, added up at
    the destinations from zero, plus the bias along every row. Operations `%c_5 … %45` (after the projection `%29`). -/
def layer1 (s d : (⟨S1700000, .i32⟩ : BufTy).Contents (Elt Ideal)) (n : (⟨S1700000, .f32⟩ : BufTy).Contents (Elt Ideal)) (h : (⟨S100000x64, .f32⟩ : BufTy).Contents (Elt Ideal))
    (b : (⟨S64, .f32⟩ : BufTy).Contents (Elt Ideal)) : (⟨S100000x64, .f32⟩ : BufTy).Contents (Elt Ideal) :=
  addf (F := Ideal) (Host.scatterAdd (F := Ideal) scatter_S100000x64_S1700000x1_S1700000x64_1_0_0_1 (broadcastInDim S100000x64 ![] bcast_S_S100000x64 (constant (F := Ideal) S_ .f32 0x00000000#32)) (broadcastInDim S1700000x1 ![0] bcast_S1700000_S1700000x1_0 d) (mulf (F := Ideal) (Host.gather gather_S100000x64_S1700000x1_S1700000x64_1_0_n_n_0_1_164 h (broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s))) (broadcastInDim S1700000x64 ![0, 1] bcast_S1700000x1_S1700000x64_0_1 (broadcastInDim S1700000x1 ![0] bcast_S1700000_S1700000x1_0 n)))) (broadcastInDim S100000x64 ![0, 1] bcast_S1x64_S100000x64_0_1 (broadcastInDim S1x64 ![1] bcast_S64_S1x64_1 b))

/-- Batch normalisation and the rectifier: the column means (sum over the rows divided by `N`); the column
    variances (the variance function's body: the mean again, the squared deviations summed and divided by `N - 0`,
    kept where `N - 0 > 0` and a not-a-number constant elsewhere); the deviations divided by the square root of
    variance plus a small constant, times `g`, plus `b`; the maximum with zero. Operations `%cst_8 … %65`. -/
def bn (h : (⟨S100000x64, .f32⟩ : BufTy).Contents (Elt Ideal)) (g b : (⟨S64, .f32⟩ : BufTy).Contents (Elt Ideal)) : (⟨S100000x64, .f32⟩ : BufTy).Contents (Elt Ideal) :=
  maximumf (F := Ideal) (addf (F := Ideal) (mulf (F := Ideal) (Host.divf (F := Ideal) (subf (F := Ideal) h (broadcastInDim S100000x64 ![0, 1] bcast_S1x64_S100000x64_0_1 (broadcastInDim S1x64 ![1] bcast_S64_S1x64_1 (Host.divf (F := Ideal) (Host.reduceAdd (F := Ideal) h (constant (F := Ideal) S_ .f32 0x00000000#32) reducesTo_S100000x64_S64_d0 h_S_) (broadcastInDim S64 ![] bcast_S_S64 (constant (F := Ideal) S_ .f32 0x47C35000#32)))))) (broadcastInDim S100000x64 ![0, 1] bcast_S1x64_S100000x64_0_1 (broadcastInDim S1x64 ![1] bcast_S64_S1x64_1 (Host.sqrt (F := Ideal) (addf (F := Ideal) (select (broadcastInDim S64 ![] bcast_S_S64 (cmpf (F := Ideal) .ogt (subf (F := Ideal) (constant (F := Ideal) S_ .f32 0x47C35000#32) (sitofp (F := Ideal) .f32 (constantI S_ 32 0#32))) (constant (F := Ideal) S_ .f32 0x00000000#32))) (Host.divf (F := Ideal) (Host.reduceAdd (F := Ideal) (mulf (F := Ideal) (subf (F := Ideal) h (broadcastInDim S100000x64 ![0, 1] bcast_S1x64_S100000x64_0_1 (Host.divf (F := Ideal) (broadcastInDim S1x64 ![1] bcast_S64_S1x64_1 (Host.reduceAdd (F := Ideal) h (constant (F := Ideal) S_ .f32 0x00000000#32) reducesTo_S100000x64_S64_d0 h_S_)) (broadcastInDim S1x64 ![] bcast_S_S1x64 (constant (F := Ideal) S_ .f32 0x47C35000#32))))) (subf (F := Ideal) h (broadcastInDim S100000x64 ![0, 1] bcast_S1x64_S100000x64_0_1 (Host.divf (F := Ideal) (broadcastInDim S1x64 ![1] bcast_S64_S1x64_1 (Host.reduceAdd (F := Ideal) h (constant (F := Ideal) S_ .f32 0x00000000#32) reducesTo_S100000x64_S64_d0 h_S_)) (broadcastInDim S1x64 ![] bcast_S_S1x64 (constant (F := Ideal) S_ .f32 0x47C35000#32)))))) (constant (F := Ideal) S_ .f32 0x00000000#32) reducesTo_S100000x64_S64_d0 h_S_) (broadcastInDim S64 ![] bcast_S_S64 (subf (F := Ideal) (constant (F := Ideal) S_ .f32 0x47C35000#32) (sitofp (F := Ideal) .f32 (constantI S_ 32 0#32))))) (broadcastInDim S64 ![] bcast_S_S64 (id (constant (F := Ideal) S_ .f32 0x7FC00000#32)))) (broadcastInDim S64 ![] bcast_S_S64 (constant (F := Ideal) S_ .f32 0x3727C5AC#32))))))) (broadcastInDim S100000x64 ![0, 1] bcast_S1x64_S100000x64_0_1 (broadcastInDim S1x64 ![1] bcast_S64_S1x64_1 g))) (broadcastInDim S100000x64 ![0, 1] bcast_S1x64_S100000x64_0_1 (broadcastInDim S1x64 ![1] bcast_S64_S1x64_1 b))) (broadcastInDim S100000x64 ![] bcast_S_S100000x64 (constant (F := Ideal) S_ .f32 0x00000000#32))

/-- The second propagation, as the first at width 32. Operations `%c_12 … %82` (after the projection `%66`). -/
def layer2 (s d : (⟨S1700000, .i32⟩ : BufTy).Contents (Elt Ideal)) (n : (⟨S1700000, .f32⟩ : BufTy).Contents (Elt Ideal)) (h : (⟨S100000x32, .f32⟩ : BufTy).Contents (Elt Ideal))
    (b : (⟨S32, .f32⟩ : BufTy).Contents (Elt Ideal)) : (⟨S100000x32, .f32⟩ : BufTy).Contents (Elt Ideal) :=
  addf (F := Ideal) (Host.scatterAdd (F := Ideal) scatter_S100000x32_S1700000x1_S1700000x32_1_0_0_1 (broadcastInDim S100000x32 ![] bcast_S_S100000x32 (constant (F := Ideal) S_ .f32 0x00000000#32)) (broadcastInDim S1700000x1 ![0] bcast_S1700000_S1700000x1_0 d) (mulf (F := Ideal) (Host.gather gather_S100000x32_S1700000x1_S1700000x32_1_0_n_n_0_1_132 h (broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s))) (broadcastInDim S1700000x32 ![0, 1] bcast_S1700000x1_S1700000x32_0_1 (broadcastInDim S1700000x1 ![0] bcast_S1700000_S1700000x1_0 n)))) (broadcastInDim S100000x32 ![0, 1] bcast_S1x32_S100000x32_0_1 (broadcastInDim S1x32 ![1] bcast_S32_S1x32_1 b))

/-- The whole reference: project, propagate, normalise and rectify, project, propagate. -/
def out (a0 : (⟨S100000x128, .f32⟩ : BufTy).Contents (Elt Ideal)) (a1 : (⟨S2x1600000, .i32⟩ : BufTy).Contents (Elt Ideal)) (a2 : (⟨S128x64, .f32⟩ : BufTy).Contents (Elt Ideal))
    (a3 a4 a5 : (⟨S64, .f32⟩ : BufTy).Contents (Elt Ideal)) (a6 : (⟨S64x32, .f32⟩ : BufTy).Contents (Elt Ideal)) (a7 : (⟨S32, .f32⟩ : BufTy).Contents (Elt Ideal)) : (⟨S100000x32, .f32⟩ : BufTy).Contents (Elt Ideal) :=
  layer2 (src a1) (dst a1) (nrm a1)
    (Host.dotGeneral (F := Ideal) (φ₁ := .f32) (φ₂ := .f32) dot_S100000x64_S64x32_S100000x32_1_0_0_1_n_n none
      (bn (layer1 (src a1) (dst a1) (nrm a1)
        (Host.dotGeneral (F := Ideal) (φ₁ := .f32) (φ₂ := .f32) dot_S100000x128_S128x64_S100000x64_1_0_0_1_n_n none a0 a2) a3) a4 a5) a6) a7

/-! ## What each stretch leaves -/

/-- Running two lines one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable (V : Valuation τ sig (Elt Ideal))

theorem afterA_v3 : after (opsA (F := Ideal)) V (main_v3 : DevRef τ sig) = src (V (main_arg1 : DevRef τ sig)) := by
  after_results <;> rfl

theorem afterA_v6 : after (opsA (F := Ideal)) V (main_v6 : DevRef τ sig) = dst (V (main_arg1 : DevRef τ sig)) := by
  after_results <;> rfl

set_option maxRecDepth 8192 in
theorem afterB_v28 : after (opsB (F := Ideal)) V (main_v28 : DevRef τ sig) = nrmOf (V (main_v3 : DevRef τ sig)) (V (main_v6 : DevRef τ sig)) := by
  after_results_simp <;> rfl

set_option maxRecDepth 8192 in
theorem afterC_v45 : after (opsC (F := Ideal)) V (main_v45 : DevRef τ sig)
    = layer1 (V (main_v3 : DevRef τ sig)) (V (main_v6 : DevRef τ sig)) (V (main_v28 : DevRef τ sig))
        (Host.dotGeneral (F := Ideal) (φ₁ := .f32) (φ₂ := .f32) dot_S100000x128_S128x64_S100000x64_1_0_0_1_n_n none (V (main_arg0 : DevRef τ sig)) (V (main_arg2 : DevRef τ sig)))
        (V (main_arg3 : DevRef τ sig)) := by
  after_results_simp <;> rfl

set_option maxRecDepth 8192 in
set_option maxHeartbeats 2000000 in
theorem afterD_v65 : after (opsD (F := Ideal)) V (main_v65 : DevRef τ sig)
    = bn (V (main_v45 : DevRef τ sig)) (V (main_arg4 : DevRef τ sig)) (V (main_arg5 : DevRef τ sig)) := by
  after_results_simp <;> rfl

set_option maxRecDepth 8192 in
theorem afterE_v82 : after (opsE (F := Ideal)) V (main_v82 : DevRef τ sig)
    = layer2 (V (main_v3 : DevRef τ sig)) (V (main_v6 : DevRef τ sig)) (V (main_v28 : DevRef τ sig))
        (Host.dotGeneral (F := Ideal) (φ₁ := .f32) (φ₂ := .f32) dot_S100000x64_S64x32_S100000x32_1_0_0_1_n_n none (V (main_v65 : DevRef τ sig)) (V (main_arg6 : DevRef τ sig)))
        (V (main_arg7 : DevRef τ sig)) := by
  after_results_simp <;> rfl

/-! ## What each stretch leaves alone

A buffer that no operation of a stretch writes holds after it what it held before: every operation's result
buffer is another reference. -/

theorem keepA_arg0 : after (opsA (F := Ideal)) V (main_arg0 : DevRef τ sig) = V (main_arg0 : DevRef τ sig) := by
  after_results_simp

theorem keepA_arg2 : after (opsA (F := Ideal)) V (main_arg2 : DevRef τ sig) = V (main_arg2 : DevRef τ sig) := by
  after_results_simp

theorem keepA_arg3 : after (opsA (F := Ideal)) V (main_arg3 : DevRef τ sig) = V (main_arg3 : DevRef τ sig) := by
  after_results_simp

theorem keepA_arg4 : after (opsA (F := Ideal)) V (main_arg4 : DevRef τ sig) = V (main_arg4 : DevRef τ sig) := by
  after_results_simp

theorem keepA_arg5 : after (opsA (F := Ideal)) V (main_arg5 : DevRef τ sig) = V (main_arg5 : DevRef τ sig) := by
  after_results_simp

theorem keepA_arg6 : after (opsA (F := Ideal)) V (main_arg6 : DevRef τ sig) = V (main_arg6 : DevRef τ sig) := by
  after_results_simp

theorem keepA_arg7 : after (opsA (F := Ideal)) V (main_arg7 : DevRef τ sig) = V (main_arg7 : DevRef τ sig) := by
  after_results_simp

set_option maxRecDepth 8192 in
theorem keepB_v3 : after (opsB (F := Ideal)) V (main_v3 : DevRef τ sig) = V (main_v3 : DevRef τ sig) := by
  after_results_simp

set_option maxRecDepth 8192 in
theorem keepB_v6 : after (opsB (F := Ideal)) V (main_v6 : DevRef τ sig) = V (main_v6 : DevRef τ sig) := by
  after_results_simp

set_option maxRecDepth 8192 in
theorem keepB_arg0 : after (opsB (F := Ideal)) V (main_arg0 : DevRef τ sig) = V (main_arg0 : DevRef τ sig) := by
  after_results_simp

set_option maxRecDepth 8192 in
theorem keepB_arg2 : after (opsB (F := Ideal)) V (main_arg2 : DevRef τ sig) = V (main_arg2 : DevRef τ sig) := by
  after_results_simp

set_option maxRecDepth 8192 in
theorem keepB_arg3 : after (opsB (F := Ideal)) V (main_arg3 : DevRef τ sig) = V (main_arg3 : DevRef τ sig) := by
  after_results_simp

set_option maxRecDepth 8192 in
theorem keepB_arg4 : after (opsB (F := Ideal)) V (main_arg4 : DevRef τ sig) = V (main_arg4 : DevRef τ sig) := by
  after_results_simp

set_option maxRecDepth 8192 in
theorem keepB_arg5 : after (opsB (F := Ideal)) V (main_arg5 : DevRef τ sig) = V (main_arg5 : DevRef τ sig) := by
  after_results_simp

set_option maxRecDepth 8192 in
theorem keepB_arg6 : after (opsB (F := Ideal)) V (main_arg6 : DevRef τ sig) = V (main_arg6 : DevRef τ sig) := by
  after_results_simp

set_option maxRecDepth 8192 in
theorem keepB_arg7 : after (opsB (F := Ideal)) V (main_arg7 : DevRef τ sig) = V (main_arg7 : DevRef τ sig) := by
  after_results_simp

theorem keepC_v3 : after (opsC (F := Ideal)) V (main_v3 : DevRef τ sig) = V (main_v3 : DevRef τ sig) := by
  after_results_simp

theorem keepC_v6 : after (opsC (F := Ideal)) V (main_v6 : DevRef τ sig) = V (main_v6 : DevRef τ sig) := by
  after_results_simp

theorem keepC_v28 : after (opsC (F := Ideal)) V (main_v28 : DevRef τ sig) = V (main_v28 : DevRef τ sig) := by
  after_results_simp

theorem keepC_arg4 : after (opsC (F := Ideal)) V (main_arg4 : DevRef τ sig) = V (main_arg4 : DevRef τ sig) := by
  after_results_simp

theorem keepC_arg5 : after (opsC (F := Ideal)) V (main_arg5 : DevRef τ sig) = V (main_arg5 : DevRef τ sig) := by
  after_results_simp

theorem keepC_arg6 : after (opsC (F := Ideal)) V (main_arg6 : DevRef τ sig) = V (main_arg6 : DevRef τ sig) := by
  after_results_simp

theorem keepC_arg7 : after (opsC (F := Ideal)) V (main_arg7 : DevRef τ sig) = V (main_arg7 : DevRef τ sig) := by
  after_results_simp

set_option maxRecDepth 8192 in
theorem keepD_v3 : after (opsD (F := Ideal)) V (main_v3 : DevRef τ sig) = V (main_v3 : DevRef τ sig) := by
  after_results_simp

set_option maxRecDepth 8192 in
theorem keepD_v6 : after (opsD (F := Ideal)) V (main_v6 : DevRef τ sig) = V (main_v6 : DevRef τ sig) := by
  after_results_simp

set_option maxRecDepth 8192 in
theorem keepD_v28 : after (opsD (F := Ideal)) V (main_v28 : DevRef τ sig) = V (main_v28 : DevRef τ sig) := by
  after_results_simp

set_option maxRecDepth 8192 in
theorem keepD_arg6 : after (opsD (F := Ideal)) V (main_arg6 : DevRef τ sig) = V (main_arg6 : DevRef τ sig) := by
  after_results_simp

set_option maxRecDepth 8192 in
theorem keepD_arg7 : after (opsD (F := Ideal)) V (main_arg7 : DevRef τ sig) = V (main_arg7 : DevRef τ sig) := by
  after_results_simp

/-! ## The whole line -/

set_option maxRecDepth 8192 in
set_option maxHeartbeats 4000000 in
/-- No operation writes an argument. -/
theorem keep_arg0 : after (ops (F := Ideal)) V (main_arg0 : DevRef τ sig) = V (main_arg0 : DevRef τ sig) := by
  simp only [ops, after_append]
  after_results_simp

set_option maxRecDepth 8192 in
set_option maxHeartbeats 4000000 in
/-- No operation writes an argument. -/
theorem keep_arg1 : after (ops (F := Ideal)) V (main_arg1 : DevRef τ sig) = V (main_arg1 : DevRef τ sig) := by
  simp only [ops, after_append]
  after_results_simp

set_option maxRecDepth 8192 in
set_option maxHeartbeats 4000000 in
/-- No operation writes an argument. -/
theorem keep_arg2 : after (ops (F := Ideal)) V (main_arg2 : DevRef τ sig) = V (main_arg2 : DevRef τ sig) := by
  simp only [ops, after_append]
  after_results_simp

set_option maxRecDepth 8192 in
set_option maxHeartbeats 4000000 in
/-- No operation writes an argument. -/
theorem keep_arg3 : after (ops (F := Ideal)) V (main_arg3 : DevRef τ sig) = V (main_arg3 : DevRef τ sig) := by
  simp only [ops, after_append]
  after_results_simp

set_option maxRecDepth 8192 in
set_option maxHeartbeats 4000000 in
/-- No operation writes an argument. -/
theorem keep_arg4 : after (ops (F := Ideal)) V (main_arg4 : DevRef τ sig) = V (main_arg4 : DevRef τ sig) := by
  simp only [ops, after_append]
  after_results_simp

set_option maxRecDepth 8192 in
set_option maxHeartbeats 4000000 in
/-- No operation writes an argument. -/
theorem keep_arg5 : after (ops (F := Ideal)) V (main_arg5 : DevRef τ sig) = V (main_arg5 : DevRef τ sig) := by
  simp only [ops, after_append]
  after_results_simp

set_option maxRecDepth 8192 in
set_option maxHeartbeats 4000000 in
/-- No operation writes an argument. -/
theorem keep_arg6 : after (ops (F := Ideal)) V (main_arg6 : DevRef τ sig) = V (main_arg6 : DevRef τ sig) := by
  simp only [ops, after_append]
  after_results_simp

set_option maxRecDepth 8192 in
set_option maxHeartbeats 4000000 in
/-- No operation writes an argument. -/
theorem keep_arg7 : after (ops (F := Ideal)) V (main_arg7 : DevRef τ sig) = V (main_arg7 : DevRef τ sig) := by
  simp only [ops, after_append]
  after_results_simp

/-- The result buffer after the whole line is `out` of the arguments: each stretch's value, read at what the
    stretches before it left. -/
theorem out_eq : after (ops (F := Ideal)) V (main_v82 : DevRef τ sig)
    = out (V (main_arg0 : DevRef τ sig)) (V (main_arg1 : DevRef τ sig)) (V (main_arg2 : DevRef τ sig)) (V (main_arg3 : DevRef τ sig))
        (V (main_arg4 : DevRef τ sig)) (V (main_arg5 : DevRef τ sig)) (V (main_arg6 : DevRef τ sig)) (V (main_arg7 : DevRef τ sig)) := by
  simp only [ops, after_append]
  rw [afterE_v82, afterD_v65, afterC_v45, afterB_v28]
  rw [keepD_v3, keepD_v6, keepD_v28, keepD_arg6, keepD_arg7]
  rw [keepC_v3, keepC_v6, keepC_v28, keepC_arg4, keepC_arg5, keepC_arg6, keepC_arg7, afterB_v28]
  rw [keepB_v3, keepB_v6, keepB_arg0, keepB_arg2, keepB_arg3, keepB_arg4, keepB_arg5, keepB_arg6, keepB_arg7]
  rw [afterA_v3, afterA_v6, keepA_arg0, keepA_arg2, keepA_arg3, keepA_arg4, keepA_arg5, keepA_arg6, keepA_arg7]
  rfl

end Stages

/-- From any memory with zero counters, every weakly fair execution of the reference terminates; the result buffer then
    holds `out` of the argument arrays as the memory had them, and the argument arrays are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v82) = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun _ h c => ⟨(h c main_v82).trans (out_eq (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c)),
      (h c main_arg6).trans (keep_arg6 (launchContents m c)),
      (h c main_arg7).trans (keep_arg7 (launchContents m c))⟩)
    (run_seq scopedRefs_eq scopedSems_eq defs main (fun _ => ops) main_eq (fun _ => ops_sub) m ρ)

end Cert.ReferenceIdeal.RefRun

end
-- ==== Proof.RefDot.lean ====
import proofs.«177512_j55714315763894_1_alg».proof.ReferenceIdeal
import proofs.«177512_j55714315763894_1_alg».proof.Proof.Gen.ReferenceIdeal
import proofs.«177512_j55714315763894_1_alg».proof.Proof.LibMatProd
import Idealize.ShloMosaic.Lib.ValueIdx
import Idealize.ShloMosaic.PureOps.Ideal.Laws

/-!
  The reference's two host contractions, at the ideal instance, as the explicit matrix product.

  Each contracts the left operand's axis 1 against the right operand's axis 0 and keeps the left's axis 0 and
  the right's axis 1, with no batch axis. Over the extended reals the host contraction at an index is the sum
  over the contraction's index set of the operands' products, whatever the schedule; re-indexed by the one
  contracted coordinate that sum is `Σ_k x (r, k) · w (k, q)`.
-/

noncomputable section

namespace Cert.RefDot

open Idealize.ShloMosaic Idealize.ShloMosaic.ValueIdx Cert.ReferenceIdeal

/-- The first layer's contraction, `[100000, 128] × [128, 64]`, is the matrix product. -/
theorem dot1 (a0 : FVec Ideal S100000x128 .f32) (a2 : FVec Ideal S128x64 .f32) :
    Host.dotGeneral (F := Ideal) dot_S100000x128_S128x64_S100000x64_1_0_0_1_n_n none a0 a2 = Cert.Gcn.Dense.prod a0 a2 := by
  funext i
  refine (Ideal.dotGeneral_apply dot_S100000x128_S128x64_S100000x64_1_0_0_1_n_n none .single a0 a2 i).trans ?_
  exact Cert.Gcn.Dense.sum_contr_eq_prod (M := 100000) (K := 128) (N := 64) dot_S100000x128_S128x64_S100000x64_1_0_0_1_n_n rfl rfl
    (fun i k => rfl) (fun i k => DotDims.lhsIdx_val_of_single _ rfl i k)
    (fun i k => DotDims.rhsIdx_val_of_single _ rfl i k) (fun i k => rfl) a0 a2 i

/-- The second layer's contraction, `[100000, 64] × [64, 32]`, is the matrix product. -/
theorem dot2 (x : FVec Ideal S100000x64 .f32) (w : FVec Ideal S64x32 .f32) :
    Host.dotGeneral (F := Ideal) dot_S100000x64_S64x32_S100000x32_1_0_0_1_n_n none x w = Cert.Gcn.Dense.prod x w := by
  funext i
  refine (Ideal.dotGeneral_apply dot_S100000x64_S64x32_S100000x32_1_0_0_1_n_n none .single x w i).trans ?_
  exact Cert.Gcn.Dense.sum_contr_eq_prod (M := 100000) (K := 64) (N := 32) dot_S100000x64_S64x32_S100000x32_1_0_0_1_n_n rfl rfl
    (fun i k => rfl) (fun i k => DotDims.lhsIdx_val_of_single _ rfl i k)
    (fun i k => DotDims.rhsIdx_val_of_single _ rfl i k) (fun i k => rfl) x w i

end Cert.RefDot

end
-- ==== Proof.Join.lean ====
/-
  The kernel's value and the reference's value are one function of the arguments.

  Both programs compute  layer₂ (relu (bn (layer₁ (x · W₁)))) · W₂  with the same graph aggregation `layer`
  (same sources, targets and message weights, computed from the edge list by the same operations). They differ in
  two places. The matrix products: the kernel's row-blocked products and the reference's host contraction are both
  `Σ_k x (p,k) · w (k,q)`. The normalisation: the kernel folds sums and sums of squares into a scale and a shift,
  the reference centres and divides; these agree when the first layer's output is real, which it is for real
  features, weights and bias because every in-degree counts the node's own self-loop.
-/
import proofs.«177512_j55714315763894_1_alg».proof.Proof.Spec
import proofs.«177512_j55714315763894_1_alg».proof.Proof.Rescale
import proofs.«177512_j55714315763894_1_alg».proof.Proof.RealLayer
import proofs.«177512_j55714315763894_1_alg».proof.Proof.RefRun
import proofs.«177512_j55714315763894_1_alg».proof.Proof.RefDot
import proofs.«177512_j55714315763894_1_alg».proof.Proof.LibMatProd
import proofs.«177512_j55714315763894_1_alg».proof.Proof.Gen.KernelIdeal

noncomputable section

namespace Cert.Join

open Idealize Idealize.ShloMosaic Idealize.ShloMosaic.ValueIdx Cert.KernelIdeal Cert.Spec Cert.Proof.RealOps
open Cert.Gcn.Dense (prod)

/-! ## The two vocabularies name the same stages -/

theorem src_eq (a1 : IA S2x1600000) : Cert.ReferenceIdeal.RefRun.src a1 = src a1 := rfl
theorem dst_eq (a1 : IA S2x1600000) : Cert.ReferenceIdeal.RefRun.dst a1 = dst a1 := rfl
theorem nrm_eq (a1 : IA S2x1600000) : Cert.ReferenceIdeal.RefRun.nrm a1 = nrm a1 := rfl
theorem layer1_eq (s d : IA S1700000) (n : FA S1700000) (h : FA S100000x64) (b : FA S64) :
    Cert.ReferenceIdeal.RefRun.layer1 s d n h b = layer1 s d n h b := rfl
theorem layer2_eq (s d : IA S1700000) (n : FA S1700000) (h : FA S100000x32) (b : FA S32) :
    Cert.ReferenceIdeal.RefRun.layer2 s d n h b = layer2 s d n h b := rfl

/-- A matrix product of real matrices is real. -/
theorem prod_real {M K N : Nat} {x : (⟨2, ![M, K]⟩ : Shape).Idx → EReal} {w : (⟨2, ![K, N]⟩ : Shape).Idx → EReal}
    (hx : AllReal x) (hw : AllReal w) : AllReal (prod x w) := fun i =>
  real_sum _ _ fun k _ => real_mul (hx _) (hw _)

/-- THE JOIN, over named intermediate arrays: `M0` the first product, `H1` the first layer's output, `S`, `Q` its
    column sums and sums of squares, `R2` the kernel's normalised and rectified array, `M3` the second product. -/
theorem value_eq (a0 : FA S100000x128) (a1 : IA S2x1600000) (a2 : FA S128x64) (a3 a4 a5 : FA S64) (a6 : FA S64x32)
    (a7 : FA S32)
    (hbn : ∀ (H : FA S100000x64) (g b : FA S64) (p : Fin 100000) (q : Fin 64),
      Cert.ReferenceIdeal.RefRun.bn H g b (ix2 p q) = Cert.Rescale.centred H g b p q)
    (M0 : FA S100000x64) (hM0 : M0 = prod a0 a2)
    (H1 : FA S100000x64) (hH1 : H1 = layer1 (src a1) (dst a1) (nrm a1) M0 a3)
    (S Q : FA S1x64)
    (hS : ∀ q : Fin 64, S (ix2 (0 : Fin 1) q) = ∑ p : Fin 100000, H1 (ix2 p q))
    (hQ : ∀ q : Fin 64, Q (ix2 (0 : Fin 1) q) = ∑ p : Fin 100000, H1 (ix2 p q) * H1 (ix2 p q))
    (R2 : FA S100000x64)
    (hR2 : ∀ (p : Fin 100000) (q : Fin 64), R2 (ix2 p q)
      = max (H1 (ix2 p q) * scale S Q a4 (ix2 (0 : Fin 1) q) + shift S Q a4 a5 (ix2 (0 : Fin 1) q)) 0)
    (M3 : FA S100000x32) (hM3 : M3 = prod R2 a6)
    (h0 : AllReal a0) (h2 : AllReal a2) (h3 : AllReal a3) (h4 : AllReal a4) (h5 : AllReal a5) :
    layer2 (src a1) (dst a1) (nrm a1) M3 a7 = Cert.ReferenceIdeal.RefRun.out a0 a1 a2 a3 a4 a5 a6 a7 := by
  subst hM0 hM3
  have hreal : AllReal H1 := by
    rw [hH1]
    exact Cert.RealLayer.layer1_real _ _ (Cert.RealLayer.nrm_real a1) (prod_real h0 h2) h3
  have hR2' : R2 = Cert.ReferenceIdeal.RefRun.bn H1 a4 a5 := by
    funext i
    obtain ⟨p, q, rfl⟩ : ∃ (p : Fin 100000) (q : Fin 64), i = ix2 p q := ⟨i 0, i 1, eq_ix2 i⟩
    rw [hR2 p q, Cert.Rescale.rescale_eq_centred H1 S Q a4 a5 hS hQ hreal h4 h5 p q, hbn]
  unfold Cert.ReferenceIdeal.RefRun.out
  rw [Cert.RefDot.dot1, Cert.RefDot.dot2, src_eq, dst_eq, nrm_eq, layer1_eq, layer2_eq, ← hH1, ← hR2']

end Cert.Join

end
-- ==== Proof.KValue.lean ====
/-
  The kernel's result array, read off its run, is the reference's function of the arguments.

  The run leaves the result at the last host stretch applied to region 3's output; walking back: region 3 is the
  product of region 2's output with the second weight matrix; region 2 rescales and rectifies the first layer's
  output by the scale and shift the middle stretch folds from region 1's column sums; the first layer's output is
  the first stretch's aggregation of region 0's product. Each step is one equation of the run's modules; together
  they are the hypotheses of `Join.value_eq`.
-/
import proofs.«177512_j55714315763894_1_alg».proof.Proof.KHost
import proofs.«177512_j55714315763894_1_alg».proof.Proof.KReg0
import proofs.«177512_j55714315763894_1_alg».proof.Proof.KReg2
import proofs.«177512_j55714315763894_1_alg».proof.Proof.KReg3
import proofs.«177512_j55714315763894_1_alg».proof.Proof.Join

noncomputable section

namespace Cert.KernelIdeal.KValue

open Idealize Idealize.ShloMosaic Idealize.ShloMosaic.ValueIdx Idealize.ShloMosaic.TcCoe Idealize.SL.Sem
  Cert.KernelIdeal Cert.Proof.RealOps

variable (m : (ℓ : Loc nD τ sig) → Buf (Elt Ideal) ℓ) (ρ : Dev nD → PrngReg) (c : Dev nD)

/-- Every array of the run is named by a typed variable: the arguments `a0 … a7` (`e0 … e7`), region 0's product
    `M0`, the first layer's output `H1`, region 1's outputs `S`, `Q`, region 2's output `R2`, region 3's product `M3`
    (`hM0d … hM3d` say which array of the run each is). Given the reading of the reference's normalisation at an
    entry (`hbn`), that `S`, `Q` are the column sums and sums of squares of `H1` (`hS`, `hQ`), and real float
    arguments: the kernel's result array is the reference's composed function. -/
theorem result_eq
    (hbn : ∀ (H : Spec.FA S100000x64) (g b : Spec.FA S64) (p : Fin 100000) (q : Fin 64),
      Cert.ReferenceIdeal.RefRun.bn H g b (ix2 p q) = Cert.Rescale.centred H g b p q)
    (a0 : Spec.FA S100000x128) (a1 : Spec.IA S2x1600000) (a2 : Spec.FA S128x64) (a3 a4 a5 : Spec.FA S64)
    (a6 : Spec.FA S64x32) (a7 : Spec.FA S32)
    (e0 : m ((c : Thread nD τ).loc main_arg0) = a0) (e1 : m ((c : Thread nD τ).loc main_arg1) = a1)
    (e2 : m ((c : Thread nD τ).loc main_arg2) = a2) (e3 : m ((c : Thread nD τ).loc main_arg3) = a3)
    (e4 : m ((c : Thread nD τ).loc main_arg4) = a4) (e5 : m ((c : Thread nD τ).loc main_arg5) = a5)
    (e6 : m ((c : Thread nD τ).loc main_arg6) = a6) (e7 : m ((c : Thread nD τ).loc main_arg7) = a7)
    (M0 : Spec.FA S100000x64) (hM0d : (Gen.dat0 (Gen.V1 m ρ) c).arrAt 2 cfg0.N = M0)
    (H1 : Spec.FA S100000x64) (hH1 : Gen.V3 m ρ c main_v45 = H1)
    (S Q : Spec.FA S1x64)
    (hSd : (Gen.dat1 (Gen.V3 m ρ) c).arrAt 1 cfg1.N = S) (hQd : (Gen.dat1 (Gen.V3 m ρ) c).arrAt 2 cfg1.N = Q)
    (R2 : Spec.FA S100000x64) (hR2d : (Gen.dat2 (Gen.V5 m ρ) c).arrAt 3 cfg2.N = R2)
    (M3 : Spec.FA S100000x32) (hM3d : (Gen.dat3 (Gen.V6 m ρ) c).arrAt 2 cfg3.N = M3)
    (hS : ∀ q : Fin 64, S (ix2 (0 : Fin 1) q) = ∑ p : Fin 100000, H1 (ix2 p q))
    (hQ : ∀ q : Fin 64, Q (ix2 (0 : Fin 1) q) = ∑ p : Fin 100000, H1 (ix2 p q) * H1 (ix2 p q))
    (h0 : AllReal a0) (h2 : AllReal a2) (h3 : AllReal a3) (h4 : AllReal a4) (h5 : AllReal a5) :
    (Gen.W8 m ρ c (Proc.devRef .tc main_v78) : Spec.FA S100000x32)
      = Cert.ReferenceIdeal.RefRun.out a0 a1 a2 a3 a4 a5 a6 a7 := by
  have L0 : M0 = Cert.Gcn.Dense.prod a0 a2 := by
    rw [← hM0d, KReg.final0 (Gen.V1 m ρ) c, KRun.V1_arg0, KRun.V1_arg2, e0, e2]
  have L1 : H1 = Spec.layer1 (Spec.src a1) (Spec.dst a1) (Spec.nrm a1) M0 a3 := by
    rw [← hH1, KRun.V3_v45 m ρ c, e1, e3, hM0d]
  have hsc : Gen.V5 m ρ c main_v57 = Spec.scale S Q a4 := by rw [KRun.V5_v57 m ρ c, hSd, hQd, e4]
  have hsh : Gen.V5 m ρ c main_v60 = Spec.shift S Q a4 a5 := by rw [KRun.V5_v60 m ρ c, hSd, hQd, e4, e5]
  have L4 : ∀ (p : Fin 100000) (q : Fin 64), R2 (ix2 p q)
      = max (H1 (ix2 p q) * Spec.scale S Q a4 (ix2 (0 : Fin 1) q) + Spec.shift S Q a4 a5 (ix2 (0 : Fin 1) q)) 0 := by
    intro p q
    rw [← hR2d]
    exact KReg.reg2 (Gen.V5 m ρ) c H1 (Spec.scale S Q a4) (Spec.shift S Q a4 a5)
      ((KRun.V5_v45 m ρ c).trans hH1) hsc hsh p q
  have L5 : M3 = Cert.Gcn.Dense.prod R2 a6 := by
    rw [← hM3d, KReg.final3 (Gen.V6 m ρ) c, KRun.V6_v61, KRun.V6_arg6, e6, hR2d]
  have L6 : (Gen.W8 m ρ c (Proc.devRef .tc main_v78) : Spec.FA S100000x32)
      = Spec.layer2 (Spec.src a1) (Spec.dst a1) (Spec.nrm a1) M3 a7 := by
    rw [KRun.W8_v78 m ρ c, e1, e7, hM3d]
  rw [L6]
  exact Cert.Join.value_eq a0 a1 a2 a3 a4 a5 a6 a7 hbn M0 L0 H1 L1 S Q hS hQ R2 L4 M3 L5 h0 h2 h3 h4 h5

end Cert.KernelIdeal.KValue

end
-- ==== Proof.RefBn.lean ====
import proofs.«177512_j55714315763894_1_alg».proof.Proof.RefRun
import proofs.«177512_j55714315763894_1_alg».proof.Proof.Rescale
import proofs.«177512_j55714315763894_1_alg».proof.Proof.Gen.KernelIdeal
import Idealize.ShloMosaic.PureOps.Ideal.Laws
import Idealize.ShloMosaic.Lib.ValueIdx

/-!
# The normalise-and-rectify stage of the reference, read at an entry

The stage's value at row `p`, column `q` of its operand `H`: the column mean is the column sum (a host sum reads
`0 + Σ`) over the node count; the variance's function recomputes that mean, sums the squared deviations and divides by
the node count less the converted integer zero, which is the node count again, and keeps the quotient because that
divisor is positive; the rest is pointwise, each broadcast read at the entry's column.
-/

noncomputable section

namespace Cert.RefBn

open Idealize Idealize.ShloMosaic Idealize.ShloMosaic.ValueIdx Cert.ReferenceIdeal Cert.ReferenceIdeal.Gen

variable {α : Type}

/-- A scalar broadcast to any shape reads the scalar. -/
theorem bc_scalar (s : Shape) (h : S_.BroadcastsInDim s (![] : Fin 0 → Fin s.rank)) (c : S_.Idx → α) (j : s.Idx) :
    broadcastInDim s ![] h c j = c ix0 := by
  unfold broadcastInDim
  exact congrArg c (funext fun a => a.elim0)

/-- A row vector broadcast down the rows reads the row at the column. -/
theorem bc_rows (v : S1x64.Idx → α) (p : Fin 100000) (q : Fin 64) :
    broadcastInDim S100000x64 ![0, 1] bcast_S1x64_S100000x64_0_1 v (ix2 p q) = v (ix2 (0 : Fin 1) q) := by
  unfold broadcastInDim
  refine congrArg v (funext fun a => ?_)
  match a with
  | ⟨0, _⟩ => rfl
  | ⟨1, _⟩ => rfl

/-- A vector placed as a one-row matrix reads the vector at the column. -/
theorem bc_row (v : S64.Idx → α) (q : Fin 64) :
    broadcastInDim S1x64 ![1] bcast_S64_S1x64_1 v (ix2 (0 : Fin 1) q) = v (ix1 q) := by
  unfold broadcastInDim
  refine congrArg v (funext fun a => ?_)
  match a with
  | ⟨0, _⟩ => rfl

/-- The exact-value float arrays of a shape. -/
abbrev A (S : Shape) : Type := FVec Ideal S .f32

/-- The column means: the column sums from zero, divided by the node count. -/
def colMean (h : A S100000x64) : A S64 :=
  Host.divf (F := Ideal) (Host.reduceAdd (F := Ideal) h (constant (F := Ideal) S_ .f32 0x00000000#32) reducesTo_S100000x64_S64_d0 h_S_) (broadcastInDim S64 ![] bcast_S_S64 (constant (F := Ideal) S_ .f32 0x47C35000#32))

/-- The deviations from the column means, as the variance's function forms them. -/
def dev (h : A S100000x64) : A S100000x64 :=
  subf (F := Ideal) h (broadcastInDim S100000x64 ![0, 1] bcast_S1x64_S100000x64_0_1 (Host.divf (F := Ideal) (broadcastInDim S1x64 ![1] bcast_S64_S1x64_1 (Host.reduceAdd (F := Ideal) h (constant (F := Ideal) S_ .f32 0x00000000#32) reducesTo_S100000x64_S64_d0 h_S_)) (broadcastInDim S1x64 ![] bcast_S_S1x64 (constant (F := Ideal) S_ .f32 0x47C35000#32))))

/-- The column variances: the squared deviations summed from zero and divided by the node count less zero, kept where
    that divisor is positive. -/
def colVar (h : A S100000x64) : A S64 :=
  select (broadcastInDim S64 ![] bcast_S_S64 (cmpf (F := Ideal) .ogt (subf (F := Ideal) (constant (F := Ideal) S_ .f32 0x47C35000#32) (sitofp (F := Ideal) .f32 (constantI S_ 32 0#32))) (constant (F := Ideal) S_ .f32 0x00000000#32))) (Host.divf (F := Ideal) (Host.reduceAdd (F := Ideal) (mulf (F := Ideal) (dev h) (dev h)) (constant (F := Ideal) S_ .f32 0x00000000#32) reducesTo_S100000x64_S64_d0 h_S_) (broadcastInDim S64 ![] bcast_S_S64 (subf (F := Ideal) (constant (F := Ideal) S_ .f32 0x47C35000#32) (sitofp (F := Ideal) .f32 (constantI S_ 32 0#32))))) (broadcastInDim S64 ![] bcast_S_S64 (id (constant (F := Ideal) S_ .f32 0x7FC00000#32)))

/-- The stage, with its means and variances named. -/
theorem bn_eq (h : A S100000x64) (g b : A S64) : Cert.ReferenceIdeal.RefRun.bn h g b
    = maximumf (F := Ideal) (addf (F := Ideal) (mulf (F := Ideal) (Host.divf (F := Ideal) (subf (F := Ideal) h (broadcastInDim S100000x64 ![0, 1] bcast_S1x64_S100000x64_0_1 (broadcastInDim S1x64 ![1] bcast_S64_S1x64_1 (colMean h)))) (broadcastInDim S100000x64 ![0, 1] bcast_S1x64_S100000x64_0_1 (broadcastInDim S1x64 ![1] bcast_S64_S1x64_1 (Host.sqrt (F := Ideal) (addf (F := Ideal) (colVar h) (broadcastInDim S64 ![] bcast_S_S64 (constant (F := Ideal) S_ .f32 0x3727C5AC#32))))))) (broadcastInDim S100000x64 ![0, 1] bcast_S1x64_S100000x64_0_1 (broadcastInDim S1x64 ![1] bcast_S64_S1x64_1 g))) (broadcastInDim S100000x64 ![0, 1] bcast_S1x64_S100000x64_0_1 (broadcastInDim S1x64 ![1] bcast_S64_S1x64_1 b))) (broadcastInDim S100000x64 ![] bcast_S_S100000x64 (constant (F := Ideal) S_ .f32 0x00000000#32)) := rfl

/-- The pattern of zero denotes zero. -/
theorem ofBits_zero : Ideal.ofBits .f32 0x00000000#32 = (0 : EReal) := by
  simp [Ideal.ofBits, Ideal.ieee]

set_option maxRecDepth 8192 in
/-- Summing down the rows drops the row axis. -/
theorem reduces_col : S100000x64.Reduces [0] S64 := by decide

/-- The index over column `q` whose row is `k`. -/
theorem lift_col (q : Fin 64) (k : Fin (S100000x64.size 0)) : reduces_col.lift (ix1 q) k = ix2 k q := by
  funext c
  match c with
  | ⟨0, _⟩ => exact Fin.ext rfl
  | ⟨1, _⟩ => exact Fin.ext rfl

/-- A host sum down the rows, from zero, read at a column. -/
theorem colsum_apply (X : A S100000x64) (q : Fin 64) :
    Host.reduceAdd (F := Ideal) X (constant (F := Ideal) S_ .f32 0x00000000#32) reducesTo_S100000x64_S64_d0 h_S_ (ix1 q)
      = 0 + ∑ i : Fin 100000, X (ix2 i q) := by
  simp only [Host.reduceAdd, constant, Ideal.hostReduceAdd_def, Ideal.ofBits_def]
  rw [ofBits_zero, Ideal.hostReduceAdd_single reducesTo_S100000x64_S64_d0 reduces_col X 0 (ix1 q)]
  exact congrArg (0 + ·) (Finset.sum_congr rfl fun k _ => congrArg X (lift_col q k))

/-- The column mean at a column. -/
theorem colMean_apply (h : A S100000x64) (q : Fin 64) :
    colMean h (ix1 q) = Ideal.div (0 + ∑ i : Fin 100000, h (ix2 i q)) (Ideal.ofBits .f32 0x47C35000#32) := by
  unfold colMean
  simp only [Host.divf]
  rw [colsum_apply, bc_scalar]
  rfl

/-- The deviation at an entry. -/
theorem dev_apply (h : A S100000x64) (i : Fin 100000) (q : Fin 64) :
    dev h (ix2 i q) = h (ix2 i q) - Ideal.div (0 + ∑ j : Fin 100000, h (ix2 j q)) (Ideal.ofBits .f32 0x47C35000#32) := by
  unfold dev
  simp only [subf]
  rw [bc_rows]
  simp only [Host.divf]
  rw [bc_row, colsum_apply, bc_scalar]
  rfl

/-- The node count less the integer zero converted is the node count. -/
theorem count_sub_zero :
    FloatOps.subf (F := Ideal) (FloatOps.ofBits .f32 0x47C35000#32) (FloatOps.sitofp .f32 (0#32 : BitVec 32))
      = Ideal.ofBits .f32 0x47C35000#32 := by
  show Ideal.ofBits .f32 0x47C35000#32 - ((((0#32 : BitVec 32).toInt : ℤ) : ℝ) : EReal) = _
  simp

/-- The node count is positive. -/
theorem count_pos :
    FloatOps.cmpf (F := Ideal) .ogt (Ideal.ofBits .f32 0x47C35000#32) (FloatOps.ofBits .f32 0x00000000#32) = 1#1 := by
  show Ideal.cmp .ogt (Ideal.ofBits .f32 0x47C35000#32) (Ideal.ofBits .f32 0x00000000#32) = 1#1
  rw [ofBits_zero, Cert.Norm.ofBits_100000]
  simp [Ideal.cmp]

/-- The column variance at a column: the divisor is the node count, and the quotient is the one kept. -/
theorem colVar_apply (h : A S100000x64) (q : Fin 64) :
    colVar h (ix1 q)
      = Ideal.div (0 + ∑ i : Fin 100000,
          (h (ix2 i q) - Ideal.div (0 + ∑ j : Fin 100000, h (ix2 j q)) (Ideal.ofBits .f32 0x47C35000#32))
            * (h (ix2 i q) - Ideal.div (0 + ∑ j : Fin 100000, h (ix2 j q)) (Ideal.ofBits .f32 0x47C35000#32)))
          (Ideal.ofBits .f32 0x47C35000#32) := by
  rw [show (∑ i : Fin 100000,
        (h (ix2 i q) - Ideal.div (0 + ∑ j : Fin 100000, h (ix2 j q)) (Ideal.ofBits .f32 0x47C35000#32))
          * (h (ix2 i q) - Ideal.div (0 + ∑ j : Fin 100000, h (ix2 j q)) (Ideal.ofBits .f32 0x47C35000#32)))
      = ∑ i : Fin 100000, dev h (ix2 i q) * dev h (ix2 i q) from
    Finset.sum_congr rfl fun i _ => by rw [dev_apply]]
  unfold colVar
  simp only [select]
  rw [bc_scalar, bc_scalar]
  simp only [Host.divf]
  rw [colsum_apply, bc_scalar]
  simp only [cmpf, subf, sitofp, constant, constantI, mulf, id]
  rw [count_sub_zero, count_pos]
  exact if_pos rfl

/-- The stage at an entry: the entry less its column's mean, over the root of the column's mean squared deviation
    plus the small constant, times the scale, plus the shift; the positive part. -/
theorem bn_apply (H : Cert.Spec.FA Cert.KernelIdeal.S100000x64) (g b : Cert.Spec.FA Cert.KernelIdeal.S64)
    (p : Fin 100000) (q : Fin 64) :
    Cert.ReferenceIdeal.RefRun.bn H g b (ix2 p q) = Cert.Rescale.centred H g b p q := by
  rw [bn_eq]
  simp only [maximumf, addf, mulf, Host.divf, subf]
  rw [bc_rows, bc_rows, bc_rows, bc_rows, bc_row, bc_row, bc_row, bc_row, bc_scalar]
  simp only [Host.sqrt, addf]
  rw [bc_scalar, colMean_apply, colVar_apply]
  have hz : constant (F := Ideal) S_ .f32 0x00000000#32 ix0 = (0 : EReal) := ofBits_zero
  rw [hz]
  rfl

end Cert.RefBn

end
-- ==== Proof.FiniteArgs.lean ====
/-
  From the precondition to real-valued arguments.

  The precondition is the conjunction, over the seven float arguments, of "every entry `x` has `|x| < +∞`", each an
  and-reduction of a pointwise comparison against the pattern of `+∞`. On the extended reals `|x| = max x (-x)` is
  `⊤` exactly at `x = ⊤` and `x = ⊥`, so the bit being set at every index says every entry is a real number.
-/
import proofs.«177512_j55714315763894_1_alg».proof.Pre_finite_inputs
import proofs.«177512_j55714315763894_1_alg».proof.Proof.LibRealOps
import Idealize.ShloMosaic.Lib.ReduceAll
import Idealize.ShloMosaic.Lib.ValueIdx
import Idealize.ShloMosaic.PureOps.Ideal
import Idealize.ShloMosaic.PureOps.Ideal.Laws

noncomputable section

namespace Cert.FiniteArgs

open Idealize Idealize.ShloMosaic Cert.Pre_finite_inputs Cert.Proof.RealOps

variable [Cert.Pre_finite_inputs.Facts]
open Cert.Pre_finite_inputs.Facts

instance : Subsingleton S_.Idx := ⟨fun a b => funext fun d => d.elim0⟩

/-- The pattern of `+∞`. -/
theorem ofBits_inf : Ideal.ofBits .f32 0x7F800000#32 = ⊤ := by simp [Ideal.ofBits, Ideal.ieee]

/-- An extended real whose absolute value is below `⊤` is a real. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- An array whose every entry passes the test `|x| < +∞` is real-valued. -/
theorem allReal_of_test {S : Shape} (a : FVec Ideal S .f32) (hb : S_.BroadcastsInDim S (![] : Fin 0 → Fin S.rank))
    (H : ∀ i, cmpf .olt (Host.absf a) (broadcastInDim S ![] hb (constant (F := Ideal) S_ .f32 0x7F800000#32)) i = 1#1) :
    AllReal a := by
  intro i
  have hi := H i
  change Ideal.cmp .olt (max (a i) (-(a i))) (Ideal.ofBits .f32 0x7F800000#32) = 1#1 at hi
  rw [ofBits_inf] at hi
  exact real_of_abs_lt_top _ hi

/-- Under the precondition every float argument is real-valued. -/
theorem allReal_of_pre (a0 : FVec Ideal S100000x128 .f32) (a1 : IVec S2x1600000 32) (a2 : FVec Ideal S128x64 .f32)
    (a3 a4 a5 : FVec Ideal S64 .f32) (a6 : FVec Ideal S64x32 .f32) (a7 : FVec Ideal S32 .f32)
    (h : fn (F := Ideal) a0 a1 a2 a3 a4 a5 a6 a7 = fun _ => 1#1) :
    AllReal a0 ∧ AllReal a2 ∧ AllReal a3 ∧ AllReal a4 ∧ AllReal a5 ∧ AllReal a6 ∧ AllReal a7 := by
  have h0 := congrFun h ValueIdx.ix0
  dsimp only [fn, fn_part1] at h0
  obtain ⟨h0, h7⟩ := IntOp.andi_eq_one.1 (show IntOp.andi _ _ = 1#1 from h0)
  obtain ⟨h0, h6⟩ := IntOp.andi_eq_one.1 (show IntOp.andi _ _ = 1#1 from h0)
  obtain ⟨h0, h5⟩ := IntOp.andi_eq_one.1 (show IntOp.andi _ _ = 1#1 from h0)
  obtain ⟨h0, h4⟩ := IntOp.andi_eq_one.1 (show IntOp.andi _ _ = 1#1 from h0)
  obtain ⟨h0, h3⟩ := IntOp.andi_eq_one.1 (show IntOp.andi _ _ = 1#1 from h0)
  obtain ⟨h0, h2⟩ := IntOp.andi_eq_one.1 (show IntOp.andi _ _ = 1#1 from h0)
  exact ⟨allReal_of_test a0 _ (Host.reduce_andi_all _ _ _ _ _ h0),
    allReal_of_test a2 _ (Host.reduce_andi_all _ _ _ _ _ h2),
    allReal_of_test a3 _ (Host.reduce_andi_all _ _ _ _ _ h3),
    allReal_of_test a4 _ (Host.reduce_andi_all _ _ _ _ _ h4),
    allReal_of_test a5 _ (Host.reduce_andi_all _ _ _ _ _ h5),
    allReal_of_test a6 _ (Host.reduce_andi_all _ _ _ _ _ h6),
    allReal_of_test a7 _ (Host.reduce_andi_all _ _ _ _ _ h7)⟩

end Cert.FiniteArgs

end
-- ==== Proof.lean ====
/-
  The certificate of a two-layer graph convolution with batch normalisation and a rectifier between the layers
  (100000 nodes, 1600000 edges and one self-loop per node, widths 128 → 64 → 32), kernel against reference,
  over the extended reals.

  Both programs compute  `layer (relu (bn (layer (x · W₁) b₁))) · W₂` aggregated once more with `b₂`, where
  `layer h b` gathers the rows of `h` along the messages' sources, scales message `e` by
  `1/√deg(src e) · 1/√deg(dst e)`, adds the messages up at their targets and adds the bias. The kernel computes the
  two matrix products, the column sums and sums of squares, and the rescale-and-rectify step in four row-blocked
  kernel regions; everything else is host arithmetic, the same operations in both programs.

  * The frames of the two kernel programs are their run over the four regions; the reference's is its host run.
  * The idealisation rewrote nothing, so there is nothing to preserve.
  * The values: the kernel's run leaves the result array at a composition (`KRun.run_main`, `KValue.result_eq`) of
    the shared aggregation with the regions' closed forms — a block product is the product's block, the accumulated
    column sums are the sums over all rows (addition on the extended reals is commutative and associative) —; the
    reference's run leaves it at its operations' composition (`RefRun.run`). The two compositions differ in the
    arrangement of the normalisation: scale `γ · rsqrt v` and shift `β − μ · γ · rsqrt v` from `v = Q/N − μ²`, against
    `(h − μ) / √v' · γ + β` with `v' = Σ (h − μ)² / N`. These agree on REAL columns (`BN.bn_eq`) and part on columns with
    an infinity, so the precondition is used: finite features, weights and bias make the first layer's output
    real, because each node's in-degree counts its own self-loop and `1/√deg` is therefore a real (`RealLayer`).
-/
import proofs.«177512_j55714315763894_1_alg».proof.Defs
import proofs.«177512_j55714315763894_1_alg».proof.Proof.Gen.Kernel
import proofs.«177512_j55714315763894_1_alg».proof.Proof.Gen.Kernel.Skeleton
import proofs.«177512_j55714315763894_1_alg».proof.Proof.Gen.Kernel.Launch
import proofs.«177512_j55714315763894_1_alg».proof.Proof.Gen.Kernel.Points
import proofs.«177512_j55714315763894_1_alg».proof.Proof.Gen.Kernel.Frame
import proofs.«177512_j55714315763894_1_alg».proof.Proof.Gen.KernelIdeal
import proofs.«177512_j55714315763894_1_alg».proof.Proof.Gen.KernelIdeal.Skeleton
import proofs.«177512_j55714315763894_1_alg».proof.Proof.Gen.KernelIdeal.Launch
import proofs.«177512_j55714315763894_1_alg».proof.Proof.Gen.KernelIdeal.Points
import proofs.«177512_j55714315763894_1_alg».proof.Proof.Gen.KernelIdeal.Frame
import proofs.«177512_j55714315763894_1_alg».proof.Proof.Gen.ReferenceIdeal
import proofs.«177512_j55714315763894_1_alg».proof.Proof.Gen.Pre_finite_inputs
import proofs.«177512_j55714315763894_1_alg».proof.Proof.KRun
import proofs.«177512_j55714315763894_1_alg».proof.Proof.KReg1
import proofs.«177512_j55714315763894_1_alg».proof.Proof.KValue
import proofs.«177512_j55714315763894_1_alg».proof.Proof.RefRun
import proofs.«177512_j55714315763894_1_alg».proof.Proof.RefBn
import proofs.«177512_j55714315763894_1_alg».proof.Proof.FiniteArgs
import Idealize.ShloMosaic.Adequacy
import Idealize.ShloMosaic.Init

noncomputable section

namespace Cert.Proof

open Idealize.ShloMosaic Idealize.ShloMosaic.TcCoe Idealize.SL.Sem

/-- The kernel as printed runs, and leaves its arguments as launched. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RefRun.run m ρ)

/-- No operation was rewritten. -/
theorem preserves : Cert.preserves_Kernel_KernelIdeal := trivial

/-- From memories agreeing on the arguments, finite, both programs end with the same result array. -/
theorem algebraic : Cert.algebraic_KernelIdeal_ReferenceIdeal := by
  intro m ρ m' ρ' hpre hagree
  refine ⟨fun c => Cert.KernelIdeal.Gen.W8 m ρ c (Proc.devRef .tc Cert.KernelIdeal.main_v78),
    Cert.KernelIdeal.KRun.run_main (F := Ideal) m ρ, ?_⟩
  refine (θ_run Cert.ReferenceIdeal.defs _ _).mono (fun r h c => ⟨(h c).1.trans ?_, (h c).2⟩)
    (Cert.ReferenceIdeal.RefRun.run m' ρ')
  obtain ⟨e0, e1, e2, e3, e4, e5, e6, e7⟩ := hagree c
  rw [e0, e1, e2, e3, e4, e5, e6, e7]
  obtain ⟨h0, h2, h3, h4, h5, -, -⟩ := Cert.FiniteArgs.allReal_of_pre _ _ _ _ _ _ _ _ (hpre c)
  exact (Cert.KernelIdeal.KValue.result_eq m ρ c Cert.RefBn.bn_apply
    _ _ _ _ _ _ _ _ rfl rfl rfl rfl rfl rfl rfl rfl
    _ rfl _ rfl _ _ rfl rfl _ rfl _ rfl
    (fun q => Cert.KernelIdeal.KReg.reg1_sum (Cert.KernelIdeal.Gen.V3 m ρ) c _ rfl q)
    (fun q => Cert.KernelIdeal.KReg.reg1_sumsq (Cert.KernelIdeal.Gen.V3 m ρ) c _ rfl q)
    h0 h2 h3 h4 h5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
